-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.named_const.Statement Cert.KernelIdeal.κ "inv_temperature" .f32 0x41200000#32 ((134217728 / 13421773 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S4096 : Shape := ⟨1, ![4096]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel

variable [Facts]

def fn {F : FTy → Type} [FloatOps F] (main_arg0 : FVec F S4096x1024 .f32) (main_arg1 : IVec S4096 32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  main_v3
-- ==== Kernel.lean ====
abbrev S4096x1024 : Shape := ⟨2, ![4096, 1024]⟩
abbrev S4096 : Shape := ⟨1, ![4096]⟩
abbrev S_ : Shape := ⟨0, ![]⟩
abbrev S4096x1 : Shape := ⟨2, ![4096, 1]⟩
abbrev S1x4096 : Shape := ⟨2, ![1, 4096]⟩
abbrev S512x1024 : Shape := ⟨2, ![512, 1024]⟩
abbrev S512x1 : Shape := ⟨2, ![512, 1]⟩
abbrev S1x512 : Shape := ⟨2, ![1, 512]⟩
abbrev S1024x512 : Shape := ⟨2, ![1024, 512]⟩
abbrev S512x512 : Shape := ⟨2, ![512, 512]⟩
abbrev S512 : Shape := ⟨1, ![512]⟩
abbrev S64x128 : Shape := ⟨2, ![64, 128]⟩
abbrev S8x128 : Shape := ⟨2, ![8, 128]⟩
abbrev S1x1 : Shape := ⟨2, ![1, 1]⟩
abbrev S1 : Shape := ⟨1, ![1]⟩
abbrev S8x8x128 : Shape := ⟨3, ![8, 8, 128]⟩
abbrev S8x1x1 : Shape := ⟨3, ![8, 1, 1]⟩
abbrev S8 : Shape := ⟨1, ![8]⟩

abbrev nBuf : Space → Nat
  | .hbm => 24
  | .vmem => 24
  | .smem => 0
  | _ => 0

abbrev bufTy : (tb : Table) → Fin (tcTables nBuf tb) → BufTy
  | .hbm, ⟨0, _⟩ => ⟨S4096x1024, .f32⟩
  | .hbm, ⟨1, _⟩ => ⟨S4096, .i32⟩
  | .hbm, ⟨2, _⟩ => ⟨S4096x1024, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S4096x1024, .f32⟩
  | .hbm, ⟨11, _⟩ => ⟨S4096x1024, .f32⟩
  | .hbm, ⟨12, _⟩ => ⟨S4096x1024, .bf16⟩
  | .hbm, ⟨13, _⟩ => ⟨S4096x1, .i32⟩
  | .hbm, ⟨14, _⟩ => ⟨S1x4096, .i32⟩
  | .hbm, ⟨15, _⟩ => ⟨S1x4096, .f32⟩
  | .hbm, ⟨16, _⟩ => ⟨S64x128, .f32⟩
  | .hbm, ⟨17, _⟩ => ⟨S8x8x128, .f32⟩
  | .hbm, ⟨18, _⟩ => ⟨S8x1x1, .f32⟩
  | .hbm, ⟨19, _⟩ => ⟨S8, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1, .i32⟩
  | .local _ .vmem, ⟨5, _⟩ => ⟨S512x1, .i32⟩
  | .local _ .vmem, ⟨6, _⟩ => ⟨S1x512, .i32⟩
  | .local _ .vmem, ⟨7, _⟩ => ⟨S1x512, .i32⟩
  | .local _ .vmem, ⟨8, _⟩ => ⟨S1x512, .f32⟩
  | .local _ .vmem, ⟨9, _⟩ => ⟨S1x512, .f32⟩
  | .local _ .vmem, ⟨10, _⟩ => ⟨S1x512, .f32⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1, .i32⟩
  | .local _ .vmem, ⟨16, _⟩ => ⟨S512x1, .i32⟩
  | .local _ .vmem, ⟨17, _⟩ => ⟨S1x512, .i32⟩
  | .local _ .vmem, ⟨18, _⟩ => ⟨S1x512, .i32⟩
  | .local _ .vmem, ⟨19, _⟩ => ⟨S1x512, .f32⟩
  | .local _ .vmem, ⟨20, _⟩ => ⟨S1x512, .f32⟩
  | .local _ .vmem, ⟨21, _⟩ => ⟨S8x128, .f32⟩
  | .local _ .vmem, ⟨22, _⟩ => ⟨S8x128, .f32⟩
  | .local _ .vmem, ⟨23, _⟩ => ⟨S1x1, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_stg4_0 : Ref sig .tc := ⟨.vmem, 19, rfl⟩
abbrev cc1_stg4_1 : Ref sig .tc := ⟨.vmem, 20, rfl⟩
abbrev cc1_stg5_0 : Ref sig .tc := ⟨.vmem, 21, rfl⟩
abbrev cc1_stg5_1 : Ref sig .tc := ⟨.vmem, 22, rfl⟩
abbrev cc1_scratch0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev grid1 : Pipeline.Grid := ⟨2, ![8, 8], ![false, false]⟩

def k1_cond2 (i : grid1.Coords) : BitVec 1 :=
  let arg1 : BitVec 32 := BitVec.ofNat 32 (i 1).val
  let c7_i32 : BitVec 32 := 7#32
  let v55 : BitVec 1 := Scalar.cmpi .eq arg1 c7_i32
  let v56 : BitVec 32 := Scalar.extui v55
  let c0_i32_25 : BitVec 32 := 0#32
  let v57 : BitVec 1 := Scalar.cmpi .ne v56 c0_i32_25
  v57

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S512x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S512x1 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x512 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S1x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true]

abbrev stage1_5 : Fin 2 → Memref sig .tc .vmem S8x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

class Facts₀ : Prop where
  reducesTo_S4096x1024_S4096_d1 : S4096x1024.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x1024_0_1 : S4096x1.BroadcastsInDim S4096x1024 (![0, 1] : Fin 2 → Fin S4096x1024.rank)
  bitsLt_bf16_f32 : FTy.bits .bf16 < FTy.bits .f32
  shapeCasts_S4096_S4096x1 : S4096.ShapeCasts S4096x1
  shapeCasts_S4096_S1x4096 : S4096.ShapeCasts S1x4096
  inb_S1x512_S1x512_0_0 : ∀ a, (![0, 0] : Fin 2 → Nat) a + S1x512.size a ≤ S1x512.size a
  h_S1x512 : 0 < S1x512.numel
  shapeCasts_S1x512_S1x512 : S1x512.ShapeCasts S1x512
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  transposes_S512x1024_p1_0_S1024x512 : S512x1024.Transposes [1, 0] S1024x512
  inb_S512x1_S512x1_0_0 : ∀ a, (![0, 0] : Fin 2 → Nat) a + S512x1.size a ≤ S512x1.size a
  h_S512x1 : 0 < S512x1.numel
  shapeCasts_S512x1_S512x1 : S512x1.ShapeCasts S512x1
  broadcasts_S512x1_S512x512 : S512x1.Broadcasts S512x512
  broadcasts_S1x512_S512x512 : S1x512.Broadcasts S512x512
  reduces_S512x512_S512 : S512x512.Reduces [0] S512
  shapeCasts_S512_S1x512 : S512.ShapeCasts S1x512
  inb_S1x1_S1x1_0_0 : ∀ a, (![0, 0] : Fin 2 → Nat) a + S1x1.size a ≤ S1x1.size a
  h_S1x1 : 0 < S1x1.numel
  shapeCasts_S1x1_S1x1 : S1x1.ShapeCasts S1x1
  iota_S512x512_d0_w32 : S512x512.Iotas .tc 32 [0]
  iota_S512x512_d1_w32 : S512x512.Iotas .tc 32 [1]
  reduces_S512x512_S512_2 : S512x512.Reduces [1] S512
  shapeCasts_S512_S512x1 : S512.ShapeCasts S512x1
  reduces_S512x1_S1 : S512x1.Reduces [0] S1
  shapeCasts_S1_S1x1 : S1.ShapeCasts S1x1
  broadcasts_S1x1_S8x128 : S1x1.Broadcasts S8x128
  inb_S8x128_S8x128_0_0 : ∀ a, (![0, 0] : Fin 2 → Nat) a + S8x128.size a ≤ S8x128.size a
  h_S8x128 : 0 < S8x128.numel
  shapeCasts_S64x128_S8x8x128 : S64x128.ShapeCasts S8x8x128
  slices_S8x8x128_S8x1x1_0_0_0 : S8x8x128.Slices ![0, 0, 0] S8x1x1
  shapeCasts_S8x1x1_S8 : S8x1x1.ShapeCasts S8
  reducesTo_S8_S_d0 : S8.ReducesTo [0] S_
  dot_S512x1024_S1024x512_S512x512_1_0_0_1_n_n_wf : DotDims.WF S512x1024 S1024x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .bf16 = 32 ∨ (Rect.block (s := S4096x1024) S512x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S4096x1024.size a
  hwx0_1 : ∀ i : grid0.Coords, EltTy.bits .bf16 = 32 ∨ (Rect.block (s := S4096x1024) S512x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S4096x1.size a
  hwx0_2 : ∀ i : grid0.Coords, EltTy.bits .i32 = 32 ∨ (Rect.block (s := S4096x1) S512x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x4096.size a
  hwx0_3 : ∀ i : grid0.Coords, EltTy.bits .i32 = 32 ∨ (Rect.block (s := S1x4096) S1x512.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x4096.size a
  hwx0_4 : ∀ i : grid0.Coords, EltTy.bits .f32 = 32 ∨ (Rect.block (s := S1x4096) S1x512.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S4096x1024.size a
  hwx1_0 : ∀ i : grid1.Coords, EltTy.bits .bf16 = 32 ∨ (Rect.block (s := S4096x1024) S512x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x1024.size a ≤ S4096x1024.size a
  hwx1_1 : ∀ i : grid1.Coords, EltTy.bits .bf16 = 32 ∨ (Rect.block (s := S4096x1024) S512x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x1.size a ≤ S4096x1.size a
  hwx1_2 : ∀ i : grid1.Coords, EltTy.bits .i32 = 32 ∨ (Rect.block (s := S4096x1) S512x1.size (cc1_transform_2 i) (hinb1_2 i)).WholeWords (EltTy.packing .i32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512.size a ≤ S1x4096.size a
  hwx1_3 : ∀ i : grid1.Coords, EltTy.bits .i32 = 32 ∨ (Rect.block (s := S1x4096) S1x512.size (cc1_transform_3 i) (hinb1_3 i)).WholeWords (EltTy.packing .i32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x512.size a ≤ S1x4096.size a
  hwx1_4 : ∀ i : grid1.Coords, EltTy.bits .f32 = 32 ∨ (Rect.block (s := S1x4096) S1x512.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S8x128.size a ≤ S64x128.size a
  hwx1_5 : ∀ i : grid1.Coords, EltTy.bits .f32 = 32 ∨ (Rect.block (s := S64x128) S8x128.size (cc1_transform_5 i) (hinb1_5 i)).WholeWords (EltTy.packing .f32)

variable [Facts₀]

def dot_S512x1024_S1024x512_S512x512_1_0_0_1_n_n : DotDims S512x1024 S1024x512 S512x512 where
  lhsContracting := [1]
  rhsContracting := [0]
  lhsNonContracting := [0]
  rhsNonContracting := [1]
  lhsBatch := []
  rhsBatch := []
  wf := dot_S512x1024_S1024x512_S512x512_1_0_0_1_n_n_wf

abbrev win0_0 : Pipeline.Window sig grid0 :=
  Pipeline.Window.ofSpec (Memref.whole main_v5) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v8) S1x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v5) S512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S512x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6) S512x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v7) S1x512.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v8) S1x512.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v9) S8x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond2 i == 1#1) | ⟨_ + 6, h⟩ => absurd h (Nat.not_lt.2 (Nat.le_add_left _ _))

class Facts : Prop extends Facts₀ where

variable [Facts]
-- ==== ReferenceIdeal.lean ====
abbrev S4096x1024 : Shape := ⟨2, ![4096, 1024]⟩
abbrev S4096 : Shape := ⟨1, ![4096]⟩
abbrev S_ : Shape := ⟨0, ![]⟩
abbrev S4096x1 : Shape := ⟨2, ![4096, 1]⟩
abbrev S1024x4096 : Shape := ⟨2, ![1024, 4096]⟩
abbrev S4096x4096 : Shape := ⟨2, ![4096, 4096]⟩
abbrev S1x4096 : Shape := ⟨2, ![1, 4096]⟩

abbrev nBuf : Space → Nat
  | .hbm => 64
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096, .i32⟩
  | .hbm, ⟨2, _⟩ => ⟨S4096x1024, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S4096x1024, .f32⟩
  | .hbm, ⟨11, _⟩ => ⟨S4096x1024, .f32⟩
  | .hbm, ⟨12, _⟩ => ⟨S1024x4096, .f32⟩
  | .hbm, ⟨13, _⟩ => ⟨S4096x4096, .f32⟩
  | .hbm, ⟨14, _⟩ => ⟨S_, .f32⟩
  | .hbm, ⟨15, _⟩ => ⟨S4096x4096, .f32⟩
  | .hbm, ⟨16, _⟩ => ⟨S4096x4096, .f32⟩
  | .hbm, ⟨17, _⟩ => ⟨S_, .f32⟩
  | .hbm, ⟨18, _⟩ => ⟨S4096x4096, .f32⟩
  | .hbm, ⟨19, _⟩ => ⟨S4096x4096, .f32⟩
  | .hbm, ⟨20, _⟩ => ⟨S4096x4096, .f32⟩
  | .hbm, ⟨21, _⟩ => ⟨S4096x1, .i32⟩
  | .hbm, ⟨22, _⟩ => ⟨S1x4096, .i32⟩
  | .hbm, ⟨23, _⟩ => ⟨S4096x4096, .i32⟩
  | .hbm, ⟨24, _⟩ => ⟨S4096x4096, .i32⟩
  | .hbm, ⟨25, _⟩ => ⟨S4096x4096, .i1⟩
  | .hbm, ⟨26, _⟩ => ⟨S4096x4096, .i32⟩
  | .hbm, ⟨27, _⟩ => ⟨S4096x4096, .i32⟩
  | .hbm, ⟨28, _⟩ => ⟨S_, .i32⟩
  | .hbm, ⟨29, _⟩ => ⟨S4096x4096, .i32⟩
  | .hbm, ⟨30, _⟩ => ⟨S4096x4096, .i32⟩
  | .hbm, ⟨31, _⟩ => ⟨S4096x4096, .i1⟩
  | .hbm, ⟨32, _⟩ => ⟨S4096x4096, .f32⟩
  | .hbm, ⟨33, _⟩ => ⟨S4096x4096, .f32⟩
  | .hbm, ⟨34, _⟩ => ⟨S4096x4096, .f32⟩
  | .hbm, ⟨35, _⟩ => ⟨S4096x4096, .i1⟩
  | .hbm, ⟨36, _⟩ => ⟨S4096x4096, .f32⟩
  | .hbm, ⟨37, _⟩ => ⟨S4096x4096, .f32⟩
  | .hbm, ⟨38, _⟩ => ⟨S_, .f32⟩
  | .hbm, ⟨39, _⟩ => ⟨S4096, .f32⟩
  | .hbm, ⟨40, _⟩ => ⟨S_, .f32⟩
  | .hbm, ⟨41, _⟩ => ⟨S4096, .f32⟩
  | .hbm, ⟨42, _⟩ => ⟨S4096, .f32⟩
  | .hbm, ⟨43, _⟩ => ⟨S4096x4096, .f32⟩
  | .hbm, ⟨44, _⟩ => ⟨S1x4096, .f32⟩
  | .hbm, ⟨45, _⟩ => ⟨S4096x4096, .f32⟩
  | .hbm, ⟨46, _⟩ => ⟨S4096x4096, .f32⟩
  | .hbm, ⟨47, _⟩ => ⟨S_, .f32⟩
  | .hbm, ⟨48, _⟩ => ⟨S4096x4096, .f32⟩
  | .hbm, ⟨49, _⟩ => ⟨S4096x4096, .i1⟩
  | .hbm, ⟨50, _⟩ => ⟨S_, .f32⟩
  | .hbm, ⟨51, _⟩ => ⟨S_, .f32⟩
  | .hbm, ⟨52, _⟩ => ⟨S4096x4096, .f32⟩
  | .hbm, ⟨53, _⟩ => ⟨S4096x4096, .f32⟩
  | .hbm, ⟨54, _⟩ => ⟨S4096x4096, .f32⟩
  | .hbm, ⟨55, _⟩ => ⟨S_, .f32⟩
  | .hbm, ⟨56, _⟩ => ⟨S_, .f32⟩
  | .hbm, ⟨57, _⟩ => ⟨S4096x4096, .f32⟩
  | .hbm, ⟨58, _⟩ => ⟨S4096x4096, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_c : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_2 : Ref sig .tc := ⟨.hbm, 38, rfl⟩
abbrev main_v28 : Ref sig .tc := ⟨.hbm, 39, rfl⟩
abbrev main_cst_3 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_4 : Ref sig .tc := ⟨.hbm, 47, rfl⟩
abbrev main_v35 : Ref sig .tc := ⟨.hbm, 48, rfl⟩
abbrev main_v36 : Ref sig .tc := ⟨.hbm, 49, rfl⟩
abbrev main_cst_5 : Ref sig .tc := ⟨.hbm, 50, rfl⟩
abbrev main_call1_v0 : Ref sig .tc := ⟨.hbm, 51, rfl⟩
abbrev main_call1_v1 : Ref sig .tc := ⟨.hbm, 52, rfl⟩
abbrev main_v37 : Ref sig .tc := ⟨.hbm, 53, rfl⟩
abbrev main_v38 : Ref sig .tc := ⟨.hbm, 54, rfl⟩
abbrev main_cst_6 : Ref sig .tc := ⟨.hbm, 55, rfl⟩
abbrev main_call2_v0 : Ref sig .tc := ⟨.hbm, 56, rfl⟩
abbrev main_call2_v1 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_v41 : Ref sig .tc := ⟨.hbm, 61, rfl⟩
abbrev main_cst_8 : Ref sig .tc := ⟨.hbm, 62, rfl⟩
abbrev main_v42 : Ref sig .tc := ⟨.hbm, 63, rfl⟩

abbrev nD : Nat := 1
abbrev τ : Topo := Topo.v7x

variable {F : FTy → Type} [FloatOps F]

class Facts₀ : Prop where
  reducesTo_S4096x1024_S4096_d1 : S4096x1024.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x1024_0_1 : S4096x1.BroadcastsInDim S4096x1024 (![0, 1] : Fin 2 → Fin S4096x1024.rank)
  transposes_S4096x1024_S1024x4096_1_0 : S4096x1024.Transposes [1, 0] S1024x4096
  bcast_S_S4096x4096 : S_.BroadcastsInDim S4096x4096 (![] : Fin 0 → Fin S4096x4096.rank)
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  reducesTo_S4096x4096_S4096_d0 : S4096x4096.ReducesTo [0] S4096
  bcast_S_S4096 : S_.BroadcastsInDim S4096 (![] : Fin 0 → Fin S4096.rank)
  reducesTo_S4096x4096_S_d0_1 : S4096x4096.ReducesTo [0, 1] S_
  dot_S4096x1024_S1024x4096_S4096x4096_1_0_0_1_n_n_wf : DotDims.WF S4096x1024 S1024x4096 S4096x4096 [1] [0] [0] [1] [] []

variable [Facts₀]

def dot_S4096x1024_S1024x4096_S4096x4096_1_0_0_1_n_n : DotDims S4096x1024 S1024x4096 S4096x4096 where
  lhsContracting := [1]
  rhsContracting := [0]
  lhsNonContracting := [0]
  rhsNonContracting := [1]
  lhsBatch := []
  rhsBatch := []
  wf := dot_S4096x1024_S1024x4096_S4096x4096_1_0_0_1_n_n_wf

class Facts : Prop extends Facts₀ where

variable [Facts]
-- ==== Proof.LibLogQuotientThreshold.lean ====
/-
  General facts over the real numbers about a loss of the form
      sum over pairs of  log (exp (a / c) / max D e)   taken only where that quotient is at least a threshold e,
  with a = a clamped inner product of two rows each divided by its clamped Euclidean norm.

  * Rows divided by their clamped norm have squares summing to at most 1, so by Cauchy-Schwarz their inner product is
    at most 1 (`sum_sq_div_clamped_norm_le_one`, `sum_mul_le_one`).
  * A sum of N terms exp (P i / c) * n i with every P i at most 1 and every n i in [0, 1] is at most N * exp (1 / c)
    (`sum_exp_mul_le`), and exp x is at most 3 ^ n for x at most n (`exp_le_three_pow`).
  * A quotient exp (a / c) / max D e with a non-negative, D * e at most 1 and e in (0, 1] is at least e
    (`threshold_le_quotient`): the threshold keeps every such pair.
  * For a positive denominator, log (exp a / D) = a - log D (`log_exp_div`), and dividing by c is multiplying by its
    reciprocal (`div_eq_mul_reciprocal`).
-/
import Mathlib

namespace Cert.Lib.LogQuotientThreshold

open Finset

variable {ι : Type*} [Fintype ι]

/-- Cauchy-Schwarz for two families whose squares each sum to at most 1: their inner product is at most 1. -/
theorem sum_mul_le_one (u v : ι → ℝ) (hu : ∑ k, u k ^ 2 ≤ 1) (hv : ∑ k, v k ^ 2 ≤ 1) : ∑ k, u k * v k ≤ 1 := by
  have hv0 : 0 ≤ ∑ k, v k ^ 2 := Finset.sum_nonneg fun k _ => sq_nonneg _
  have hprod : (∑ k, u k ^ 2) * ∑ k, v k ^ 2 ≤ 1 :=
    calc (∑ k, u k ^ 2) * ∑ k, v k ^ 2 ≤ 1 * 1 := mul_le_mul hu hv hv0 zero_le_one
      _ = 1 := one_mul 1
  have hsq : (∑ k, u k * v k) ^ 2 ≤ 1 := (Finset.sum_mul_sq_le_sq_mul_sq Finset.univ u v).trans hprod
  exact (abs_le.mp ((sq_le_one_iff_abs_le_one _).mp hsq)).2

/-- A family divided by the larger of its Euclidean norm and a positive floor has squares summing to at most 1. -/
theorem sum_sq_div_clamped_norm_le_one (x : ι → ℝ) {d : ℝ} (hd : 0 < d) :
    ∑ k, (x k / max (Real.sqrt (∑ j, x j ^ 2)) d) ^ 2 ≤ 1 := by
  have hs0 : 0 ≤ ∑ j, x j ^ 2 := Finset.sum_nonneg fun k _ => sq_nonneg _
  have hnpos : 0 < max (Real.sqrt (∑ j, x j ^ 2)) d := lt_of_lt_of_le hd (le_max_right _ _)
  have hle : Real.sqrt (∑ j, x j ^ 2) ≤ max (Real.sqrt (∑ j, x j ^ 2)) d := le_max_left _ _
  have hsn : ∑ j, x j ^ 2 ≤ max (Real.sqrt (∑ j, x j ^ 2)) d ^ 2 :=
    calc ∑ j, x j ^ 2 = Real.sqrt (∑ j, x j ^ 2) ^ 2 := (Real.sq_sqrt hs0).symm
      _ ≤ max (Real.sqrt (∑ j, x j ^ 2)) d ^ 2 := pow_le_pow_left₀ (Real.sqrt_nonneg _) hle 2
  have hsum : ∑ k, (x k / max (Real.sqrt (∑ j, x j ^ 2)) d) ^ 2
      = (∑ k, x k ^ 2) / max (Real.sqrt (∑ j, x j ^ 2)) d ^ 2 := by
    simp only [div_pow]; rw [← Finset.sum_div]
  rw [hsum]
  exact (div_le_one (pow_pos hnpos 2)).mpr hsn

/-- The inner product of two families, each divided by its clamped Euclidean norm, is at most 1. -/
theorem inner_div_clamped_norm_le_one (x y : ι → ℝ) {d : ℝ} (hd : 0 < d) :
    ∑ k, (x k / max (Real.sqrt (∑ j, x j ^ 2)) d) * (y k / max (Real.sqrt (∑ j, y j ^ 2)) d) ≤ 1 :=
  sum_mul_le_one _ _ (sum_sq_div_clamped_norm_le_one x hd) (sum_sq_div_clamped_norm_le_one y hd)

/-- A sum over a finite family of exp (P i / c) * n i, every P i at most 1 and every n i between 0 and 1, is at most the
    number of terms times exp (1 / c). -/
theorem sum_exp_mul_le {κ : Type*} [Fintype κ] (P n : κ → ℝ) {c : ℝ} (hc : 0 < c) (hP : ∀ i, P i ≤ 1)
    (hn0 : ∀ i, 0 ≤ n i) (hn1 : ∀ i, n i ≤ 1) :
    ∑ i, Real.exp (P i / c) * n i ≤ (Fintype.card κ : ℝ) * Real.exp (1 / c) := by
  calc ∑ i, Real.exp (P i / c) * n i ≤ ∑ _i : κ, Real.exp (1 / c) := Finset.sum_le_sum fun i _ => by
        have h1 : Real.exp (P i / c) ≤ Real.exp (1 / c) := Real.exp_le_exp.mpr (div_le_div_of_nonneg_right (hP i) hc.le)
        calc Real.exp (P i / c) * n i ≤ Real.exp (1 / c) * 1 := mul_le_mul h1 (hn1 i) (hn0 i) (Real.exp_pos _).le
          _ = Real.exp (1 / c) := mul_one _
    _ = (Fintype.card κ : ℝ) * Real.exp (1 / c) := by
        rw [Finset.sum_const, Finset.card_univ, nsmul_eq_mul]

/-- The exponential of a number at most the natural number n is at most 3 ^ n. -/
theorem exp_le_three_pow {x : ℝ} (n : ℕ) (hx : x ≤ n) : Real.exp x ≤ 3 ^ n :=
  calc Real.exp x ≤ Real.exp n := Real.exp_le_exp.mpr hx
    _ = Real.exp 1 ^ n := (Real.exp_one_pow n).symm
    _ ≤ 3 ^ n := pow_le_pow_left₀ (Real.exp_pos 1).le (by linarith [Real.exp_one_lt_d9]) n

/-- The threshold keeps the pair: with a non-negative exponent, a denominator whose product with the threshold is at most
    1, and a threshold in (0, 1], the quotient exp (a / c) / max D e is at least e. -/
theorem threshold_le_quotient {a c D e : ℝ} (ha : 0 ≤ a) (hc : 0 < c) (he : 0 < e) (he1 : e ≤ 1) (hD : D * e ≤ 1) :
    e ≤ Real.exp (a / c) / max D e := by
  have hm : 0 < max D e := lt_of_lt_of_le he (le_max_right _ _)
  rw [le_div_iff₀ hm]
  have h1 : 1 ≤ Real.exp (a / c) := Real.one_le_exp (div_nonneg ha hc.le)
  have h2 : e * max D e ≤ 1 := by
    rcases le_total D e with h | h
    · rw [max_eq_right h]
      calc e * e ≤ 1 * 1 := mul_le_mul he1 he1 he.le zero_le_one
        _ = 1 := one_mul 1
    · rw [max_eq_left h]; rw [mul_comm]; exact hD
  exact h2.trans h1

/-- The logarithm of exp a over a positive denominator is a minus the logarithm of the denominator. -/
theorem log_exp_div (a : ℝ) {D : ℝ} (hD : 0 < D) : Real.log (Real.exp a / D) = a - Real.log D := by
  rw [Real.log_div (Real.exp_ne_zero a) hD.ne', Real.log_exp]

/-- Dividing by c is multiplying by its reciprocal written as a quotient of two numbers p / q with c = q / p. -/
theorem div_eq_mul_reciprocal (a : ℝ) {p q : ℝ} (hp : p ≠ 0) (hq : q ≠ 0) : a / (q / p) = a * (p / q) := by
  field_simp

end Cert.Lib.LogQuotientThreshold
-- ==== Proof.ThresholdConstants.lean ====
/-
  The threshold of the reference never rejects a positive pair, at this kernel's own constants.

  c = 13421773 / 2^27 is the exact binary value of the temperature word and e = 14411519 / 2^57 that of the threshold
  word. A column's denominator D is a sum of at most 4096 terms exp (P / c) * n with P at most 1 (an inner product of
  two rows of norm at most 1, clamped below) and n in {0, 1}; so D is at most 4096 * exp (1 / c), at most 4096 * 3 ^ 10
  because 1 / c is at most 10, and 4096 * 3 ^ 10 * e is about 0.024. Hence D * e is at most 1 and the quotient
  exp (a / c) / max D e of any pair with a non-negative a is at least e.
-/
import proofs.«114457_j13606456394199_2_alg».proof.Proof.LibLogQuotientThreshold

namespace Cert.Proof.ThresholdConstants

open Cert.Lib.LogQuotientThreshold

/-- The temperature word's exact value. -/
noncomputable def c : ℝ := 13421773 / 134217728
/-- The threshold word's exact value. -/
noncomputable def e : ℝ := 14411519 / 144115188075855872

theorem c_pos : 0 < c := by unfold c; norm_num
theorem e_pos : 0 < e := by unfold e; norm_num
theorem e_le_one : e ≤ 1 := by unfold e; norm_num

/-- The reciprocal of the temperature word's value is at most 10 (it is 9.99999985...), and is not 10. -/
theorem inv_c_le_ten : 1 / c ≤ ((10 : ℕ) : ℝ) := by unfold c; norm_num
theorem inv_c_ne_ten : 1 / c ≠ 10 := by unfold c; norm_num

/-- The reciprocal is the value the table gives the kernel's second-pass scale. -/
theorem inv_c_eq : 1 / c = 134217728 / 13421773 := by unfold c; norm_num

/-- A column's denominator, a sum over the 4096 rows, times the threshold is at most 1. -/
theorem denominator_mul_threshold_le_one (P n : Fin 4096 → ℝ) (hP : ∀ i, P i ≤ 1) (hn0 : ∀ i, 0 ≤ n i) (hn1 : ∀ i, n i ≤ 1) :
    (∑ i, Real.exp (P i / c) * n i) * e ≤ 1 := by
  have h1 : ∑ i, Real.exp (P i / c) * n i ≤ (Fintype.card (Fin 4096) : ℝ) * Real.exp (1 / c) :=
    sum_exp_mul_le P n c_pos hP hn0 hn1
  have h2 : Real.exp (1 / c) ≤ 3 ^ 10 := exp_le_three_pow 10 inv_c_le_ten
  have h3 : (Fintype.card (Fin 4096) : ℝ) = 4096 := by simp
  have h4 : (4096 : ℝ) * 3 ^ 10 * e ≤ 1 := by unfold e; norm_num
  calc (∑ i, Real.exp (P i / c) * n i) * e ≤ ((4096 : ℝ) * 3 ^ 10) * e := by
        refine mul_le_mul_of_nonneg_right ?_ e_pos.le
        rw [h3] at h1
        exact h1.trans (mul_le_mul_of_nonneg_left h2 (by norm_num))
    _ ≤ 1 := h4

/-- Every pair with a non-negative exponent passes the threshold, whatever the column. -/
theorem threshold_keeps (a : ℝ) (ha : 0 ≤ a) (P n : Fin 4096 → ℝ) (hP : ∀ i, P i ≤ 1) (hn0 : ∀ i, 0 ≤ n i) (hn1 : ∀ i, n i ≤ 1) :
    e ≤ Real.exp (a / c) / max (∑ i, Real.exp (P i / c) * n i) e :=
  threshold_le_quotient ha c_pos e_pos e_le_one (denominator_mul_threshold_le_one P n hP hn0 hn1)

/-- On such a pair the reference's logarithm of the quotient is the kernel's term with the scale read as 1 / c. -/
theorem log_quotient_eq (a D : ℝ) (hD : 0 < D) :
    Real.log (Real.exp (a / c) / D) = a * (134217728 / 13421773) - Real.log D := by
  rw [log_exp_div (a / c) hD, ← inv_c_eq, mul_one_div]

end Cert.Proof.ThresholdConstants
-- ==== Proof.ShareSplit.lean ====
/-
  One array behind two windows. In both calls windows 0 and 1 read blocks of the same array (the divided rows); the
  other windows stand on arrays of their own. The buffers behind a call's arrays, each whole at the full share, are
  the call's windowed arrays with that one buffer's share dealt in two halves, the left half to window 0 and the right
  half to window 1; and back.
-/
import proofs.«114457_j13606456394199_2_alg».proof.Proof.Gen.KernelIdeal.Launch
import Idealize.ShloMosaic.Lib.Pipeline.Frame

noncomputable section

namespace Cert.KernelIdeal.Share

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F] [Named F]

local notation "𝕄" => MT nD τ sig Unit (Elt F) ℕ (UR sig nD τ) ℕ

variable (c : Dev nD)

/-- The buffers behind call 0's arrays, one by one. -/
theorem arrBufs0_eq (V : (b : Ref sig .tc) → Buf (Elt F) ((c : Thread nD τ).loc b)) :
    (Pipeline.arrBufs (Ix := Unit) (Name := ℕ) (U := UR sig nD τ) (Lvl := ℕ) spec0 c V : sProp 𝕄)
      = iprop((((c : Thread nD τ).loc main_v5) ↦{fullShare} V main_v5) ∗ (((c : Thread nD τ).loc main_v6) ↦{fullShare} V main_v6)
          ∗ (((c : Thread nD τ).loc main_v7) ↦{fullShare} V main_v7) ∗ (((c : Thread nD τ).loc main_v8) ↦{fullShare} V main_v8)) := by
  unfold Pipeline.arrBufs
  exact bigSep_eq_bigSepL_of_eq [main_v5, main_v6, main_v7, main_v8] (by decide) (by decide) _

variable (dat : Dat τ (Elt F) Unit ℕ (UR sig nD τ) ℕ cfg0 c)

/-- Call 0's windowed arrays, one by one, each a whole buffer at its window's share. -/
theorem arrays0_eq (G : (w : Fin cfg0.W) → Buf (Elt F) ((cfg0.win w).arr.view.loc (c : Thread nD τ))) :
    (dat.arrays G : sProp 𝕄)
      = iprop((((c : Thread nD τ).loc main_v5) ↦{dat.share 0} G 0) ∗ (((c : Thread nD τ).loc main_v5) ↦{dat.share 1} G 1)
          ∗ (((c : Thread nD τ).loc main_v6) ↦{dat.share 2} G 2) ∗ (((c : Thread nD τ).loc main_v7) ↦{dat.share 3} G 3)
          ∗ (((c : Thread nD τ).loc main_v8) ↦{dat.share 4} G 4)) := by
  unfold Dat.arrays
  rw [bigSep_W0]
  -- windows 0 and 1 have one and the same array, so one rewrite serves both
  rw [(arr_whole0 0).set_eq_univ, (arr_whole0 2).set_eq_univ, (arr_whole0 3).set_eq_univ, (arr_whole0 4).set_eq_univ]

/-- The shares of call 0's windows: halves for the two on the shared array, everything for the others. -/
theorem shares0 (h0 : dat.q 0 = fullShare.left) (h1 : dat.q 1 = fullShare.right) (h : ∀ w : Fin cfg0.W, 2 ≤ w.val → dat.q w = fullShare) :
    dat.share 0 = fullShare.left ∧ dat.share 1 = fullShare.right ∧ dat.share 2 = fullShare ∧ dat.share 3 = fullShare ∧ dat.share 4 = fullShare := by
  refine ⟨?_, ?_, ?_, ?_, ?_⟩
  · unfold Dat.share; rw [if_neg (by decide), h0]
  · unfold Dat.share; rw [if_neg (by decide), h1]
  · unfold Dat.share; rw [if_neg (by decide), h 2 (by decide)]
  · unfold Dat.share; rw [if_neg (by decide), h 3 (by decide)]
  · unfold Dat.share; rw [if_pos (by decide)]

/-- Entry of call 0: the buffers behind its arrays, whole at the full share at contents `V`, are its windowed arrays
    at the same contents, the shared buffer's share dealt in halves. -/
theorem split0 (h0 : dat.q 0 = fullShare.left) (h1 : dat.q 1 = fullShare.right) (h : ∀ w : Fin cfg0.W, 2 ≤ w.val → dat.q w = fullShare)
    (V : (b : Ref sig .tc) → Buf (Elt F) ((c : Thread nD τ).loc b))
    (G : (w : Fin cfg0.W) → Buf (Elt F) ((cfg0.win w).arr.view.loc (c : Thread nD τ))) (hG : ∀ w, G w = V (Pipeline.arrRef spec0 w)) :
    (Pipeline.arrBufs (Ix := Unit) (Name := ℕ) (U := UR sig nD τ) (Lvl := ℕ) spec0 c V : sProp 𝕄) ⊢ dat.arrays G := by
  obtain ⟨s0, s1, s2, s3, s4⟩ := shares0 c dat h0 h1 h
  rw [arrBufs0_eq, arrays0_eq, s0, s1, s2, s3, s4, hG 0, hG 1, hG 2, hG 3, hG 4]
  iintro ⟨H5, H6, H7, H8⟩
  ihave H := (pointsTo_share (PosShare.mem_left_op_right fullShare)).1 $$ H5
  icases H with ⟨Hl, Hr⟩
  isplitl [Hl]; · iexact Hl
  isplitl [Hr]; · iexact Hr
  isplitl [H6]; · iexact H6
  isplitl [H7]; · iexact H7
  iexact H8

/-- Exit of call 0: its windowed arrays at contents that agree with `V` are the buffers behind them whole at `V`, the two
    halves of the shared buffer joined. -/
theorem join0 (h0 : dat.q 0 = fullShare.left) (h1 : dat.q 1 = fullShare.right) (h : ∀ w : Fin cfg0.W, 2 ≤ w.val → dat.q w = fullShare)
    (V : (b : Ref sig .tc) → Buf (Elt F) ((c : Thread nD τ).loc b))
    (G : (w : Fin cfg0.W) → Buf (Elt F) ((cfg0.win w).arr.view.loc (c : Thread nD τ))) (hG : ∀ w, G w = V (Pipeline.arrRef spec0 w)) :
    (dat.arrays G : sProp 𝕄) ⊢ Pipeline.arrBufs (Ix := Unit) (Name := ℕ) (U := UR sig nD τ) (Lvl := ℕ) spec0 c V := by
  obtain ⟨s0, s1, s2, s3, s4⟩ := shares0 c dat h0 h1 h
  rw [arrBufs0_eq, arrays0_eq, s0, s1, s2, s3, s4, hG 0, hG 1, hG 2, hG 3, hG 4]
  iintro ⟨Hl, Hr, H6, H7, H8⟩
  isplitl [Hl Hr]
  · iapply (pointsTo_share (PosShare.mem_left_op_right fullShare)).2
    isplitl [Hl]; · iexact Hl
    iexact Hr
  isplitl [H6]; · iexact H6
  isplitl [H7]; · iexact H7
  iexact H8

/-! ## Call 1 -/

/-- The buffers behind call 1's arrays, one by one. -/
theorem arrBufs1_eq (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_v5) ↦{fullShare} V main_v5) ∗ (((c : Thread nD τ).loc main_v6) ↦{fullShare} V main_v6)
          ∗ (((c : Thread nD τ).loc main_v7) ↦{fullShare} V main_v7) ∗ (((c : Thread nD τ).loc main_v8) ↦{fullShare} V main_v8)
          ∗ (((c : Thread nD τ).loc main_v9) ↦{fullShare} V main_v9)) := by
  unfold Pipeline.arrBufs
  exact bigSep_eq_bigSepL_of_eq [main_v5, main_v6, main_v7, main_v8, main_v9] (by decide) (by decide) _

variable (dat1 : Dat τ (Elt F) Unit ℕ (UR sig nD τ) ℕ cfg1 c)

/-- Call 1's windowed arrays, one by one, each a whole buffer at its window's share. -/
theorem arrays1_eq (G : (w : Fin cfg1.W) → Buf (Elt F) ((cfg1.win w).arr.view.loc (c : Thread nD τ))) :
    (dat1.arrays G : sProp 𝕄)
      = iprop((((c : Thread nD τ).loc main_v5) ↦{dat1.share 0} G 0) ∗ (((c : Thread nD τ).loc main_v5) ↦{dat1.share 1} G 1)
          ∗ (((c : Thread nD τ).loc main_v6) ↦{dat1.share 2} G 2) ∗ (((c : Thread nD τ).loc main_v7) ↦{dat1.share 3} G 3)
          ∗ (((c : Thread nD τ).loc main_v8) ↦{dat1.share 4} G 4) ∗ (((c : Thread nD τ).loc main_v9) ↦{dat1.share 5} G 5)) := by
  unfold Dat.arrays
  rw [bigSep_W1]
  -- windows 0 and 1 have one and the same array, so one rewrite serves both
  rw [(arr_whole1 0).set_eq_univ, (arr_whole1 2).set_eq_univ, (arr_whole1 3).set_eq_univ, (arr_whole1 4).set_eq_univ, (arr_whole1 5).set_eq_univ]

/-- The shares of call 1's windows: halves for the two on the shared array, everything for the others. -/
theorem shares1 (h0 : dat1.q 0 = fullShare.left) (h1 : dat1.q 1 = fullShare.right) (h : ∀ w : Fin cfg1.W, 2 ≤ w.val → dat1.q w = fullShare) :
    dat1.share 0 = fullShare.left ∧ dat1.share 1 = fullShare.right ∧ dat1.share 2 = fullShare ∧ dat1.share 3 = fullShare
      ∧ dat1.share 4 = fullShare ∧ dat1.share 5 = fullShare := by
  refine ⟨?_, ?_, ?_, ?_, ?_, ?_⟩
  · unfold Dat.share; rw [if_neg (by decide), h0]
  · unfold Dat.share; rw [if_neg (by decide), h1]
  · unfold Dat.share; rw [if_neg (by decide), h 2 (by decide)]
  · unfold Dat.share; rw [if_neg (by decide), h 3 (by decide)]
  · unfold Dat.share; rw [if_neg (by decide), h 4 (by decide)]
  · unfold Dat.share; rw [if_pos (by decide)]

/-- Entry of call 1. -/
theorem split1 (h0 : dat1.q 0 = fullShare.left) (h1 : dat1.q 1 = fullShare.right) (h : ∀ w : Fin cfg1.W, 2 ≤ w.val → dat1.q w = fullShare)
    (V : (b : Ref sig .tc) → Buf (Elt F) ((c : Thread nD τ).loc b))
    (G : (w : Fin cfg1.W) → Buf (Elt F) ((cfg1.win w).arr.view.loc (c : Thread nD τ))) (hG : ∀ w, G w = V (Pipeline.arrRef spec1 w)) :
    (Pipeline.arrBufs (Ix := Unit) (Name := ℕ) (U := UR sig nD τ) (Lvl := ℕ) spec1 c V : sProp 𝕄) ⊢ dat1.arrays G := by
  obtain ⟨s0, s1, s2, s3, s4, s5⟩ := shares1 c dat1 h0 h1 h
  rw [arrBufs1_eq, arrays1_eq, s0, s1, s2, s3, s4, s5, hG 0, hG 1, hG 2, hG 3, hG 4, hG 5]
  iintro ⟨H5, H6, H7, H8, H9⟩
  ihave H := (pointsTo_share (PosShare.mem_left_op_right fullShare)).1 $$ H5
  icases H with ⟨Hl, Hr⟩
  isplitl [Hl]; · iexact Hl
  isplitl [Hr]; · iexact Hr
  isplitl [H6]; · iexact H6
  isplitl [H7]; · iexact H7
  isplitl [H8]; · iexact H8
  iexact H9

/-- Exit of call 1. -/
theorem join1 (h0 : dat1.q 0 = fullShare.left) (h1 : dat1.q 1 = fullShare.right) (h : ∀ w : Fin cfg1.W, 2 ≤ w.val → dat1.q w = fullShare)
    (V : (b : Ref sig .tc) → Buf (Elt F) ((c : Thread nD τ).loc b))
    (G : (w : Fin cfg1.W) → Buf (Elt F) ((cfg1.win w).arr.view.loc (c : Thread nD τ))) (hG : ∀ w, G w = V (Pipeline.arrRef spec1 w)) :
    (dat1.arrays G : sProp 𝕄) ⊢ Pipeline.arrBufs (Ix := Unit) (Name := ℕ) (U := UR sig nD τ) (Lvl := ℕ) spec1 c V := by
  obtain ⟨s0, s1, s2, s3, s4, s5⟩ := shares1 c dat1 h0 h1 h
  rw [arrBufs1_eq, arrays1_eq, s0, s1, s2, s3, s4, s5, hG 0, hG 1, hG 2, hG 3, hG 4, hG 5]
  iintro ⟨Hl, Hr, H6, H7, H8, H9⟩
  isplitl [Hl Hr]
  · iapply (pointsTo_share (PosShare.mem_left_op_right fullShare)).2
    isplitl [Hl]; · iexact Hl
    iexact Hr
  isplitl [H6]; · iexact H6
  isplitl [H7]; · iexact H7
  isplitl [H8]; · iexact H8
  iexact H9

end Cert.KernelIdeal.Share

end
-- ==== Proof.DenomBase.lean ====
import proofs.«114457_j13606456394199_2_alg».proof.Proof.Gen.KernelIdeal.Launch
import proofs.«114457_j13606456394199_2_alg».proof.Proof.Gen.KernelIdeal.Skeleton
import proofs.«114457_j13606456394199_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Denom

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section Blocks
variable (V : (c : Dev nD) → (b : Ref sig .tc) → Buf (Elt F) ((c : Thread nD τ).loc b))

/-- Window `w`'s block at point `t`, read off its array at the entry contents `V`. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not, for any proof
    data whose array is `V`'s and whose body leaves the block in place. -/
theorem before0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

end Blocks

/-! ## The body's branch condition -/

/-- The condition of the body's one conditional, from the grid coordinates: the inner coordinate is zero. -/
abbrev cond0_0 (i : grid0.Coords) : Prop := (Scalar.cmpi .ne (Scalar.extui (Scalar.cmpi .eq (BitVec.ofNat 32 (i 1).val) 0#32)) 0#32) = 1#1
/-- It holds at the points ≡ 0 (mod 8) — decided over the grid. -/
theorem hcond0_0 : ∀ t : Fin cfg0.N, cond0_0 (grid0.coords t) ↔ t.val % 8 = 0 :=
  (by decide +kernel : ∀ t : Fin grid0.N, cond0_0 (grid0.coords t) ↔ t.val % 8 = 0)

/-- No window is ever idle. -/
theorem liveAt0 : ∀ (w : Fin cfg0.W) (t : Fin cfg0.N), cfg0.idle w (grid0.coords t) = false := fun _ _ => rfl

/-! ## The memrefs the body is called with -/

abbrev ms0_0 (t : Fin cfg0.N) : Memref sig .tc .vmem S512x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x1 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x512 .f32 := win0_4.stage (cfg0.slots t 4)
abbrev hs0_4 (t : Fin cfg0.N) : (ms0_4 t).IsWhole := hstage0_4 ((cfg0.slots t 4).cast nbuf0_4)
/-- The scratch operand: a whole scoped buffer of the kernel's own, passed beside the windows. -/
abbrev scM0 : Memref sig .tc .vmem S1x512 .f32 := Memref.whole cc0_scratch0
/-- The scratch as a view: what it holds is stated through it. -/
abbrev VS0 : View sig .tc .vmem S1x512 .f32 := (scM0).view
/-- One staging buffer of the output window, through which its contents are stated. -/
abbrev VO0_4 : View sig .tc .vmem S1x512 .f32 := (Memref.whole cc0_stg4_0 : Memref sig .tc .vmem S1x512 .f32).view

/-- The scoped buffers that are neither a staging buffer of this call nor its scratch, each at some contents. -/
abbrev restBut (c : Dev nD) : sProp 𝕄 :=
  Pipeline.scopedRestBut (Ix := Unit) (Name := ℕ) (U := UR sig nD τ) (Lvl := ℕ) (Val := Elt F) spec0 c [cc0_scratch0]

/-- The scoped rest and the generator register, with the scratch operand as a memref owned at some contents. -/
theorem PhiA0_eq (c : Dev nD) :
    (iprop(Pipeline.scopedRest (Ix := Unit) (Name := ℕ) (U := UR sig nD τ) (Lvl := ℕ) (Val := Elt F) spec0 c ∗ ∃ r, prngReg c r) : sProp 𝕄)
      = iprop(iprop((∃ d, owns (c : Thread nD τ) scM0 fullShare d) ∗ restBut (F := F) c) ∗ (∃ r, prngReg c r)) := by
  rw [Pipeline.scopedRest_split_of_list spec0 c [cc0_scratch0] (by decide) (by decide)]
  simp only [scM0, owns_whole]; try rfl

end Cert.KernelIdeal.Denom

end
-- ==== Proof.DenomRunA.lean ====
import proofs.«114457_j13606456394199_2_alg».proof.Proof.DenomBase

set_option maxRecDepth 16384

noncomputable section

namespace Cert.KernelIdeal.Denom

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
/-- What the body's stores leave in the output's staging memref and in the scratch, as pieces (last first), at a point whose
    inner coordinate is zero (the accumulator is reset, then added to), with the proof that on whole memrefs — the inputs' at
    their contents, the output's and the scratch at anything — the body runs to the continuation holding the inputs' as they
    were and the output's and the scratch with their pieces written. -/
noncomputable def kernelRun0_A (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S512x1 .i32) (harg4 : arg4.IsWhole) (arg5 : Memref sig .tc .vmem S1x512 .i32) (harg5 : arg5.IsWhole) (arg6 : Memref sig .tc .vmem S1x512 .f32) (harg6 : arg6.IsWhole) (arg7 : Memref sig .tc .vmem S1x512 .f32) (harg7 : arg7.IsWhole) (hc0 : cond0_0 i)
    (x0 : Vec F S512x1024 .bf16) (x1 : Vec F S512x1024 .bf16) (x2 : Vec F S512x1 .i32) (x3 : Vec F S1x512 .i32) :
    Σ' (L4 : List (View.Piece (Elt F) S1x512 .f32)), { LS0 : List (View.Piece (Elt F) S1x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc0_denom_kernel i arg2 harg2 arg3 harg3 arg4 harg4 arg5 harg5 arg6 harg6 arg7 harg7) K } := by
  refine ⟨?_, ?_, fun E K => ?run⟩
  case run =>
    simp only [cc0_denom_kernel_eq_skeleton]; unfold cc0_denom_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.KernelIdeal.Denom

end
-- ==== Proof.DenomRunB.lean ====
import proofs.«114457_j13606456394199_2_alg».proof.Proof.DenomRunA

set_option maxRecDepth 16384

noncomputable section

namespace Cert.KernelIdeal.Denom

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
/-- What the body's stores leave in the output's staging memref and in the scratch, as pieces (last first), at a point whose
    inner coordinate is not zero (the accumulator is added to as the point before left it, `xs0`), with the proof that on
    whole memrefs — the inputs' at their contents, the output's at anything, the scratch at `xs0` — the body runs to the
    continuation holding the inputs' as they were and the output's and the scratch with their pieces written. -/
noncomputable def kernelRun0_B (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S512x1 .i32) (harg4 : arg4.IsWhole) (arg5 : Memref sig .tc .vmem S1x512 .i32) (harg5 : arg5.IsWhole) (arg6 : Memref sig .tc .vmem S1x512 .f32) (harg6 : arg6.IsWhole) (arg7 : Memref sig .tc .vmem S1x512 .f32) (harg7 : arg7.IsWhole) (hc0 : ¬cond0_0 i)
    (x0 : Vec F S512x1024 .bf16) (x1 : Vec F S512x1024 .bf16) (x2 : Vec F S512x1 .i32) (x3 : Vec F S1x512 .i32) (xs0 : Vec F S1x512 .f32) :
    Σ' (L4 : List (View.Piece (Elt F) S1x512 .f32)), { LS0 : List (View.Piece (Elt F) S1x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc0_denom_kernel i arg2 harg2 arg3 harg3 arg4 harg4 arg5 harg5 arg6 harg6 arg7 harg7) K } := by
  refine ⟨?_, ?_, fun E K => ?run⟩
  case run =>
    simp only [cc0_denom_kernel_eq_skeleton]; unfold cc0_denom_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.KernelIdeal.Denom

end
-- ==== Proof.Denom.lean ====
import proofs.«114457_j13606456394199_2_alg».proof.Proof.DenomRunB

set_option maxRecDepth 16384

noncomputable section

namespace Cert.KernelIdeal.Denom

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## What each case leaves in the output's staging buffer and in the scratch -/

/-- The reset case's pieces for the output window tile its block, so they cover it. -/
theorem cover0_A_4 (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S512x1 .i32) (harg4 : arg4.IsWhole) (arg5 : Memref sig .tc .vmem S1x512 .i32) (harg5 : arg5.IsWhole) (arg6 : Memref sig .tc .vmem S1x512 .f32) (harg6 : arg6.IsWhole) (arg7 : Memref sig .tc .vmem S1x512 .f32) (harg7 : arg7.IsWhole) (hc0 : cond0_0 i)
    (x0 : Vec F S512x1024 .bf16) (x1 : Vec F S512x1024 .bf16) (x2 : Vec F S512x1 .i32) (x3 : Vec F S1x512 .i32) (y : S1x512.Idx) :
    ∃ pc ∈ (kernelRun0_A c i arg2 harg2 arg3 harg3 arg4 harg4 arg5 harg5 arg6 harg6 arg7 harg7 hc0 x0 x1 x2 x3).1, y ∈ pc.1.set :=
  View.cover_of_tiledL (kernelRun0_A c i arg2 harg2 arg3 harg3 arg4 harg4 arg5 harg5 arg6 harg6 arg7 harg7 hc0 x0 x1 x2 x3).1 S1x512.size (by sl_kernel_rfl) y

/-- What the reset case leaves in the output's staging buffer: its pieces read back over junk. -/
def out0_A_4 (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S512x1 .i32) (harg4 : arg4.IsWhole) (arg5 : Memref sig .tc .vmem S1x512 .i32) (harg5 : arg5.IsWhole) (arg6 : Memref sig .tc .vmem S1x512 .f32) (harg6 : arg6.IsWhole) (arg7 : Memref sig .tc .vmem S1x512 .f32) (harg7 : arg7.IsWhole) (hc0 : cond0_0 i)
    (x0 : Vec F S512x1024 .bf16) (x1 : Vec F S512x1024 .bf16) (x2 : Vec F S512x1 .i32) (x3 : Vec F S1x512 .i32) : Vec F S1x512 .f32 :=
  VO0_4.read (Elt F) (VO0_4.writes (Elt F) VO0_4.junk (kernelRun0_A c i arg2 harg2 arg3 harg3 arg4 harg4 arg5 harg5 arg6 harg6 arg7 harg7 hc0 x0 x1 x2 x3).1)

/-- The reset case's pieces for the scratch cover it. -/
theorem scover0_A (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S512x1 .i32) (harg4 : arg4.IsWhole) (arg5 : Memref sig .tc .vmem S1x512 .i32) (harg5 : arg5.IsWhole) (arg6 : Memref sig .tc .vmem S1x512 .f32) (harg6 : arg6.IsWhole) (arg7 : Memref sig .tc .vmem S1x512 .f32) (harg7 : arg7.IsWhole) (hc0 : cond0_0 i)
    (x0 : Vec F S512x1024 .bf16) (x1 : Vec F S512x1024 .bf16) (x2 : Vec F S512x1 .i32) (x3 : Vec F S1x512 .i32) (y : S1x512.Idx) :
    ∃ pc ∈ (kernelRun0_A c i arg2 harg2 arg3 harg3 arg4 harg4 arg5 harg5 arg6 harg6 arg7 harg7 hc0 x0 x1 x2 x3).2.1, y ∈ pc.1.set :=
  View.cover_of_tiledL (kernelRun0_A c i arg2 harg2 arg3 harg3 arg4 harg4 arg5 harg5 arg6 harg6 arg7 harg7 hc0 x0 x1 x2 x3).2.1 S1x512.size (by sl_kernel_rfl) y

/-- What the reset case leaves in the scratch: its pieces read back over junk. -/
def sout0_A (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S512x1 .i32) (harg4 : arg4.IsWhole) (arg5 : Memref sig .tc .vmem S1x512 .i32) (harg5 : arg5.IsWhole) (arg6 : Memref sig .tc .vmem S1x512 .f32) (harg6 : arg6.IsWhole) (arg7 : Memref sig .tc .vmem S1x512 .f32) (harg7 : arg7.IsWhole) (hc0 : cond0_0 i)
    (x0 : Vec F S512x1024 .bf16) (x1 : Vec F S512x1024 .bf16) (x2 : Vec F S512x1 .i32) (x3 : Vec F S1x512 .i32) : Vec F S1x512 .f32 :=
  VS0.read (Elt F) (VS0.writes (Elt F) VS0.junk (kernelRun0_A c i arg2 harg2 arg3 harg3 arg4 harg4 arg5 harg5 arg6 harg6 arg7 harg7 hc0 x0 x1 x2 x3).2.1)

/-- The accumulating case's pieces for the output window tile its block, so they cover it. -/
theorem cover0_B_4 (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S512x1 .i32) (harg4 : arg4.IsWhole) (arg5 : Memref sig .tc .vmem S1x512 .i32) (harg5 : arg5.IsWhole) (arg6 : Memref sig .tc .vmem S1x512 .f32) (harg6 : arg6.IsWhole) (arg7 : Memref sig .tc .vmem S1x512 .f32) (harg7 : arg7.IsWhole) (hc0 : ¬cond0_0 i)
    (x0 : Vec F S512x1024 .bf16) (x1 : Vec F S512x1024 .bf16) (x2 : Vec F S512x1 .i32) (x3 : Vec F S1x512 .i32) (xs0 : Vec F S1x512 .f32) (y : S1x512.Idx) :
    ∃ pc ∈ (kernelRun0_B c i arg2 harg2 arg3 harg3 arg4 harg4 arg5 harg5 arg6 harg6 arg7 harg7 hc0 x0 x1 x2 x3 xs0).1, y ∈ pc.1.set :=
  View.cover_of_tiledL (kernelRun0_B c i arg2 harg2 arg3 harg3 arg4 harg4 arg5 harg5 arg6 harg6 arg7 harg7 hc0 x0 x1 x2 x3 xs0).1 S1x512.size (by sl_kernel_rfl) y

/-- What the accumulating case leaves in the output's staging buffer: its pieces read back over junk. -/
def out0_B_4 (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S512x1 .i32) (harg4 : arg4.IsWhole) (arg5 : Memref sig .tc .vmem S1x512 .i32) (harg5 : arg5.IsWhole) (arg6 : Memref sig .tc .vmem S1x512 .f32) (harg6 : arg6.IsWhole) (arg7 : Memref sig .tc .vmem S1x512 .f32) (harg7 : arg7.IsWhole) (hc0 : ¬cond0_0 i)
    (x0 : Vec F S512x1024 .bf16) (x1 : Vec F S512x1024 .bf16) (x2 : Vec F S512x1 .i32) (x3 : Vec F S1x512 .i32) (xs0 : Vec F S1x512 .f32) : Vec F S1x512 .f32 :=
  VO0_4.read (Elt F) (VO0_4.writes (Elt F) VO0_4.junk (kernelRun0_B c i arg2 harg2 arg3 harg3 arg4 harg4 arg5 harg5 arg6 harg6 arg7 harg7 hc0 x0 x1 x2 x3 xs0).1)

/-- The accumulating case's pieces for the scratch cover it. -/
theorem scover0_B (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S512x1 .i32) (harg4 : arg4.IsWhole) (arg5 : Memref sig .tc .vmem S1x512 .i32) (harg5 : arg5.IsWhole) (arg6 : Memref sig .tc .vmem S1x512 .f32) (harg6 : arg6.IsWhole) (arg7 : Memref sig .tc .vmem S1x512 .f32) (harg7 : arg7.IsWhole) (hc0 : ¬cond0_0 i)
    (x0 : Vec F S512x1024 .bf16) (x1 : Vec F S512x1024 .bf16) (x2 : Vec F S512x1 .i32) (x3 : Vec F S1x512 .i32) (xs0 : Vec F S1x512 .f32) (y : S1x512.Idx) :
    ∃ pc ∈ (kernelRun0_B c i arg2 harg2 arg3 harg3 arg4 harg4 arg5 harg5 arg6 harg6 arg7 harg7 hc0 x0 x1 x2 x3 xs0).2.1, y ∈ pc.1.set :=
  View.cover_of_tiledL (kernelRun0_B c i arg2 harg2 arg3 harg3 arg4 harg4 arg5 harg5 arg6 harg6 arg7 harg7 hc0 x0 x1 x2 x3 xs0).2.1 S1x512.size (by sl_kernel_rfl) y

/-- What the accumulating case leaves in the scratch: its pieces read back over junk. -/
def sout0_B (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S512x1 .i32) (harg4 : arg4.IsWhole) (arg5 : Memref sig .tc .vmem S1x512 .i32) (harg5 : arg5.IsWhole) (arg6 : Memref sig .tc .vmem S1x512 .f32) (harg6 : arg6.IsWhole) (arg7 : Memref sig .tc .vmem S1x512 .f32) (harg7 : arg7.IsWhole) (hc0 : ¬cond0_0 i)
    (x0 : Vec F S512x1024 .bf16) (x1 : Vec F S512x1024 .bf16) (x2 : Vec F S512x1 .i32) (x3 : Vec F S1x512 .i32) (xs0 : Vec F S1x512 .f32) : Vec F S1x512 .f32 :=
  VS0.read (Elt F) (VS0.writes (Elt F) VS0.junk (kernelRun0_B c i arg2 harg2 arg3 harg3 arg4 harg4 arg5 harg5 arg6 harg6 arg7 harg7 hc0 x0 x1 x2 x3 xs0).2.1)

section Region
variable (V : (c : Dev nD) → (b : Ref sig .tc) → Buf (Elt F) ((c : Thread nD τ).loc b))

/-! ## What the output's buffer and the scratch hold after each point -/

/-- The accumulation: what the output's staging buffer and the scratch hold after the body at position `n` (a pair: the
    output, then the scratch): the case the inner coordinate selects at `n`, run at the point's memrefs and input blocks,
    the scratch of the accumulating case at what this leaves at `n - 1`. -/
def outsAt0 (c : Dev nD) : (n : ℕ) → n < cfg0.N → Vec F S1x512 .f32 × Vec F S1x512 .f32
  | 0, hn => (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0 (Memref.isWhole_whole _) ((hcond0_0 ⟨0, hn⟩).mpr (Nat.zero_mod _)) (iblk V c 0 ⟨0, hn⟩) (iblk V c 1 ⟨0, hn⟩) (iblk V c 2 ⟨0, hn⟩) (iblk V c 3 ⟨0, hn⟩), sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0 (Memref.isWhole_whole _) ((hcond0_0 ⟨0, hn⟩).mpr (Nat.zero_mod _)) (iblk V c 0 ⟨0, hn⟩) (iblk V c 1 ⟨0, hn⟩) (iblk V c 2 ⟨0, hn⟩) (iblk V c 3 ⟨0, hn⟩))
  | n + 1, hn =>
    if h0 : (n + 1) % 8 = 0 then
      (out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0 (Memref.isWhole_whole _) ((hcond0_0 ⟨n + 1, hn⟩).mpr h0) (iblk V c 0 ⟨n + 1, hn⟩) (iblk V c 1 ⟨n + 1, hn⟩) (iblk V c 2 ⟨n + 1, hn⟩) (iblk V c 3 ⟨n + 1, hn⟩), sout0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0 (Memref.isWhole_whole _) ((hcond0_0 ⟨n + 1, hn⟩).mpr h0) (iblk V c 0 ⟨n + 1, hn⟩) (iblk V c 1 ⟨n + 1, hn⟩) (iblk V c 2 ⟨n + 1, hn⟩) (iblk V c 3 ⟨n + 1, hn⟩))
    else
      (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0 (Memref.isWhole_whole _) (fun h => h0 ((hcond0_0 ⟨n + 1, hn⟩).mp h)) (iblk V c 0 ⟨n + 1, hn⟩) (iblk V c 1 ⟨n + 1, hn⟩) (iblk V c 2 ⟨n + 1, hn⟩) (iblk V c 3 ⟨n + 1, hn⟩) (outsAt0 c n (Nat.lt_of_succ_lt hn)).2, sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0 (Memref.isWhole_whole _) (fun h => h0 ((hcond0_0 ⟨n + 1, hn⟩).mp h)) (iblk V c 0 ⟨n + 1, hn⟩) (iblk V c 1 ⟨n + 1, hn⟩) (iblk V c 2 ⟨n + 1, hn⟩) (iblk V c 3 ⟨n + 1, hn⟩) (outsAt0 c n (Nat.lt_of_succ_lt hn)).2)

/-- `outsAt0` at a point of the reset case: that case's contents. -/
theorem outsAt0_A (c : Dev nD) (t : Fin cfg0.N) (h0 : t.val % 8 = 0) :
    outsAt0 V c t.val t.isLt = (out0_A_4 c (grid0.coords t) (ms0_0 t) (hs0_0 t) (ms0_1 t) (hs0_1 t) (ms0_2 t) (hs0_2 t) (ms0_3 t) (hs0_3 t) (ms0_4 t) (hs0_4 t) scM0 (Memref.isWhole_whole _) ((hcond0_0 t).mpr h0) (iblk V c 0 t) (iblk V c 1 t) (iblk V c 2 t) (iblk V c 3 t), sout0_A c (grid0.coords t) (ms0_0 t) (hs0_0 t) (ms0_1 t) (hs0_1 t) (ms0_2 t) (hs0_2 t) (ms0_3 t) (hs0_3 t) (ms0_4 t) (hs0_4 t) scM0 (Memref.isWhole_whole _) ((hcond0_0 t).mpr h0) (iblk V c 0 t) (iblk V c 1 t) (iblk V c 2 t) (iblk V c 3 t)) := by
  obtain ⟨n, hn⟩ := t
  cases n with
  | zero => exact rfl
  | succ n => exact (dif_pos h0).trans rfl

/-- `outsAt0` at a point of the accumulating case: that case's contents, over what the point before left. -/
theorem outsAt0_B (c : Dev nD) (t : Fin cfg0.N) (h0 : ¬t.val % 8 = 0) :
    outsAt0 V c t.val t.isLt = (out0_B_4 c (grid0.coords t) (ms0_0 t) (hs0_0 t) (ms0_1 t) (hs0_1 t) (ms0_2 t) (hs0_2 t) (ms0_3 t) (hs0_3 t) (ms0_4 t) (hs0_4 t) scM0 (Memref.isWhole_whole _) (fun h => h0 ((hcond0_0 t).mp h)) (iblk V c 0 t) (iblk V c 1 t) (iblk V c 2 t) (iblk V c 3 t) (outsAt0 V c (t.val - 1) (Nat.lt_of_le_of_lt (Nat.sub_le _ _) t.isLt)).2, sout0_B c (grid0.coords t) (ms0_0 t) (hs0_0 t) (ms0_1 t) (hs0_1 t) (ms0_2 t) (hs0_2 t) (ms0_3 t) (hs0_3 t) (ms0_4 t) (hs0_4 t) scM0 (Memref.isWhole_whole _) (fun h => h0 ((hcond0_0 t).mp h)) (iblk V c 0 t) (iblk V c 1 t) (iblk V c 2 t) (iblk V c 3 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- The region invariant before position `n`: before the first point the scoped rest at anything and the generator
    register at some state; afterwards the scratch at what the point before left in it, the other scoped buffers at
    anything, and the generator register at some state. -/
def PhiS (c : Dev nD) : (n : ℕ) → n ≤ cfg0.N → sProp 𝕄
  | 0, _ => iprop(Pipeline.scopedRest (Ix := Unit) (Name := ℕ) (U := UR sig nD τ) (Lvl := ℕ) (Val := Elt F) spec0 c ∗ ∃ r, prngReg c r)
  | n + 1, hn => iprop(iprop(owns (c : Thread nD τ) scM0 fullShare ((outsAt0 V c n hn).2) ∗ restBut (F := F) c) ∗ (∃ r, prngReg c r))

theorem PhiS_zero (c : Dev nD) (n : ℕ) (h : n ≤ cfg0.N) (hz : n = 0) :
    PhiS V c n h = iprop(Pipeline.scopedRest (Ix := Unit) (Name := ℕ) (U := UR sig nD τ) (Lvl := ℕ) (Val := Elt F) spec0 c ∗ ∃ r, prngReg c r) := by
  subst hz; rfl

theorem PhiS_succ (c : Dev nD) (n : ℕ) (hn : n < cfg0.N) :
    PhiS V c (n + 1) hn = iprop(iprop(owns (c : Thread nD τ) scM0 fullShare ((outsAt0 V c n hn).2) ∗ restBut (F := F) c) ∗ (∃ r, prngReg c r)) := rfl

theorem PhiS_pos (c : Dev nD) (n : ℕ) (h : n ≤ cfg0.N) (hz : n ≠ 0) :
    PhiS V c n h = iprop(iprop(owns (c : Thread nD τ) scM0 fullShare ((outsAt0 V c (n - 1) (by omega)).2) ∗ restBut (F := F) c) ∗ (∃ r, prngReg c r)) := by
  cases n with
  | zero => exact absurd rfl hz
  | succ n => rfl

/-! ## The pipeline's proof data -/

/-- The proof data of the call on core `c`: the arrays as the region finds them (`V`); after the body at point `t` each
    input's buffer at its block and the output's at `outsAt0`; the invariant `PhiS`; nothing owed; the two windows that
    stand on one array hold a half of it each, the others their arrays outright. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => (outsAt0 V c t.val t.isLt).1
  Φ t := PhiS V c t.val (Nat.le_of_lt_succ t.isLt)
  q w := if w.val = 0 then fullShare.left else if w.val = 1 then fullShare.right else fullShare
  owed _ := 0

theorem A_eq (c : Dev nD) (w : Fin cfg0.W) : (dat V c).A w = V c (Pipeline.arrRef spec0 w) := by
  dsimp only [dat]

theorem q_0 (c : Dev nD) : (dat V c).q 0 = fullShare.left := rfl
theorem q_1 (c : Dev nD) : (dat V c).q 1 = fullShare.right := rfl
theorem q_of (c : Dev nD) (w : Fin cfg0.W) (h : 2 ≤ w.val) : (dat V c).q w = fullShare := by
  dsimp only [dat]; rw [if_neg (by omega), if_neg (by omega)]

theorem owed_zero (c : Dev nD) (t) : (dat V c).owed t = 0 := rfl

/-- The invariant at a point's start, restated at `t.val`. -/
theorem PhiS_castSucc (c : Dev nD) (t : Fin cfg0.N) :
    (dat V c).Φ t.castSucc = PhiS V c t.val (Nat.le_of_lt t.isLt) := by
  dsimp only [dat]; simp only [Fin.coe_castSucc]

theorem after0_0 (c : Dev nD) (t : Fin cfg0.N) : (dat V c).after 0 t = iblk V c 0 t := by dsimp only [dat]
theorem after0_1 (c : Dev nD) (t : Fin cfg0.N) : (dat V c).after 1 t = iblk V c 1 t := by dsimp only [dat]
theorem after0_2 (c : Dev nD) (t : Fin cfg0.N) : (dat V c).after 2 t = iblk V c 2 t := by dsimp only [dat]
theorem after0_3 (c : Dev nD) (t : Fin cfg0.N) : (dat V c).after 3 t = iblk V c 3 t := by dsimp only [dat]
theorem after0_4 (c : Dev nD) (t : Fin cfg0.N) : (dat V c).after 4 t = (outsAt0 V c t.val t.isLt).1 := by dsimp only [dat]

theorem before0_0 (c : Dev nD) (t : Fin cfg0.N) (d) : (dat V c).before 0 t d = iblk V c 0 t :=
  before0_of V (dat V c) (A_eq V c 0) (after0_0 V c) t d
theorem before0_1 (c : Dev nD) (t : Fin cfg0.N) (d) : (dat V c).before 1 t d = iblk V c 1 t :=
  before1_of V (dat V c) (A_eq V c 1) (after0_1 V c) t d
theorem before0_2 (c : Dev nD) (t : Fin cfg0.N) (d) : (dat V c).before 2 t d = iblk V c 2 t :=
  before2_of V (dat V c) (A_eq V c 2) (after0_2 V c) t d
theorem before0_3 (c : Dev nD) (t : Fin cfg0.N) (d) : (dat V c).before 3 t d = iblk V c 3 t :=
  before3_of V (dat V c) (A_eq V c 3) (after0_3 V c) t d

/-! ## The body obligation, at a generic point -/

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t))

set_option maxHeartbeats 4800000 in
/-- The body at any point: the inputs' memrefs hold their blocks; the inner coordinate says which case the point is in; the
    invariant hands the body the scratch at what the point before left (at anything at the first point) and takes it back
    at this point's contents; the core owes nothing throughout. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1, before0_2, before0_3]
  rw [show (dat V c).owesAt () t.succ = (dat V c).owesAt () t.castSucc from rfl]
  rw [show (dat V c).Φ t.succ = PhiS V c (t.val + 1) t.isLt from rfl, PhiS_succ]
  rw [after0_0, after0_1, after0_2, after0_3, after0_4]
  have hN : t.val < 64 := lt_of_lt_of_eq t.isLt (show cfg0.N = 64 from N_0)
  by_cases h0 : t.val % 8 = 0
  · rw [outsAt0_A V c t h0]
    unfold out0_A_4 sout0_A; (try dsimp only)
    by_cases hz : t.val = 0
    · rw [PhiS_castSucc V c t, PhiS_zero V c _ _ hz, PhiA0_eq]
      iintro ⟨⟨⟨HS0, HR⟩, Hg⟩, Ho, ⟨%d0, H0⟩, ⟨%d1, H1⟩, ⟨%d2, H2⟩, ⟨%d3, H3⟩, ⟨%d4, H4⟩⟩
      iapply ((kernelRun0_A c (grid0.coords t) _ _ _ _ _ _ _ _ _ _ _ _ ((hcond0_0 t).mpr h0) (iblk V c 0 t) (iblk V c 1 t) (iblk V c 2 t) (iblk V c 3 t)).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_A c _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover0_A_4 c _ _ _ _ _ _ _ _ _ _ _ _ _ _ _ _ _ _)
    · rw [PhiS_castSucc V c t, PhiS_pos V c _ _ hz]
      iintro ⟨⟨⟨HS0, HR⟩, Hg⟩, Ho, ⟨%d0, H0⟩, ⟨%d1, H1⟩, ⟨%d2, H2⟩, ⟨%d3, H3⟩, ⟨%d4, H4⟩⟩
      iapply ((kernelRun0_A c (grid0.coords t) _ _ _ _ _ _ _ _ _ _ _ _ ((hcond0_0 t).mpr h0) (iblk V c 0 t) (iblk V c 1 t) (iblk V c 2 t) (iblk V c 3 t)).2.2 Set.univ _)
      isplitl [H0]; · iexact H0
      isplitl [H1]; · iexact H1
      isplitl [H2]; · iexact H2
      isplitl [H3]; · iexact H3
      isplitl [H4]; · iexists _; iexact H4
      isplitl [HS0]; · iexists _; iexact HS0
      iintro ⟨H0, H1, H2, H3, ⟨%e4, H4⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_A c _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover0_A_4 c _ _ _ _ _ _ _ _ _ _ _ _ _ _ _ _ _ _)
  · rw [outsAt0_B V c t h0]
    unfold out0_B_4 sout0_B; (try dsimp only)
    by_cases hz : t.val = 0
    · exfalso; rw [hz] at h0; exact h0 (Nat.zero_mod _)
    · rw [PhiS_castSucc V c t, PhiS_pos V c _ _ hz]
      iintro ⟨⟨⟨HS0, HR⟩, Hg⟩, Ho, ⟨%d0, H0⟩, ⟨%d1, H1⟩, ⟨%d2, H2⟩, ⟨%d3, H3⟩, ⟨%d4, H4⟩⟩
      iapply ((kernelRun0_B c (grid0.coords t) _ _ _ _ _ _ _ _ _ _ _ _ (fun h => h0 ((hcond0_0 t).mp h)) (iblk V c 0 t) (iblk V c 1 t) (iblk V c 2 t) (iblk V c 3 t) _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_B c _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover0_B_4 c _ _ _ _ _ _ _ _ _ _ _ _ _ _ _ _ _ _ _)

/-- The library's body obligation, at every point. -/
theorem body_obligation (c : Dev nD) : BodyObligation (dat (F := F) V c) (defs₀ (F := F)) Variants.none () Set.univ := fun t => by
  rw [bigSep_W0, bigSep_W0]
  exact sound_body V c t

/-- What the launch hands the region is the invariant before the first point. -/
theorem Φ_first (c : Dev nD) : iprop(Pipeline.scopedRest (Ix := Unit) (Name := ℕ) (U := UR sig nD τ) (Lvl := ℕ) (Val := Elt F) spec0 c ∗ ∃ r, prngReg c r) ⊢ (dat V c).Φ 0 := by
  rw [show (dat V c).Φ 0 = PhiS V c 0 (Nat.zero_le _) from rfl, PhiS_zero V c 0 _ rfl]
  try exact Idealize.SL.BI.Entails.refl _

/-- After the last point the invariant gives it back: the scratch's named contents are forgotten. -/
theorem Φ_last (c : Dev nD) : (dat V c).Φ (Fin.last cfg0.N) ⊢ iprop(Pipeline.scopedRest (Ix := Unit) (Name := ℕ) (U := UR sig nD τ) (Lvl := ℕ) (Val := Elt F) spec0 c ∗ ∃ r, prngReg c r) := by
  have hne : (Fin.last cfg0.N).val ≠ 0 := by rw [Fin.val_last]; have : cfg0.N = 64 := N_0; omega
  rw [show (dat V c).Φ (Fin.last cfg0.N) = PhiS V c (Fin.last cfg0.N).val (Nat.le_of_lt_succ (Fin.last cfg0.N).isLt) from rfl, PhiS_pos V c _ _ hne, PhiA0_eq]
  iintro ⟨⟨HS0, HR⟩, Hg⟩
  isplitl [HS0 HR]
  · isplitl [HS0]
    · iexists _; iexact HS0
    iexact HR
  iexact Hg

end Region

end Cert.KernelIdeal.Denom

end
-- ==== Proof.LossDefs.lean ====
import proofs.«114457_j13606456394199_2_alg».proof.Proof.Gen.KernelIdeal.Launch
import proofs.«114457_j13606456394199_2_alg».proof.Proof.Gen.KernelIdeal.Skeleton
import proofs.«114457_j13606456394199_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384
set_option synthInstance.maxSize 4096

noncomputable section

namespace Cert.KernelIdeal.Loss

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The body's two conditionals -/

/-- The reset's condition: the inner grid coordinate is 0. -/
abbrev cond1 (i : grid1.Coords) : Prop := (Scalar.cmpi .ne (Scalar.extui (Scalar.cmpi .eq (BitVec.ofNat 32 (i 1).val) 0#32)) 0#32) = 1#1
/-- The output store's condition: the inner grid coordinate is 7. -/
abbrev cond2 (i : grid1.Coords) : Prop := k1_cond2 i = 1#1

theorem hz : (![0, 0] : Fin 2 → Nat) = fun _ => 0 := funext fun a => by fin_cases a <;> rfl

/-! ## The accumulator's update -/

/-- The accumulator a reset leaves: zero. -/
def acc0 : Vec F S1x1 .f32 := k1_pay3 (F := F)

/-- One point's update of the accumulator `a`: `a` plus minus the tile's total, from the five input blocks. -/
def step (i : grid1.Coords) (x0 x1 : Vec F S512x1024 .bf16) (x2 : Vec F S512x1 .i32) (x3 : Vec F S1x512 .i32)
    (x4 : Vec F S1x512 .f32) (a : Vec F S1x1 .f32) : Vec F S1x1 .f32 :=
  k1_pay1 (k1_pay4 x0 x1) (k1_pay5 i x2 x3) (k1_pay6 x4) (Scalar.ofBits .f32 0x2EDBE6FF#32) a

/-- The output block the last inner point stores: the accumulator at every entry. -/
def out5 (a : Vec F S1x1 .f32) : Vec F S8x128 .f32 := k1_pay2 a

end Cert.KernelIdeal.Loss

end
-- ==== Proof.LossRunMid.lean ====
import proofs.«114457_j13606456394199_2_alg».proof.Proof.LossDefs
import proofs.«114457_j13606456394199_2_alg».proof.Proof.Gen.KernelIdeal.Launch
import proofs.«114457_j13606456394199_2_alg».proof.Proof.Gen.KernelIdeal.Skeleton
import proofs.«114457_j13606456394199_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384
set_option synthInstance.maxSize 4096

noncomputable section

namespace Cert.KernelIdeal.Loss

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
/-- A middle point (no reset, no output store): the inputs and the output buffer are left as found, the accumulator updated. -/
theorem run_mid (c : Dev nD) (E : Set ℕ) (i : grid1.Coords)
    (arg2 : Memref sig .tc .vmem S512x1024 .bf16) (harg2 : arg2.IsWhole) (arg3 : Memref sig .tc .vmem S512x1024 .bf16) (harg3 : arg3.IsWhole)
    (arg4 : Memref sig .tc .vmem S512x1 .i32) (harg4 : arg4.IsWhole) (arg5 : Memref sig .tc .vmem S1x512 .i32) (harg5 : arg5.IsWhole)
    (arg6 : Memref sig .tc .vmem S1x512 .f32) (harg6 : arg6.IsWhole) (arg7 : Memref sig .tc .vmem S8x128 .f32) (harg7 : arg7.IsWhole)
    (arg8 : Memref sig .tc .vmem S1x1 .f32) (harg8 : arg8.IsWhole)
    (hc1 : ¬cond1 i) (hc2 : ¬cond2 i)
    (x0 x1 : Vec F S512x1024 .bf16) (x2 : Vec F S512x1 .i32) (x3 : Vec F S1x512 .i32) (x4 : Vec F S1x512 .f32) (y : Vec F S8x128 .f32) (a : Vec F S1x1 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare y
        ∗ owns (c : Thread nD τ) arg8 fullShare a
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare y
        ∗ owns (c : Thread nD τ) arg8 fullShare (step i x0 x1 x2 x3 x4 a)) -∗ K ⟨⟩))
      ⊢ wp frame (wpE (defs₀ (F := F)) Variants.none c none) E (cc1_loss_kernel i arg2 harg2 arg3 harg3 arg4 harg4 arg5 harg5 arg6 harg6 arg7 harg7 arg8 harg8) K := by
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f8, %hf8, H8⟩, Hk⟩
  subst hf0; subst hf1; subst hf2; subst hf3; subst hf4; subst hf5; subst hf8
  sl_unfold [cc1_loss_kernel, k1_part1]
  sl_exec (disch := first | exact hc1 | exact hc2)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  iexists _; isplitr
  swap; · iexact H8
  ipureintro
  rw [View.read_writes_eq_canon _ _ _ (fun y => ⟨_, List.mem_singleton_self _, View.mem_set_unit_zero (S := S1x1) hz inb_S1x1_S1x1_0_0 y⟩)]
  rw [View.canon_unit_zero hz]
  unfold step
  try sl_unfold_words
  unfold k1_pay4 k1_pay5 k1_pay6
  simp only [View.readAt_eq_ld, View.ld_unit_zero (S := S512x1024) hz, View.ld_unit_zero (S := S512x1) hz, View.ld_unit_zero (S := S1x512) hz, View.ld_unit_zero (S := S1x1) hz]
  try rfl

end Cert.KernelIdeal.Loss

end
-- ==== Proof.LossRunFirst.lean ====
import proofs.«114457_j13606456394199_2_alg».proof.Proof.LossDefs
import proofs.«114457_j13606456394199_2_alg».proof.Proof.Gen.KernelIdeal.Launch
import proofs.«114457_j13606456394199_2_alg».proof.Proof.Gen.KernelIdeal.Skeleton
import proofs.«114457_j13606456394199_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384
set_option synthInstance.maxSize 4096

noncomputable section

namespace Cert.KernelIdeal.Loss

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
/-- A first inner point (reset, no output store): the accumulator, whatever it held, is left at the update of zero. -/
theorem run_first (c : Dev nD) (E : Set ℕ) (i : grid1.Coords)
    (arg2 : Memref sig .tc .vmem S512x1024 .bf16) (harg2 : arg2.IsWhole) (arg3 : Memref sig .tc .vmem S512x1024 .bf16) (harg3 : arg3.IsWhole)
    (arg4 : Memref sig .tc .vmem S512x1 .i32) (harg4 : arg4.IsWhole) (arg5 : Memref sig .tc .vmem S1x512 .i32) (harg5 : arg5.IsWhole)
    (arg6 : Memref sig .tc .vmem S1x512 .f32) (harg6 : arg6.IsWhole) (arg7 : Memref sig .tc .vmem S8x128 .f32) (harg7 : arg7.IsWhole)
    (arg8 : Memref sig .tc .vmem S1x1 .f32) (harg8 : arg8.IsWhole)
    (hc1 : cond1 i) (hc2 : ¬cond2 i)
    (x0 x1 : Vec F S512x1024 .bf16) (x2 : Vec F S512x1 .i32) (x3 : Vec F S1x512 .i32) (x4 : Vec F S1x512 .f32) (y : Vec F S8x128 .f32) (a : Vec F S1x1 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare y
        ∗ owns (c : Thread nD τ) arg8 fullShare a
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare y
        ∗ owns (c : Thread nD τ) arg8 fullShare (step i x0 x1 x2 x3 x4 acc0)) -∗ K ⟨⟩))
      ⊢ wp frame (wpE (defs₀ (F := F)) Variants.none c none) E (cc1_loss_kernel i arg2 harg2 arg3 harg3 arg4 harg4 arg5 harg5 arg6 harg6 arg7 harg7 arg8 harg8) K := by
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f8, %hf8, H8⟩, Hk⟩
  subst hf0; subst hf1; subst hf2; subst hf3; subst hf4; subst hf5; subst hf8
  sl_unfold [cc1_loss_kernel, k1_part1]
  sl_exec (disch := first | exact hc1 | exact hc2)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  iexists _; isplitr
  swap; · iexact H8
  ipureintro
  rw [View.read_writes_eq_canon _ _ _ (fun y => ⟨_, List.mem_cons_self, View.mem_set_unit_zero (S := S1x1) hz inb_S1x1_S1x1_0_0 y⟩)]
  rw [View.canon_cons_unit_zero hz]
  unfold step acc0
  try sl_unfold_words
  rw [View.readCov_unit_zero (S := S1x1) _ hz]
  unfold k1_pay3 k1_pay4 k1_pay5 k1_pay6
  simp only [View.readAt_eq_ld, View.ld_unit_zero (S := S512x1024) hz, View.ld_unit_zero (S := S512x1) hz, View.ld_unit_zero (S := S1x512) hz, View.ld_unit_zero (S := S1x1) hz]
  try rfl

end Cert.KernelIdeal.Loss

end
-- ==== Proof.LossRunLast.lean ====
import proofs.«114457_j13606456394199_2_alg».proof.Proof.LossDefs
import proofs.«114457_j13606456394199_2_alg».proof.Proof.Gen.KernelIdeal.Launch
import proofs.«114457_j13606456394199_2_alg».proof.Proof.Gen.KernelIdeal.Skeleton
import proofs.«114457_j13606456394199_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384
set_option synthInstance.maxSize 4096

noncomputable section

namespace Cert.KernelIdeal.Loss

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
/-- A last inner point (no reset, output store): the accumulator is updated and the output buffer left at its broadcast. -/
theorem run_last (c : Dev nD) (E : Set ℕ) (i : grid1.Coords)
    (arg2 : Memref sig .tc .vmem S512x1024 .bf16) (harg2 : arg2.IsWhole) (arg3 : Memref sig .tc .vmem S512x1024 .bf16) (harg3 : arg3.IsWhole)
    (arg4 : Memref sig .tc .vmem S512x1 .i32) (harg4 : arg4.IsWhole) (arg5 : Memref sig .tc .vmem S1x512 .i32) (harg5 : arg5.IsWhole)
    (arg6 : Memref sig .tc .vmem S1x512 .f32) (harg6 : arg6.IsWhole) (arg7 : Memref sig .tc .vmem S8x128 .f32) (harg7 : arg7.IsWhole)
    (arg8 : Memref sig .tc .vmem S1x1 .f32) (harg8 : arg8.IsWhole)
    (hc1 : ¬cond1 i) (hc2 : cond2 i)
    (x0 x1 : Vec F S512x1024 .bf16) (x2 : Vec F S512x1 .i32) (x3 : Vec F S1x512 .i32) (x4 : Vec F S1x512 .f32) (a : Vec F S1x1 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ (∃ d, owns (c : Thread nD τ) arg7 fullShare d)
        ∗ owns (c : Thread nD τ) arg8 fullShare a
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare (out5 (step i x0 x1 x2 x3 x4 a))
        ∗ owns (c : Thread nD τ) arg8 fullShare (step i x0 x1 x2 x3 x4 a)) -∗ K ⟨⟩))
      ⊢ wp frame (wpE (defs₀ (F := F)) Variants.none c none) E (cc1_loss_kernel i arg2 harg2 arg3 harg3 arg4 harg4 arg5 harg5 arg6 harg6 arg7 harg7 arg8 harg8) K := by
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f8, %hf8, H8⟩, Hk⟩
  subst hf0; subst hf1; subst hf2; subst hf3; subst hf4; subst hf8
  sl_unfold [cc1_loss_kernel, k1_part1]
  sl_exec (disch := first | exact hc1 | exact hc2)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]
  · iexists _; isplitr
    swap; · iexact H5
    ipureintro
    rw [View.read_writes_eq_canon _ _ _ (fun y => ⟨_, List.mem_singleton_self _, View.mem_set_unit_zero (S := S8x128) hz inb_S8x128_S8x128_0_0 y⟩)]
    rw [View.canon_unit_zero hz]
    unfold out5 step
    try sl_unfold_words
    rw [View.readCov_unit_zero (S := S1x1) _ hz]
    unfold k1_pay4 k1_pay5 k1_pay6
    simp only [View.readAt_eq_ld, View.ld_unit_zero (S := S512x1024) hz, View.ld_unit_zero (S := S512x1) hz, View.ld_unit_zero (S := S1x512) hz, View.ld_unit_zero (S := S1x1) hz]
    try rfl
  iexists _; isplitr
  swap; · iexact H8
  ipureintro
  try sl_unfold_words
  rw [View.read_writes_eq_canon _ _ _ (fun y => ⟨_, List.mem_singleton_self _, View.mem_set_unit_zero (S := S1x1) hz inb_S1x1_S1x1_0_0 y⟩)]
  rw [View.canon_unit_zero hz]
  unfold step
  unfold k1_pay4 k1_pay5 k1_pay6
  simp only [View.readAt_eq_ld, View.ld_unit_zero (S := S512x1024) hz, View.ld_unit_zero (S := S512x1) hz, View.ld_unit_zero (S := S1x512) hz, View.ld_unit_zero (S := S1x1) hz]
  try rfl

end Cert.KernelIdeal.Loss

end
-- ==== Proof.Loss.lean ====
import proofs.«114457_j13606456394199_2_alg».proof.Proof.LossRunMid
import proofs.«114457_j13606456394199_2_alg».proof.Proof.LossRunFirst
import proofs.«114457_j13606456394199_2_alg».proof.Proof.LossRunLast
import proofs.«114457_j13606456394199_2_alg».proof.Proof.Gen.KernelIdeal.Launch
import proofs.«114457_j13606456394199_2_alg».proof.Proof.Gen.KernelIdeal.Skeleton
import proofs.«114457_j13606456394199_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384
set_option synthInstance.maxSize 4096

noncomputable section

namespace Cert.KernelIdeal.Loss

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section Region
-- the contents of the core's buffers when the second pallas_call is entered
variable (V : (c : Dev nD) → (b : Ref sig .tc) → Buf (Elt F) ((c : Thread nD τ).loc b))

/-! ## The windows' blocks -/

/-- Window `w`'s block at grid point `t`, read off its array as the call finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The accumulator, point by point -/

/-- The update at position `n` of the grid's order (the identity past the grid). -/
def stepAt (c : Dev nD) (n : ℕ) (a : Vec F S1x1 .f32) : Vec F S1x1 .f32 :=
  if h : n < cfg1.N then
    step (grid1.coords ⟨n, h⟩) (iblk V c 0 ⟨n, h⟩) (iblk V c 1 ⟨n, h⟩) (iblk V c 2 ⟨n, h⟩) (iblk V c 3 ⟨n, h⟩) (iblk V c 4 ⟨n, h⟩) a
  else a

/-- What the accumulator holds after the body at position `n`: reset where the inner coordinate is 0
    (every eighth position), else carried from the position before. -/
def acc (c : Dev nD) : ℕ → Vec F S1x1 .f32
  | 0 => stepAt V c 0 acc0
  | n + 1 => stepAt V c (n + 1) (if (n + 1) % 8 = 0 then acc0 else acc c n)

theorem stepAt_eq (c : Dev nD) (t : Fin cfg1.N) (a : Vec F S1x1 .f32) :
    stepAt V c t.val a = step (grid1.coords t) (iblk V c 0 t) (iblk V c 1 t) (iblk V c 2 t) (iblk V c 3 t) (iblk V c 4 t) a := by
  unfold stepAt; rw [dif_pos t.isLt]

/-- At a first inner point the accumulator is the update of zero; -/
theorem acc_first (c : Dev nD) (t : Fin cfg1.N) (h : t.val % 8 = 0) :
    acc V c t.val = step (grid1.coords t) (iblk V c 0 t) (iblk V c 1 t) (iblk V c 2 t) (iblk V c 3 t) (iblk V c 4 t) acc0 := by
  rw [← stepAt_eq]
  obtain ⟨n, hn⟩ := t
  cases n with
  | zero => rfl
  | succ n => show stepAt V c (n + 1) (if (n + 1) % 8 = 0 then acc0 else acc V c n) = _; rw [if_pos h]

/-- elsewhere the update of what the point before left. -/
theorem acc_next (c : Dev nD) (t : Fin cfg1.N) (h : ¬t.val % 8 = 0) :
    acc V c t.val = step (grid1.coords t) (iblk V c 0 t) (iblk V c 1 t) (iblk V c 2 t) (iblk V c 3 t) (iblk V c 4 t) (acc V c (t.val - 1)) := by
  rw [← stepAt_eq]
  obtain ⟨n, hn⟩ := t
  cases n with
  | zero => exact absurd (Nat.zero_mod _) h
  | succ n => show stepAt V c (n + 1) (if (n + 1) % 8 = 0 then acc0 else acc V c n) = _; rw [if_neg h]; rfl

/-! ## The invariant between points -/

/-- The scratch accumulator as a memref. -/
abbrev scM : Memref sig .tc .vmem S1x1 .f32 := Memref.whole cc1_scratch0

/-- The core's scoped buffers that are neither a staging buffer of this call nor its accumulator. -/
abbrev Rest (c : Dev nD) : sProp 𝕄 :=
  Pipeline.scopedRestBut (Ix := Unit) (Name := ℕ) (U := UR sig nD τ) (Lvl := ℕ) (Val := Elt F) spec1 c [cc1_scratch0]

/-- Before position `n`: at the start every scoped buffer at some contents; afterwards the accumulator at what the
    point before left. -/
def PhiS (c : Dev nD) : ℕ → sProp 𝕄
  | 0 => Pipeline.ΦA spec1 c
  | n + 1 => iprop(Rest c ∗ owns (c : Thread nD τ) scM fullShare (acc V c n) ∗ (∃ r, prngReg c r))

theorem PhiS_pos (c : Dev nD) (n : ℕ) (hz : n ≠ 0) :
    PhiS V c n = iprop(Rest c ∗ owns (c : Thread nD τ) scM fullShare (acc V c (n - 1)) ∗ (∃ r, prngReg c r)) := by
  cases n with
  | zero => exact absurd rfl hz
  | succ n => rfl

/-- The scoped rest with the accumulator split off. -/
theorem scopedRest_split (c : Dev nD) :
    (Pipeline.scopedRest (Ix := Unit) (Name := ℕ) (U := UR sig nD τ) (Lvl := ℕ) (Val := Elt F) spec1 c : sProp 𝕄)
      = iprop((∃ d, owns (c : Thread nD τ) scM fullShare d) ∗ Rest c) := by
  rw [Pipeline.scopedRest_split_of_list spec1 c [cc1_scratch0] (by decide) (by decide)]
  simp only [scM, owns_whole]
  rfl

/-! ## The proof data -/

def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => out5 (acc V c t.val)
  Φ t := PhiS V c t.val
  q w := if w.val = 0 then fullShare.left else if w.val = 1 then fullShare.right else fullShare
  owed _ := 0

theorem A_eq (c : Dev nD) (w : Fin cfg1.W) : (dat V c).A w = V c (Pipeline.arrRef spec1 w) := by
  dsimp only [dat]

theorem q_0 (c : Dev nD) : (dat V c).q 0 = fullShare.left := rfl
theorem q_1 (c : Dev nD) : (dat V c).q 1 = fullShare.right := rfl
theorem q_of (c : Dev nD) (w : Fin cfg1.W) (h : 2 ≤ w.val) : (dat V c).q w = fullShare := by
  dsimp only [dat]
  rw [if_neg (by omega), if_neg (by omega)]

theorem owed_zero (c : Dev nD) (t) : (dat V c).owed t = 0 := rfl

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = iblk V c 3 t := by dsimp only [dat]
theorem after_4 (c : Dev nD) (t : Fin cfg1.N) : (dat V c).after 4 t = iblk V c 4 t := by dsimp only [dat]
theorem after_5 (c : Dev nD) (t : Fin cfg1.N) : (dat V c).after 5 t = out5 (acc V c t.val) := by dsimp only [dat]

/-! ## What the body finds in the inputs' staging buffers: the block, fetched at the point or not -/

theorem before_0 (c : Dev nD) (t : Fin cfg1.N) (d) : (dat V c).before 0 t d = iblk V c 0 t :=
  ((dat V c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg1.N) (d) : (dat V c).before 1 t d = iblk V c 1 t :=
  ((dat V c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg1.N) (d) : (dat V c).before 2 t d = iblk V c 2 t :=
  ((dat V c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg1.N) (d) : (dat V c).before 3 t d = iblk V c 3 t :=
  ((dat V c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin cfg1.N) (d) : (dat V c).before 4 t d = iblk V c 4 t :=
  ((dat V c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)

/-! ## Where the conditions hold, and where the output window is idle -/

theorem hcond1 : ∀ t : Fin cfg1.N, cond1 (grid1.coords t) ↔ t.val % 8 = 0 :=
  (by decide +kernel : ∀ t : Fin grid1.N, cond1 (grid1.coords t) ↔ t.val % 8 = 0)
theorem hcond2 : ∀ t : Fin cfg1.N, cond2 (grid1.coords t) ↔ t.val % 8 = 7 :=
  (by decide +kernel : ∀ t : Fin grid1.N, cond2 (grid1.coords t) ↔ t.val % 8 = 7)
theorem idleAt5 : ∀ t : Fin cfg1.N, ¬cond2 (grid1.coords t) → cfg1.idle 5 (grid1.coords t) = true := by decide +kernel
theorem noFlush5 : ∀ t : Fin cfg1.N, ¬cond2 (grid1.coords t) → (cfg1.win 5).flush t = false := by decide +kernel
theorem liveAt5 : ∀ t : Fin cfg1.N, cond2 (grid1.coords t) → cfg1.idle 5 (grid1.coords t) = false := by decide +kernel
theorem liveAt0 : ∀ t : Fin cfg1.N, cfg1.idle 0 (grid1.coords t) = false := fun _ => rfl
theorem liveAt1 : ∀ t : Fin cfg1.N, cfg1.idle 1 (grid1.coords t) = false := fun _ => rfl
theorem liveAt2 : ∀ t : Fin cfg1.N, cfg1.idle 2 (grid1.coords t) = false := fun _ => rfl
theorem liveAt3 : ∀ t : Fin cfg1.N, cfg1.idle 3 (grid1.coords t) = false := fun _ => rfl
theorem liveAt4 : ∀ t : Fin cfg1.N, cfg1.idle 4 (grid1.coords t) = false := fun _ => rfl
theorem leaves_0 (c : Dev nD) (t : Fin cfg1.N) :
    (dat V c).leavesExact 0 t = owns (c : Thread nD τ) (st1_0 t) fullShare (iblk V c 0 t) := by
  unfold Dat.leavesExact; rw [liveAt0 t, after_0]
theorem leaves_1 (c : Dev nD) (t : Fin cfg1.N) :
    (dat V c).leavesExact 1 t = owns (c : Thread nD τ) (st1_1 t) fullShare (iblk V c 1 t) := by
  unfold Dat.leavesExact; rw [liveAt1 t, after_1]
theorem leaves_2 (c : Dev nD) (t : Fin cfg1.N) :
    (dat V c).leavesExact 2 t = owns (c : Thread nD τ) (st1_2 t) fullShare (iblk V c 2 t) := by
  unfold Dat.leavesExact; rw [liveAt2 t, after_2]
theorem leaves_3 (c : Dev nD) (t : Fin cfg1.N) :
    (dat V c).leavesExact 3 t = owns (c : Thread nD τ) (st1_3 t) fullShare (iblk V c 3 t) := by
  unfold Dat.leavesExact; rw [liveAt3 t, after_3]
theorem leaves_4 (c : Dev nD) (t : Fin cfg1.N) :
    (dat V c).leavesExact 4 t = owns (c : Thread nD τ) (st1_4 t) fullShare (iblk V c 4 t) := by
  unfold Dat.leavesExact; rw [liveAt4 t, after_4]
theorem leaves_5_live (c : Dev nD) (t : Fin cfg1.N) (h : cond2 (grid1.coords t)) :
    (dat V c).leavesExact 5 t = owns (c : Thread nD τ) (st1_5 t) fullShare (out5 (acc V c t.val)) := by
  unfold Dat.leavesExact; rw [liveAt5 t h, after_5]

/-! ## The body obligation, at a generic point -/

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d)))

/-- and what it returns. -/
def bodyPost (c : Dev nD) (t : Fin cfg1.N) : sProp 𝕄 :=
  iprop((dat V c).Φ t.succ ∗ (dat V c).owesAt () t.succ
    ∗ (dat V c).leavesExact 0 t ∗ (dat V c).leavesExact 1 t ∗ (dat V c).leavesExact 2 t
    ∗ (dat V c).leavesExact 3 t ∗ (dat V c).leavesExact 4 t ∗ (dat V c).leavesExact 5 t)

theorem Phi_castSucc (c : Dev nD) (t : Fin cfg1.N) : (dat V c).Φ t.castSucc = PhiS V c t.val := by
  dsimp only [dat]; simp only [Fin.coe_castSucc]

theorem Phi_succ (c : Dev nD) (t : Fin cfg1.N) :
    (dat V c).Φ t.succ = iprop(Rest c ∗ owns (c : Thread nD τ) scM fullShare (acc V c t.val) ∗ (∃ r, prngReg c r)) := rfl

set_option maxHeartbeats 4000000 in
/-- The body at any point: the inputs' buffers hold their blocks; the position in the row of eight says which of the
    three runs applies; the invariant hands the accumulator over and takes it back at the point's contents. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3, before_4]
  rw [show (dat V c).owesAt () t.succ = (dat V c).owesAt () t.castSucc from rfl]
  rw [leaves_0, leaves_1, leaves_2, leaves_3, leaves_4, Phi_succ, Phi_castSucc]
  by_cases h0 : t.val % 8 = 0
  · have hc1 : cond1 (grid1.coords t) := (hcond1 t).mpr h0
    have hc2 : ¬cond2 (grid1.coords t) := fun h => by have := (hcond2 t).mp h; omega
    rw [Dat.leavesExact_idle (dat V c) 5 t (idleAt5 t hc2) (noFlush5 t hc2), acc_first V c t h0]
    by_cases hz : t.val = 0
    · rw [show PhiS V c t.val = Pipeline.ΦA spec1 c from by rw [hz]; rfl]
      unfold Pipeline.ΦA; rw [scopedRest_split]
      iintro ⟨⟨⟨⟨%a, HS⟩, HR⟩, Hg⟩, Ho, ⟨%d0, H0⟩, ⟨%d1, H1⟩, ⟨%d2, H2⟩, ⟨%d3, H3⟩, ⟨%d4, H4⟩, ⟨%d5, H5⟩⟩
      iapply (run_first c Set.univ (grid1.coords t) _ _ _ _ _ _ _ _ _ _ _ _ _ _ hc1 hc2
        (iblk V c 0 t) (iblk V c 1 t) (iblk V c 2 t) (iblk V c 3 t) (iblk V c 4 t) _ a _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      isplitl [HR HS Hg]
      · isplitl [HR]; · iexact HR
        isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · rw [PhiS_pos V c t.val hz]
      iintro ⟨⟨HR, HS, Hg⟩, Ho, ⟨%d0, H0⟩, ⟨%d1, H1⟩, ⟨%d2, H2⟩, ⟨%d3, H3⟩, ⟨%d4, H4⟩, ⟨%d5, H5⟩⟩
      iapply (run_first c Set.univ (grid1.coords t) _ _ _ _ _ _ _ _ _ _ _ _ _ _ hc1 hc2
        (iblk V c 0 t) (iblk V c 1 t) (iblk V c 2 t) (iblk V c 3 t) (iblk V c 4 t) _ (acc V c (t.val - 1)) _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      isplitl [HR HS Hg]
      · isplitl [HR]; · iexact HR
        isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · have hc1 : ¬cond1 (grid1.coords t) := fun h => h0 ((hcond1 t).mp h)
    have hz : t.val ≠ 0 := fun h => h0 (by rw [h])
    rw [PhiS_pos V c t.val hz, acc_next V c t h0]
    by_cases h7 : t.val % 8 = 7
    · have hc2 : cond2 (grid1.coords t) := (hcond2 t).mpr h7
      rw [leaves_5_live V c t hc2, acc_next V c t h0]
      iintro ⟨⟨HR, HS, Hg⟩, Ho, ⟨%d0, H0⟩, ⟨%d1, H1⟩, ⟨%d2, H2⟩, ⟨%d3, H3⟩, ⟨%d4, H4⟩, ⟨%d5, H5⟩⟩
      iapply (run_last c Set.univ (grid1.coords t) _ _ _ _ _ _ _ _ _ _ _ _ _ _ hc1 hc2
        (iblk V c 0 t) (iblk V c 1 t) (iblk V c 2 t) (iblk V c 3 t) (iblk V c 4 t) (acc V c (t.val - 1)) _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, H5, HS⟩
      isplitl [HR HS Hg]
      · isplitl [HR]; · iexact HR
        isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      iexact H5
    · have hc2 : ¬cond2 (grid1.coords t) := fun h => h7 ((hcond2 t).mp h)
      rw [Dat.leavesExact_idle (dat V c) 5 t (idleAt5 t hc2) (noFlush5 t hc2)]
      iintro ⟨⟨HR, HS, Hg⟩, Ho, ⟨%d0, H0⟩, ⟨%d1, H1⟩, ⟨%d2, H2⟩, ⟨%d3, H3⟩, ⟨%d4, H4⟩, ⟨%d5, H5⟩⟩
      iapply (run_mid c Set.univ (grid1.coords t) _ _ _ _ _ _ _ _ _ _ _ _ _ _ hc1 hc2
        (iblk V c 0 t) (iblk V c 1 t) (iblk V c 2 t) (iblk V c 3 t) (iblk V c 4 t) _ (acc V c (t.val - 1)) _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      isplitl [HR HS Hg]
      · isplitl [HR]; · iexact HR
        isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation (c : Dev nD) : BodyObligation (dat (F := F) V c) (defs₀ (F := F)) Variants.none () Set.univ := fun t => by
  rw [bigSep_W1, bigSep_W1]
  exact sound_body V c t

/-- What the launch hands the call is the invariant before the first point. -/
theorem Φ_first (c : Dev nD) : iprop(Pipeline.scopedRest (Ix := Unit) (Name := ℕ) (U := UR sig nD τ) (Lvl := ℕ) (Val := Elt F) spec1 c ∗ ∃ r, prngReg c r) ⊢ (dat V c).Φ 0 := by
  show _ ⊢ Pipeline.ΦA spec1 c
  unfold Pipeline.ΦA
  exact .rfl

/-- After the last point the invariant gives the scoped rest back: the accumulator's contents are forgotten. -/
theorem Φ_last (c : Dev nD) : (dat V c).Φ (Fin.last cfg1.N) ⊢ iprop(Pipeline.scopedRest (Ix := Unit) (Name := ℕ) (U := UR sig nD τ) (Lvl := ℕ) (Val := Elt F) spec1 c ∗ ∃ r, prngReg c r) := by
  rw [show (dat V c).Φ (Fin.last cfg1.N) = PhiS V c cfg1.N from rfl, PhiS_pos V c cfg1.N (by rw [show cfg1.N = 64 from N_1]; omega)]
  rw [scopedRest_split]
  iintro ⟨HR, HS, Hg⟩
  isplitl [HR HS]
  · isplitl [HS]; · iexists _; iexact HS
    iexact HR
  iexact Hg

end Region

end Cert.KernelIdeal.Loss

end
-- ==== Proof.KernelWhole.lean ====
/-
  The whole run of the idealized kernel program. The program is five segments: the host operations that divide the
  rows by their norms and lay the labels out as a column and a row, the first kernel region (the column
  denominators), the second kernel region (one partial loss per block row), and the host operations that add the
  partial losses and divide by 4096.

  A region may change only its output array, so the contents of the buffers that outlive the regions are a fold from
  the launch memory: the host operations applied, then region 0's output array replaced by what region 0 leaves, then
  region 1's likewise, then the last host operations applied. Each region is entered by taking its arrays out of
  those buffers — the one array two of its windows read dealt to them in halves — and left by putting them back.
  The run ends with every such buffer at the fold's last value.
-/
import proofs.«114457_j13606456394199_2_alg».proof.Proof.RunCond
import proofs.«114457_j13606456394199_2_alg».proof.Proof.ShareSplit
import proofs.«114457_j13606456394199_2_alg».proof.Proof.Denom
import proofs.«114457_j13606456394199_2_alg».proof.Proof.Loss
import Idealize.ShloMosaic.Lib.Pipeline.FrameBody
import Idealize.ShloMosaic.Lib.Pipeline.RegionsLoop
import Idealize.ShloMosaic.Lib.Tactic

noncomputable section

namespace Cert.KernelIdeal.Whole

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

/-! ## The contents at the regions' ends -/

/-- The contents region 0 is entered from, read at the TensorCore's references. -/
abbrev E0 : (c : Dev nD) → (b : Ref sig .tc) → Buf (Elt F) ((c : Thread nD τ).loc b) := fun c b => V2 m c b

/-- What region 0 leaves in its output array: the column denominators. -/
def out8 (c : Dev nD) : Buf (Elt F) ((c : Thread nD τ).loc main_v8) := (Denom.dat (E0 m) c).arrAt 4 cfg0.N

/-- The contents between the regions: region 0's output array replaced. -/
def Wmid (c : Dev nD) : Valuation τ sig (Elt F) := Function.update (V2 m c) main_v8 (out8 m c)

/-- The same read at the TensorCore's references: what region 1 is entered from. -/
abbrev E1 : (c : Dev nD) → (b : Ref sig .tc) → Buf (Elt F) ((c : Thread nD τ).loc b) := fun c b => Wmid m c b

/-- What region 1 leaves in its output array: one partial loss per block row, spread over an (8,128) tile. -/
def out9 (c : Dev nD) : Buf (Elt F) ((c : Thread nD τ).loc main_v9) := (Loss.dat (E1 m) c).arrAt 5 cfg1.N

/-- What the regions leave, as the family the fold of contents is written over: region 0's output after segment 2,
    region 1's after segment 3 (no other entry is ever read). -/
def outs : Outs (F := F) := fun n r c =>
  if n = 3 then (if h : r = main_v8 then h ▸ out8 m c else fun _ => Classical.arbitrary _)
  else (if h : r = main_v9 then h ▸ out9 m c else fun _ => Classical.arbitrary _)

theorem outs_3 (c : Dev nD) : outs m 3 main_v8 c = out8 m c := by
  unfold outs; rw [if_pos rfl, dif_pos rfl]
theorem outs_4 (c : Dev nD) : outs m 4 main_v9 c = out9 m c := by
  unfold outs; rw [if_neg (by decide), dif_pos rfl]

/-- The contents after region 0 are region 1's entry contents. -/
theorem V3_eq (c : Dev nD) : V3 m (outs m) c = Wmid m c := by
  unfold Wmid; rw [← outs_3]

/-- After region 0 its output array holds what the region leaves. -/
theorem V3_out (c : Dev nD) : V3 m (outs m) c main_v8 = out8 m c :=
  (Function.update_self _ _ _).trans (outs_3 m c)

/-- Region 0's arrays at its exit: the output array at what the region leaves, the inputs as entered. -/
theorem exit0 (c : Dev nD) : ∀ w : Fin cfg0.W, (Denom.dat (E0 m) c).arrAt w cfg0.N = (fun b : Ref sig .tc => V3 m (outs m) c b) (Pipeline.arrRef spec0 w)
  | ⟨0, _⟩ => ((Denom.dat (E0 m) c).arrAt_in 0 rfl _).trans ((Denom.A_eq (E0 m) c 0).trans (V3_of m (outs m) c main_v5 (by decide)).symm)
  | ⟨1, _⟩ => ((Denom.dat (E0 m) c).arrAt_in 1 rfl _).trans ((Denom.A_eq (E0 m) c 1).trans (V3_of m (outs m) c main_v5 (by decide)).symm)
  | ⟨2, _⟩ => ((Denom.dat (E0 m) c).arrAt_in 2 rfl _).trans ((Denom.A_eq (E0 m) c 2).trans (V3_of m (outs m) c main_v6 (by decide)).symm)
  | ⟨3, _⟩ => ((Denom.dat (E0 m) c).arrAt_in 3 rfl _).trans ((Denom.A_eq (E0 m) c 3).trans (V3_of m (outs m) c main_v7 (by decide)).symm)
  | ⟨4, _⟩ => (V3_out m c).symm

/-- Off region 0's output array nothing changed. -/
theorem rest0 (c : Dev nD) (b : Ref sig .tc) (hb : b ∉ ([main_v8] : List (Ref sig .tc))) : V3 m (outs m) c b = V2 m c b :=
  V3_of m (outs m) c b hb

/-- After region 1 its output array holds what the region leaves. -/
theorem V4_out (c : Dev nD) : V4 m (outs m) c main_v9 = out9 m c :=
  (Function.update_self _ _ _).trans (outs_4 m c)

/-- Off region 1's output array nothing changed, and region 1 starts from what region 0 left. -/
theorem rest1 (c : Dev nD) (b : Ref sig .tc) (hb : b ∉ ([main_v9] : List (Ref sig .tc))) : V4 m (outs m) c b = E1 m c b :=
  (V4_of m (outs m) c b hb).trans (congrFun (V3_eq m c) b)

/-- Region 1's arrays at its exit. -/
theorem exit1 (c : Dev nD) : ∀ w : Fin cfg1.W, (Loss.dat (E1 m) c).arrAt w cfg1.N = (fun b : Ref sig .tc => V4 m (outs m) c b) (Pipeline.arrRef spec1 w)
  | ⟨0, _⟩ => ((Loss.dat (E1 m) c).arrAt_in 0 rfl _).trans ((Loss.A_eq (E1 m) c 0).trans (rest1 m c main_v5 (by decide)).symm)
  | ⟨1, _⟩ => ((Loss.dat (E1 m) c).arrAt_in 1 rfl _).trans ((Loss.A_eq (E1 m) c 1).trans (rest1 m c main_v5 (by decide)).symm)
  | ⟨2, _⟩ => ((Loss.dat (E1 m) c).arrAt_in 2 rfl _).trans ((Loss.A_eq (E1 m) c 2).trans (rest1 m c main_v6 (by decide)).symm)
  | ⟨3, _⟩ => ((Loss.dat (E1 m) c).arrAt_in 3 rfl _).trans ((Loss.A_eq (E1 m) c 3).trans (rest1 m c main_v7 (by decide)).symm)
  | ⟨4, _⟩ => ((Loss.dat (E1 m) c).arrAt_in 4 rfl _).trans ((Loss.A_eq (E1 m) c 4).trans (rest1 m c main_v8 (by decide)).symm)
  | ⟨5, _⟩ => (V4_out m c).symm

/-! ## The proof data family and the thread state -/

/-- Every pipeline's proof data, each at its region's entry contents. -/
def pdats : (p : Fin 2) → (c : Dev nD) → Dat τ (Elt F) Unit ℕ (UR sig nD τ) ℕ (cfgs p) c
  | ⟨0, _⟩ => fun c => Denom.dat (E0 m) c
  | ⟨1, _⟩ => fun c => Loss.dat (E1 m) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, none. -/
abbrev R (c : Dev nD) : sProp 𝕄 := iprop((∃ r, prngReg c r) ∗ ∃ W, owes (c : Thread nD τ) (0 : CellTallies nD τ sig Unit) W)

/-! ## The regions as segments -/

-- a library lemma stated over the pinned configuration unifies with the printed one only when unification may unfold
-- plain definitions in a metavariable's type
set_option backward.isDefEq.respectTransparency.types false in
/-- Region 0 over the thread state: entered from every buffer that outlives the regions at the contents before it, left
    at the contents after it. Its arrays are taken out of those buffers, the array two windows read dealt in halves,
    and put back at the exit contents; the generator register and the scoped buffers go into the body's invariant and
    come back; nothing is owed; the kernel has no semaphore of its own. -/
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (Denom.body_obligation (E0 m) c).loose
  hwaits := Pipeline.hwaits_of_owed_zero _ _ _ _ L lv 0 fun c t => Denom.owed_zero (E0 m) c t
  pre c := iprop(StableHlo.held (c : Thread nD τ) (Pipeline.ucRefs τ sig) (V2 m c) ∗ R c)
  post c := iprop(StableHlo.held (c : Thread nD τ) (Pipeline.ucRefs τ sig) (V3 m (outs m) c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit : (StableHlo.held (c : Thread nD τ) (Pipeline.ucRefs τ sig) (V2 m c) : sProp 𝕄)
        ⊢ iprop((pdats m 0 c).arrays ((pdats m 0 c).arrAt · 0)
            ∗ Pipeline.unscopedRest (Ix := Unit) (Name := ℕ) (U := UR sig nD τ) (Lvl := ℕ) spec0 c (E0 m c)) := by
      rw [← Pipeline.unscopedBufs_held c _, Pipeline.unscopedBufs_split₀ cfgs 0 winFacts₀0.arr_unscoped c (E0 m c)]
      exact sep_mono (Share.split0 c (Denom.dat (E0 m) c) (Denom.q_0 (E0 m) c) (Denom.q_1 (E0 m) c) (Denom.q_of (E0 m) c)
        (E0 m c) _ (fun w => Denom.A_eq (E0 m) c w)) .rfl
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = (Denom.dat (E0 m) c).Φ 0 from rfl]
    iintro ⟨Hp, -, Hr⟩
    iapply (Denom.Φ_first (E0 m) c)
    isplitl [Hr]; · iexact Hr
    iexact Hp
  hout c := by
    rw [Pipeline.ownSems0_none, show (pdats m 0 c).Φ (Fin.last _) = (Denom.dat (E0 m) c).Φ (Fin.last cfg0.N) from rfl]
    iintro H
    ihave H' := (Denom.Φ_last (E0 m) c) $$ H
    icases H' with ⟨Hr, Hp⟩
    isplitl [Hp]; · iexact Hp
    isplitr; · iempintro
    iexact Hr
  hexit c := by
    have hjoin : (iprop((pdats m 0 c).arrays ((pdats m 0 c).arrAt · cfg0.N)
            ∗ Pipeline.unscopedRest (Ix := Unit) (Name := ℕ) (U := UR sig nD τ) (Lvl := ℕ) spec0 c (E0 m c)) : sProp 𝕄)
        ⊢ StableHlo.held (c : Thread nD τ) (Pipeline.ucRefs τ sig) (V3 m (outs m) c) := by
      rw [← Pipeline.unscopedBufs_held c _, Pipeline.unscopedBufs_split₀ cfgs 0 winFacts₀0.arr_unscoped c (fun b => (V3 m (outs m) c) b)]
      -- the buffers that are no array of this region hold what they held at entry
      have hrest : (Pipeline.unscopedRest (Ix := Unit) (Name := ℕ) (U := UR sig nD τ) (Lvl := ℕ) spec0 c (E0 m c) : sProp 𝕄)
          ⊢ Pipeline.unscopedRest (Ix := Unit) (Name := ℕ) (U := UR sig nD τ) (Lvl := ℕ) spec0 c (fun b => (V3 m (outs m) c) b) := by
        unfold Pipeline.unscopedRest
        exact Entails.of_eq (bigSep_congr fun b hb => by
          have hne : b ∉ ([main_v8] : List (Ref sig .tc)) := fun h =>
            (Finset.mem_sdiff.mp hb).2 (by rw [List.mem_singleton.mp h]; exact Finset.mem_image.mpr ⟨4, Finset.mem_univ _, rfl⟩)
          beta_reduce
          rw [rest0 m c b hne])
      exact BIClass.sep_mono (Share.join0 c (Denom.dat (E0 m) c) (Denom.q_0 (E0 m) c) (Denom.q_1 (E0 m) c) (Denom.q_of (E0 m) c)
        (fun b => (V3 m (outs m) c) b) _ (exit0 m c)) hrest
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 1 over the thread state: entered from every buffer that outlives the regions at the contents before it, left
    at the contents after it. Its arrays are taken out of those buffers, the array two windows read dealt in halves,
    and put back at the exit contents; the generator register and the scoped buffers go into the body's invariant and
    come back; nothing is owed; the kernel has no semaphore of its own. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (Loss.body_obligation (E1 m) c).loose
  hwaits := Pipeline.hwaits_of_owed_zero _ _ _ _ L lv 1 fun c t => Loss.owed_zero (E1 m) c t
  pre c := iprop(StableHlo.held (c : Thread nD τ) (Pipeline.ucRefs τ sig) (V3 m (outs m) c) ∗ R c)
  post c := iprop(StableHlo.held (c : Thread nD τ) (Pipeline.ucRefs τ sig) (V4 m (outs m) c) ∗ R c)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit : (StableHlo.held (c : Thread nD τ) (Pipeline.ucRefs τ sig) (V3 m (outs m) c) : sProp 𝕄)
        ⊢ iprop((pdats m 1 c).arrays ((pdats m 1 c).arrAt · 0)
            ∗ Pipeline.unscopedRest (Ix := Unit) (Name := ℕ) (U := UR sig nD τ) (Lvl := ℕ) spec1 c (E1 m c)) := by
      rw [V3_eq m c]
      rw [← Pipeline.unscopedBufs_held c _, Pipeline.unscopedBufs_split₀ cfgs 1 winFacts₀1.arr_unscoped c (E1 m c)]
      exact sep_mono (Share.split1 c (Loss.dat (E1 m) c) (Loss.q_0 (E1 m) c) (Loss.q_1 (E1 m) c) (Loss.q_of (E1 m) c)
        (E1 m c) _ (fun w => Loss.A_eq (E1 m) c w)) .rfl
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (Loss.dat (E1 m) c).Φ 0 from rfl]
    iintro ⟨Hp, -, Hr⟩
    iapply (Loss.Φ_first (E1 m) c)
    isplitl [Hr]; · iexact Hr
    iexact Hp
  hout c := by
    rw [Pipeline.ownSems0_none, show (pdats m 1 c).Φ (Fin.last _) = (Loss.dat (E1 m) c).Φ (Fin.last cfg1.N) from rfl]
    iintro H
    ihave H' := (Loss.Φ_last (E1 m) c) $$ H
    icases H' with ⟨Hr, Hp⟩
    isplitl [Hp]; · iexact Hp
    isplitr; · iempintro
    iexact Hr
  hexit c := by
    have hjoin : (iprop((pdats m 1 c).arrays ((pdats m 1 c).arrAt · cfg1.N)
            ∗ Pipeline.unscopedRest (Ix := Unit) (Name := ℕ) (U := UR sig nD τ) (Lvl := ℕ) spec1 c (E1 m c)) : sProp 𝕄)
        ⊢ StableHlo.held (c : Thread nD τ) (Pipeline.ucRefs τ sig) (V4 m (outs m) c) := by
      rw [← Pipeline.unscopedBufs_held c _, Pipeline.unscopedBufs_split₀ cfgs 1 winFacts₀1.arr_unscoped c (fun b => (V4 m (outs m) c) b)]
      -- the buffers that are no array of this region hold what they held at entry
      have hrest : (Pipeline.unscopedRest (Ix := Unit) (Name := ℕ) (U := UR sig nD τ) (Lvl := ℕ) spec1 c (E1 m c) : sProp 𝕄)
          ⊢ Pipeline.unscopedRest (Ix := Unit) (Name := ℕ) (U := UR sig nD τ) (Lvl := ℕ) spec1 c (fun b => (V4 m (outs m) c) b) := by
        unfold Pipeline.unscopedRest
        exact Entails.of_eq (bigSep_congr fun b hb => by
          have hne : b ∉ ([main_v9] : List (Ref sig .tc)) := fun h =>
            (Finset.mem_sdiff.mp hb).2 (by rw [List.mem_singleton.mp h]; exact Finset.mem_image.mpr ⟨5, Finset.mem_univ _, rfl⟩)
          beta_reduce
          rw [rest1 m c b hne])
      exact BIClass.sep_mono (Share.join1 c (Loss.dat (E1 m) c) (Loss.q_0 (E1 m) c) (Loss.q_1 (E1 m) c) (Loss.q_of (E1 m) c)
        (fun b => (V4 m (outs m) c) b) _ (exit1 m c)) hrest
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

-- the launch theorem's implicit arguments are found by unifying its conclusion with this one
set_option backward.isDefEq.respectTransparency.types false in
/-- From any memory with zero counters every weakly fair execution of the program terminates, nothing faulting, and in
    every final memory every buffer that outlives the regions holds the fold's last value. -/
theorem run (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = V5 m (outs m) c b) :=
  run_cond m emb₁ () 𝒱₀ L lv (fun _ _ => rfl) ρ (outs m) (pdats m) (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => R c)
    (hE0 := Pipeline.initEach L lv fun c => by
      iintro ⟨⟨-, HO, -, Hp, -⟩, -⟩
      imodintro
      isplitl [Hp]; · iexists _; iexact Hp
      iexists ∅; iexact HO)
    (hE2 := fun c => by iintro ⟨-, HO⟩; iexact HO)
    (reg0 m) (fun c => .rfl) (fun c => .rfl) (reg1 m) (fun c => .rfl) (fun c => .rfl)

end Cert.KernelIdeal.Whole

end
-- ==== Proof.WordShareSplit.lean ====
/-
  One array behind two windows. In both calls windows 0 and 1 read blocks of the same array (the divided rows); the
  other windows stand on arrays of their own. The buffers behind a call's arrays, each whole at the full share, are
  the call's windowed arrays with that one buffer's share dealt in two halves, the left half to window 0 and the right
  half to window 1; and back.
-/
import proofs.«114457_j13606456394199_2_alg».proof.Proof.Gen.Kernel.Launch
import Idealize.ShloMosaic.Lib.Pipeline.Frame

noncomputable section

namespace Cert.Kernel.Share

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig Unit (Elt F) ℕ (UR sig nD τ) ℕ

variable (c : Dev nD)

/-- The buffers behind call 0's arrays, one by one. -/
theorem arrBufs0_eq (V : (b : Ref sig .tc) → Buf (Elt F) ((c : Thread nD τ).loc b)) :
    (Pipeline.arrBufs (Ix := Unit) (Name := ℕ) (U := UR sig nD τ) (Lvl := ℕ) spec0 c V : sProp 𝕄)
      = iprop((((c : Thread nD τ).loc main_v5) ↦{fullShare} V main_v5) ∗ (((c : Thread nD τ).loc main_v6) ↦{fullShare} V main_v6)
          ∗ (((c : Thread nD τ).loc main_v7) ↦{fullShare} V main_v7) ∗ (((c : Thread nD τ).loc main_v8) ↦{fullShare} V main_v8)) := by
  unfold Pipeline.arrBufs
  exact bigSep_eq_bigSepL_of_eq [main_v5, main_v6, main_v7, main_v8] (by decide) (by decide) _

variable (dat : Dat τ (Elt F) Unit ℕ (UR sig nD τ) ℕ cfg0 c)

/-- Call 0's windowed arrays, one by one, each a whole buffer at its window's share. -/
theorem arrays0_eq (G : (w : Fin cfg0.W) → Buf (Elt F) ((cfg0.win w).arr.view.loc (c : Thread nD τ))) :
    (dat.arrays G : sProp 𝕄)
      = iprop((((c : Thread nD τ).loc main_v5) ↦{dat.share 0} G 0) ∗ (((c : Thread nD τ).loc main_v5) ↦{dat.share 1} G 1)
          ∗ (((c : Thread nD τ).loc main_v6) ↦{dat.share 2} G 2) ∗ (((c : Thread nD τ).loc main_v7) ↦{dat.share 3} G 3)
          ∗ (((c : Thread nD τ).loc main_v8) ↦{dat.share 4} G 4)) := by
  unfold Dat.arrays
  rw [bigSep_W0]
  -- windows 0 and 1 have one and the same array, so one rewrite serves both
  rw [(arr_whole0 0).set_eq_univ, (arr_whole0 2).set_eq_univ, (arr_whole0 3).set_eq_univ, (arr_whole0 4).set_eq_univ]

/-- The shares of call 0's windows: halves for the two on the shared array, everything for the others. -/
theorem shares0 (h0 : dat.q 0 = fullShare.left) (h1 : dat.q 1 = fullShare.right) (h : ∀ w : Fin cfg0.W, 2 ≤ w.val → dat.q w = fullShare) :
    dat.share 0 = fullShare.left ∧ dat.share 1 = fullShare.right ∧ dat.share 2 = fullShare ∧ dat.share 3 = fullShare ∧ dat.share 4 = fullShare := by
  refine ⟨?_, ?_, ?_, ?_, ?_⟩
  · unfold Dat.share; rw [if_neg (by decide), h0]
  · unfold Dat.share; rw [if_neg (by decide), h1]
  · unfold Dat.share; rw [if_neg (by decide), h 2 (by decide)]
  · unfold Dat.share; rw [if_neg (by decide), h 3 (by decide)]
  · unfold Dat.share; rw [if_pos (by decide)]

/-- Entry of call 0: the buffers behind its arrays, whole at the full share at contents `V`, are its windowed arrays
    at the same contents, the shared buffer's share dealt in halves. -/
theorem split0 (h0 : dat.q 0 = fullShare.left) (h1 : dat.q 1 = fullShare.right) (h : ∀ w : Fin cfg0.W, 2 ≤ w.val → dat.q w = fullShare)
    (V : (b : Ref sig .tc) → Buf (Elt F) ((c : Thread nD τ).loc b))
    (G : (w : Fin cfg0.W) → Buf (Elt F) ((cfg0.win w).arr.view.loc (c : Thread nD τ))) (hG : ∀ w, G w = V (Pipeline.arrRef spec0 w)) :
    (Pipeline.arrBufs (Ix := Unit) (Name := ℕ) (U := UR sig nD τ) (Lvl := ℕ) spec0 c V : sProp 𝕄) ⊢ dat.arrays G := by
  obtain ⟨s0, s1, s2, s3, s4⟩ := shares0 c dat h0 h1 h
  rw [arrBufs0_eq, arrays0_eq, s0, s1, s2, s3, s4, hG 0, hG 1, hG 2, hG 3, hG 4]
  iintro ⟨H5, H6, H7, H8⟩
  ihave H := (pointsTo_share (PosShare.mem_left_op_right fullShare)).1 $$ H5
  icases H with ⟨Hl, Hr⟩
  isplitl [Hl]; · iexact Hl
  isplitl [Hr]; · iexact Hr
  isplitl [H6]; · iexact H6
  isplitl [H7]; · iexact H7
  iexact H8

/-- Exit of call 0: its windowed arrays at contents that agree with `V` are the buffers behind them whole at `V`, the two
    halves of the shared buffer joined. -/
theorem join0 (h0 : dat.q 0 = fullShare.left) (h1 : dat.q 1 = fullShare.right) (h : ∀ w : Fin cfg0.W, 2 ≤ w.val → dat.q w = fullShare)
    (V : (b : Ref sig .tc) → Buf (Elt F) ((c : Thread nD τ).loc b))
    (G : (w : Fin cfg0.W) → Buf (Elt F) ((cfg0.win w).arr.view.loc (c : Thread nD τ))) (hG : ∀ w, G w = V (Pipeline.arrRef spec0 w)) :
    (dat.arrays G : sProp 𝕄) ⊢ Pipeline.arrBufs (Ix := Unit) (Name := ℕ) (U := UR sig nD τ) (Lvl := ℕ) spec0 c V := by
  obtain ⟨s0, s1, s2, s3, s4⟩ := shares0 c dat h0 h1 h
  rw [arrBufs0_eq, arrays0_eq, s0, s1, s2, s3, s4, hG 0, hG 1, hG 2, hG 3, hG 4]
  iintro ⟨Hl, Hr, H6, H7, H8⟩
  isplitl [Hl Hr]
  · iapply (pointsTo_share (PosShare.mem_left_op_right fullShare)).2
    isplitl [Hl]; · iexact Hl
    iexact Hr
  isplitl [H6]; · iexact H6
  isplitl [H7]; · iexact H7
  iexact H8

/-! ## Call 1 -/

/-- The buffers behind call 1's arrays, one by one. -/
theorem arrBufs1_eq (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_v5) ↦{fullShare} V main_v5) ∗ (((c : Thread nD τ).loc main_v6) ↦{fullShare} V main_v6)
          ∗ (((c : Thread nD τ).loc main_v7) ↦{fullShare} V main_v7) ∗ (((c : Thread nD τ).loc main_v8) ↦{fullShare} V main_v8)
          ∗ (((c : Thread nD τ).loc main_v9) ↦{fullShare} V main_v9)) := by
  unfold Pipeline.arrBufs
  exact bigSep_eq_bigSepL_of_eq [main_v5, main_v6, main_v7, main_v8, main_v9] (by decide) (by decide) _

variable (dat1 : Dat τ (Elt F) Unit ℕ (UR sig nD τ) ℕ cfg1 c)

/-- Call 1's windowed arrays, one by one, each a whole buffer at its window's share. -/
theorem arrays1_eq (G : (w : Fin cfg1.W) → Buf (Elt F) ((cfg1.win w).arr.view.loc (c : Thread nD τ))) :
    (dat1.arrays G : sProp 𝕄)
      = iprop((((c : Thread nD τ).loc main_v5) ↦{dat1.share 0} G 0) ∗ (((c : Thread nD τ).loc main_v5) ↦{dat1.share 1} G 1)
          ∗ (((c : Thread nD τ).loc main_v6) ↦{dat1.share 2} G 2) ∗ (((c : Thread nD τ).loc main_v7) ↦{dat1.share 3} G 3)
          ∗ (((c : Thread nD τ).loc main_v8) ↦{dat1.share 4} G 4) ∗ (((c : Thread nD τ).loc main_v9) ↦{dat1.share 5} G 5)) := by
  unfold Dat.arrays
  rw [bigSep_W1]
  -- windows 0 and 1 have one and the same array, so one rewrite serves both
  rw [(arr_whole1 0).set_eq_univ, (arr_whole1 2).set_eq_univ, (arr_whole1 3).set_eq_univ, (arr_whole1 4).set_eq_univ, (arr_whole1 5).set_eq_univ]

/-- The shares of call 1's windows: halves for the two on the shared array, everything for the others. -/
theorem shares1 (h0 : dat1.q 0 = fullShare.left) (h1 : dat1.q 1 = fullShare.right) (h : ∀ w : Fin cfg1.W, 2 ≤ w.val → dat1.q w = fullShare) :
    dat1.share 0 = fullShare.left ∧ dat1.share 1 = fullShare.right ∧ dat1.share 2 = fullShare ∧ dat1.share 3 = fullShare
      ∧ dat1.share 4 = fullShare ∧ dat1.share 5 = fullShare := by
  refine ⟨?_, ?_, ?_, ?_, ?_, ?_⟩
  · unfold Dat.share; rw [if_neg (by decide), h0]
  · unfold Dat.share; rw [if_neg (by decide), h1]
  · unfold Dat.share; rw [if_neg (by decide), h 2 (by decide)]
  · unfold Dat.share; rw [if_neg (by decide), h 3 (by decide)]
  · unfold Dat.share; rw [if_neg (by decide), h 4 (by decide)]
  · unfold Dat.share; rw [if_pos (by decide)]

/-- Entry of call 1. -/
theorem split1 (h0 : dat1.q 0 = fullShare.left) (h1 : dat1.q 1 = fullShare.right) (h : ∀ w : Fin cfg1.W, 2 ≤ w.val → dat1.q w = fullShare)
    (V : (b : Ref sig .tc) → Buf (Elt F) ((c : Thread nD τ).loc b))
    (G : (w : Fin cfg1.W) → Buf (Elt F) ((cfg1.win w).arr.view.loc (c : Thread nD τ))) (hG : ∀ w, G w = V (Pipeline.arrRef spec1 w)) :
    (Pipeline.arrBufs (Ix := Unit) (Name := ℕ) (U := UR sig nD τ) (Lvl := ℕ) spec1 c V : sProp 𝕄) ⊢ dat1.arrays G := by
  obtain ⟨s0, s1, s2, s3, s4, s5⟩ := shares1 c dat1 h0 h1 h
  rw [arrBufs1_eq, arrays1_eq, s0, s1, s2, s3, s4, s5, hG 0, hG 1, hG 2, hG 3, hG 4, hG 5]
  iintro ⟨H5, H6, H7, H8, H9⟩
  ihave H := (pointsTo_share (PosShare.mem_left_op_right fullShare)).1 $$ H5
  icases H with ⟨Hl, Hr⟩
  isplitl [Hl]; · iexact Hl
  isplitl [Hr]; · iexact Hr
  isplitl [H6]; · iexact H6
  isplitl [H7]; · iexact H7
  isplitl [H8]; · iexact H8
  iexact H9

/-- Exit of call 1. -/
theorem join1 (h0 : dat1.q 0 = fullShare.left) (h1 : dat1.q 1 = fullShare.right) (h : ∀ w : Fin cfg1.W, 2 ≤ w.val → dat1.q w = fullShare)
    (V : (b : Ref sig .tc) → Buf (Elt F) ((c : Thread nD τ).loc b))
    (G : (w : Fin cfg1.W) → Buf (Elt F) ((cfg1.win w).arr.view.loc (c : Thread nD τ))) (hG : ∀ w, G w = V (Pipeline.arrRef spec1 w)) :
    (dat1.arrays G : sProp 𝕄) ⊢ Pipeline.arrBufs (Ix := Unit) (Name := ℕ) (U := UR sig nD τ) (Lvl := ℕ) spec1 c V := by
  obtain ⟨s0, s1, s2, s3, s4, s5⟩ := shares1 c dat1 h0 h1 h
  rw [arrBufs1_eq, arrays1_eq, s0, s1, s2, s3, s4, s5, hG 0, hG 1, hG 2, hG 3, hG 4, hG 5]
  iintro ⟨Hl, Hr, H6, H7, H8, H9⟩
  isplitl [Hl Hr]
  · iapply (pointsTo_share (PosShare.mem_left_op_right fullShare)).2
    isplitl [Hl]; · iexact Hl
    iexact Hr
  isplitl [H6]; · iexact H6
  isplitl [H7]; · iexact H7
  isplitl [H8]; · iexact H8
  iexact H9

end Cert.Kernel.Share

end
-- ==== Proof.WordDenomBase.lean ====
import proofs.«114457_j13606456394199_2_alg».proof.Proof.Gen.Kernel.Launch
import proofs.«114457_j13606456394199_2_alg».proof.Proof.Gen.Kernel.Skeleton
import proofs.«114457_j13606456394199_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Denom

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Blocks
variable (V : (c : Dev nD) → (b : Ref sig .tc) → Buf (Elt F) ((c : Thread nD τ).loc b))

/-- Window `w`'s block at point `t`, read off its array at the entry contents `V`. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not, for any proof
    data whose array is `V`'s and whose body leaves the block in place. -/
theorem before0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

end Blocks

/-! ## The body's branch condition -/

/-- The condition of the body's one conditional, from the grid coordinates: the inner coordinate is zero. -/
abbrev cond0_0 (i : grid0.Coords) : Prop := (Scalar.cmpi .ne (Scalar.extui (Scalar.cmpi .eq (BitVec.ofNat 32 (i 1).val) 0#32)) 0#32) = 1#1
/-- It holds at the points ≡ 0 (mod 8) — decided over the grid. -/
theorem hcond0_0 : ∀ t : Fin cfg0.N, cond0_0 (grid0.coords t) ↔ t.val % 8 = 0 :=
  (by decide +kernel : ∀ t : Fin grid0.N, cond0_0 (grid0.coords t) ↔ t.val % 8 = 0)

/-- No window is ever idle. -/
theorem liveAt0 : ∀ (w : Fin cfg0.W) (t : Fin cfg0.N), cfg0.idle w (grid0.coords t) = false := fun _ _ => rfl

/-! ## The memrefs the body is called with -/

abbrev ms0_0 (t : Fin cfg0.N) : Memref sig .tc .vmem S512x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x1 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x512 .f32 := win0_4.stage (cfg0.slots t 4)
abbrev hs0_4 (t : Fin cfg0.N) : (ms0_4 t).IsWhole := hstage0_4 ((cfg0.slots t 4).cast nbuf0_4)
/-- The scratch operand: a whole scoped buffer of the kernel's own, passed beside the windows. -/
abbrev scM0 : Memref sig .tc .vmem S1x512 .f32 := Memref.whole cc0_scratch0
/-- The scratch as a view: what it holds is stated through it. -/
abbrev VS0 : View sig .tc .vmem S1x512 .f32 := (scM0).view
/-- One staging buffer of the output window, through which its contents are stated. -/
abbrev VO0_4 : View sig .tc .vmem S1x512 .f32 := (Memref.whole cc0_stg4_0 : Memref sig .tc .vmem S1x512 .f32).view

/-- The scoped buffers that are neither a staging buffer of this call nor its scratch, each at some contents. -/
abbrev restBut (c : Dev nD) : sProp 𝕄 :=
  Pipeline.scopedRestBut (Ix := Unit) (Name := ℕ) (U := UR sig nD τ) (Lvl := ℕ) (Val := Elt F) spec0 c [cc0_scratch0]

/-- The scoped rest and the generator register, with the scratch operand as a memref owned at some contents. -/
theorem PhiA0_eq (c : Dev nD) :
    (iprop(Pipeline.scopedRest (Ix := Unit) (Name := ℕ) (U := UR sig nD τ) (Lvl := ℕ) (Val := Elt F) spec0 c ∗ ∃ r, prngReg c r) : sProp 𝕄)
      = iprop(iprop((∃ d, owns (c : Thread nD τ) scM0 fullShare d) ∗ restBut (F := F) c) ∗ (∃ r, prngReg c r)) := by
  rw [Pipeline.scopedRest_split_of_list spec0 c [cc0_scratch0] (by decide) (by decide)]
  simp only [scM0, owns_whole]; try rfl

end Cert.Kernel.Denom

end
-- ==== Proof.WordDenomRunA.lean ====
import proofs.«114457_j13606456394199_2_alg».proof.Proof.WordDenomBase

set_option maxRecDepth 16384

noncomputable section

namespace Cert.Kernel.Denom

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the output's staging memref and in the scratch, as pieces (last first), at a point whose
    inner coordinate is zero (the accumulator is reset, then added to), with the proof that on whole memrefs — the inputs' at
    their contents, the output's and the scratch at anything — the body runs to the continuation holding the inputs' as they
    were and the output's and the scratch with their pieces written. -/
noncomputable def kernelRun0_A (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S512x1 .i32) (harg4 : arg4.IsWhole) (arg5 : Memref sig .tc .vmem S1x512 .i32) (harg5 : arg5.IsWhole) (arg6 : Memref sig .tc .vmem S1x512 .f32) (harg6 : arg6.IsWhole) (arg7 : Memref sig .tc .vmem S1x512 .f32) (harg7 : arg7.IsWhole) (hc0 : cond0_0 i)
    (x0 : Vec F S512x1024 .bf16) (x1 : Vec F S512x1024 .bf16) (x2 : Vec F S512x1 .i32) (x3 : Vec F S1x512 .i32) :
    Σ' (L4 : List (View.Piece (Elt F) S1x512 .f32)), { LS0 : List (View.Piece (Elt F) S1x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc0_denom_kernel i arg2 harg2 arg3 harg3 arg4 harg4 arg5 harg5 arg6 harg6 arg7 harg7) K } := by
  refine ⟨?_, ?_, fun E K => ?run⟩
  case run =>
    simp only [cc0_denom_kernel_eq_skeleton]; unfold cc0_denom_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.Kernel.Denom

end
-- ==== Proof.WordDenomRunB.lean ====
import proofs.«114457_j13606456394199_2_alg».proof.Proof.WordDenomRunA

set_option maxRecDepth 16384

noncomputable section

namespace Cert.Kernel.Denom

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the output's staging memref and in the scratch, as pieces (last first), at a point whose
    inner coordinate is not zero (the accumulator is added to as the point before left it, `xs0`), with the proof that on
    whole memrefs — the inputs' at their contents, the output's at anything, the scratch at `xs0` — the body runs to the
    continuation holding the inputs' as they were and the output's and the scratch with their pieces written. -/
noncomputable def kernelRun0_B (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S512x1 .i32) (harg4 : arg4.IsWhole) (arg5 : Memref sig .tc .vmem S1x512 .i32) (harg5 : arg5.IsWhole) (arg6 : Memref sig .tc .vmem S1x512 .f32) (harg6 : arg6.IsWhole) (arg7 : Memref sig .tc .vmem S1x512 .f32) (harg7 : arg7.IsWhole) (hc0 : ¬cond0_0 i)
    (x0 : Vec F S512x1024 .bf16) (x1 : Vec F S512x1024 .bf16) (x2 : Vec F S512x1 .i32) (x3 : Vec F S1x512 .i32) (xs0 : Vec F S1x512 .f32) :
    Σ' (L4 : List (View.Piece (Elt F) S1x512 .f32)), { LS0 : List (View.Piece (Elt F) S1x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc0_denom_kernel i arg2 harg2 arg3 harg3 arg4 harg4 arg5 harg5 arg6 harg6 arg7 harg7) K } := by
  refine ⟨?_, ?_, fun E K => ?run⟩
  case run =>
    simp only [cc0_denom_kernel_eq_skeleton]; unfold cc0_denom_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.Kernel.Denom

end
-- ==== Proof.WordDenom.lean ====
import proofs.«114457_j13606456394199_2_alg».proof.Proof.WordDenomRunB

set_option maxRecDepth 16384

noncomputable section

namespace Cert.Kernel.Denom

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves in the output's staging buffer and in the scratch -/

/-- The reset case's pieces for the output window tile its block, so they cover it. -/
theorem cover0_A_4 (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S512x1 .i32) (harg4 : arg4.IsWhole) (arg5 : Memref sig .tc .vmem S1x512 .i32) (harg5 : arg5.IsWhole) (arg6 : Memref sig .tc .vmem S1x512 .f32) (harg6 : arg6.IsWhole) (arg7 : Memref sig .tc .vmem S1x512 .f32) (harg7 : arg7.IsWhole) (hc0 : cond0_0 i)
    (x0 : Vec F S512x1024 .bf16) (x1 : Vec F S512x1024 .bf16) (x2 : Vec F S512x1 .i32) (x3 : Vec F S1x512 .i32) (y : S1x512.Idx) :
    ∃ pc ∈ (kernelRun0_A c i arg2 harg2 arg3 harg3 arg4 harg4 arg5 harg5 arg6 harg6 arg7 harg7 hc0 x0 x1 x2 x3).1, y ∈ pc.1.set :=
  View.cover_of_tiledL (kernelRun0_A c i arg2 harg2 arg3 harg3 arg4 harg4 arg5 harg5 arg6 harg6 arg7 harg7 hc0 x0 x1 x2 x3).1 S1x512.size (by sl_kernel_rfl) y

/-- What the reset case leaves in the output's staging buffer: its pieces read back over junk. -/
def out0_A_4 (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S512x1 .i32) (harg4 : arg4.IsWhole) (arg5 : Memref sig .tc .vmem S1x512 .i32) (harg5 : arg5.IsWhole) (arg6 : Memref sig .tc .vmem S1x512 .f32) (harg6 : arg6.IsWhole) (arg7 : Memref sig .tc .vmem S1x512 .f32) (harg7 : arg7.IsWhole) (hc0 : cond0_0 i)
    (x0 : Vec F S512x1024 .bf16) (x1 : Vec F S512x1024 .bf16) (x2 : Vec F S512x1 .i32) (x3 : Vec F S1x512 .i32) : Vec F S1x512 .f32 :=
  VO0_4.read (Elt F) (VO0_4.writes (Elt F) VO0_4.junk (kernelRun0_A c i arg2 harg2 arg3 harg3 arg4 harg4 arg5 harg5 arg6 harg6 arg7 harg7 hc0 x0 x1 x2 x3).1)

/-- The reset case's pieces for the scratch cover it. -/
theorem scover0_A (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S512x1 .i32) (harg4 : arg4.IsWhole) (arg5 : Memref sig .tc .vmem S1x512 .i32) (harg5 : arg5.IsWhole) (arg6 : Memref sig .tc .vmem S1x512 .f32) (harg6 : arg6.IsWhole) (arg7 : Memref sig .tc .vmem S1x512 .f32) (harg7 : arg7.IsWhole) (hc0 : cond0_0 i)
    (x0 : Vec F S512x1024 .bf16) (x1 : Vec F S512x1024 .bf16) (x2 : Vec F S512x1 .i32) (x3 : Vec F S1x512 .i32) (y : S1x512.Idx) :
    ∃ pc ∈ (kernelRun0_A c i arg2 harg2 arg3 harg3 arg4 harg4 arg5 harg5 arg6 harg6 arg7 harg7 hc0 x0 x1 x2 x3).2.1, y ∈ pc.1.set :=
  View.cover_of_tiledL (kernelRun0_A c i arg2 harg2 arg3 harg3 arg4 harg4 arg5 harg5 arg6 harg6 arg7 harg7 hc0 x0 x1 x2 x3).2.1 S1x512.size (by sl_kernel_rfl) y

/-- What the reset case leaves in the scratch: its pieces read back over junk. -/
def sout0_A (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S512x1 .i32) (harg4 : arg4.IsWhole) (arg5 : Memref sig .tc .vmem S1x512 .i32) (harg5 : arg5.IsWhole) (arg6 : Memref sig .tc .vmem S1x512 .f32) (harg6 : arg6.IsWhole) (arg7 : Memref sig .tc .vmem S1x512 .f32) (harg7 : arg7.IsWhole) (hc0 : cond0_0 i)
    (x0 : Vec F S512x1024 .bf16) (x1 : Vec F S512x1024 .bf16) (x2 : Vec F S512x1 .i32) (x3 : Vec F S1x512 .i32) : Vec F S1x512 .f32 :=
  VS0.read (Elt F) (VS0.writes (Elt F) VS0.junk (kernelRun0_A c i arg2 harg2 arg3 harg3 arg4 harg4 arg5 harg5 arg6 harg6 arg7 harg7 hc0 x0 x1 x2 x3).2.1)

/-- The accumulating case's pieces for the output window tile its block, so they cover it. -/
theorem cover0_B_4 (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S512x1 .i32) (harg4 : arg4.IsWhole) (arg5 : Memref sig .tc .vmem S1x512 .i32) (harg5 : arg5.IsWhole) (arg6 : Memref sig .tc .vmem S1x512 .f32) (harg6 : arg6.IsWhole) (arg7 : Memref sig .tc .vmem S1x512 .f32) (harg7 : arg7.IsWhole) (hc0 : ¬cond0_0 i)
    (x0 : Vec F S512x1024 .bf16) (x1 : Vec F S512x1024 .bf16) (x2 : Vec F S512x1 .i32) (x3 : Vec F S1x512 .i32) (xs0 : Vec F S1x512 .f32) (y : S1x512.Idx) :
    ∃ pc ∈ (kernelRun0_B c i arg2 harg2 arg3 harg3 arg4 harg4 arg5 harg5 arg6 harg6 arg7 harg7 hc0 x0 x1 x2 x3 xs0).1, y ∈ pc.1.set :=
  View.cover_of_tiledL (kernelRun0_B c i arg2 harg2 arg3 harg3 arg4 harg4 arg5 harg5 arg6 harg6 arg7 harg7 hc0 x0 x1 x2 x3 xs0).1 S1x512.size (by sl_kernel_rfl) y

/-- What the accumulating case leaves in the output's staging buffer: its pieces read back over junk. -/
def out0_B_4 (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S512x1 .i32) (harg4 : arg4.IsWhole) (arg5 : Memref sig .tc .vmem S1x512 .i32) (harg5 : arg5.IsWhole) (arg6 : Memref sig .tc .vmem S1x512 .f32) (harg6 : arg6.IsWhole) (arg7 : Memref sig .tc .vmem S1x512 .f32) (harg7 : arg7.IsWhole) (hc0 : ¬cond0_0 i)
    (x0 : Vec F S512x1024 .bf16) (x1 : Vec F S512x1024 .bf16) (x2 : Vec F S512x1 .i32) (x3 : Vec F S1x512 .i32) (xs0 : Vec F S1x512 .f32) : Vec F S1x512 .f32 :=
  VO0_4.read (Elt F) (VO0_4.writes (Elt F) VO0_4.junk (kernelRun0_B c i arg2 harg2 arg3 harg3 arg4 harg4 arg5 harg5 arg6 harg6 arg7 harg7 hc0 x0 x1 x2 x3 xs0).1)

/-- The accumulating case's pieces for the scratch cover it. -/
theorem scover0_B (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S512x1 .i32) (harg4 : arg4.IsWhole) (arg5 : Memref sig .tc .vmem S1x512 .i32) (harg5 : arg5.IsWhole) (arg6 : Memref sig .tc .vmem S1x512 .f32) (harg6 : arg6.IsWhole) (arg7 : Memref sig .tc .vmem S1x512 .f32) (harg7 : arg7.IsWhole) (hc0 : ¬cond0_0 i)
    (x0 : Vec F S512x1024 .bf16) (x1 : Vec F S512x1024 .bf16) (x2 : Vec F S512x1 .i32) (x3 : Vec F S1x512 .i32) (xs0 : Vec F S1x512 .f32) (y : S1x512.Idx) :
    ∃ pc ∈ (kernelRun0_B c i arg2 harg2 arg3 harg3 arg4 harg4 arg5 harg5 arg6 harg6 arg7 harg7 hc0 x0 x1 x2 x3 xs0).2.1, y ∈ pc.1.set :=
  View.cover_of_tiledL (kernelRun0_B c i arg2 harg2 arg3 harg3 arg4 harg4 arg5 harg5 arg6 harg6 arg7 harg7 hc0 x0 x1 x2 x3 xs0).2.1 S1x512.size (by sl_kernel_rfl) y

/-- What the accumulating case leaves in the scratch: its pieces read back over junk. -/
def sout0_B (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S512x1 .i32) (harg4 : arg4.IsWhole) (arg5 : Memref sig .tc .vmem S1x512 .i32) (harg5 : arg5.IsWhole) (arg6 : Memref sig .tc .vmem S1x512 .f32) (harg6 : arg6.IsWhole) (arg7 : Memref sig .tc .vmem S1x512 .f32) (harg7 : arg7.IsWhole) (hc0 : ¬cond0_0 i)
    (x0 : Vec F S512x1024 .bf16) (x1 : Vec F S512x1024 .bf16) (x2 : Vec F S512x1 .i32) (x3 : Vec F S1x512 .i32) (xs0 : Vec F S1x512 .f32) : Vec F S1x512 .f32 :=
  VS0.read (Elt F) (VS0.writes (Elt F) VS0.junk (kernelRun0_B c i arg2 harg2 arg3 harg3 arg4 harg4 arg5 harg5 arg6 harg6 arg7 harg7 hc0 x0 x1 x2 x3 xs0).2.1)

section Region
variable (V : (c : Dev nD) → (b : Ref sig .tc) → Buf (Elt F) ((c : Thread nD τ).loc b))

/-! ## What the output's buffer and the scratch hold after each point -/

/-- The accumulation: what the output's staging buffer and the scratch hold after the body at position `n` (a pair: the
    output, then the scratch): the case the inner coordinate selects at `n`, run at the point's memrefs and input blocks,
    the scratch of the accumulating case at what this leaves at `n - 1`. -/
def outsAt0 (c : Dev nD) : (n : ℕ) → n < cfg0.N → Vec F S1x512 .f32 × Vec F S1x512 .f32
  | 0, hn => (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0 (Memref.isWhole_whole _) ((hcond0_0 ⟨0, hn⟩).mpr (Nat.zero_mod _)) (iblk V c 0 ⟨0, hn⟩) (iblk V c 1 ⟨0, hn⟩) (iblk V c 2 ⟨0, hn⟩) (iblk V c 3 ⟨0, hn⟩), sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0 (Memref.isWhole_whole _) ((hcond0_0 ⟨0, hn⟩).mpr (Nat.zero_mod _)) (iblk V c 0 ⟨0, hn⟩) (iblk V c 1 ⟨0, hn⟩) (iblk V c 2 ⟨0, hn⟩) (iblk V c 3 ⟨0, hn⟩))
  | n + 1, hn =>
    if h0 : (n + 1) % 8 = 0 then
      (out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0 (Memref.isWhole_whole _) ((hcond0_0 ⟨n + 1, hn⟩).mpr h0) (iblk V c 0 ⟨n + 1, hn⟩) (iblk V c 1 ⟨n + 1, hn⟩) (iblk V c 2 ⟨n + 1, hn⟩) (iblk V c 3 ⟨n + 1, hn⟩), sout0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0 (Memref.isWhole_whole _) ((hcond0_0 ⟨n + 1, hn⟩).mpr h0) (iblk V c 0 ⟨n + 1, hn⟩) (iblk V c 1 ⟨n + 1, hn⟩) (iblk V c 2 ⟨n + 1, hn⟩) (iblk V c 3 ⟨n + 1, hn⟩))
    else
      (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0 (Memref.isWhole_whole _) (fun h => h0 ((hcond0_0 ⟨n + 1, hn⟩).mp h)) (iblk V c 0 ⟨n + 1, hn⟩) (iblk V c 1 ⟨n + 1, hn⟩) (iblk V c 2 ⟨n + 1, hn⟩) (iblk V c 3 ⟨n + 1, hn⟩) (outsAt0 c n (Nat.lt_of_succ_lt hn)).2, sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0 (Memref.isWhole_whole _) (fun h => h0 ((hcond0_0 ⟨n + 1, hn⟩).mp h)) (iblk V c 0 ⟨n + 1, hn⟩) (iblk V c 1 ⟨n + 1, hn⟩) (iblk V c 2 ⟨n + 1, hn⟩) (iblk V c 3 ⟨n + 1, hn⟩) (outsAt0 c n (Nat.lt_of_succ_lt hn)).2)

/-- `outsAt0` at a point of the reset case: that case's contents. -/
theorem outsAt0_A (c : Dev nD) (t : Fin cfg0.N) (h0 : t.val % 8 = 0) :
    outsAt0 V c t.val t.isLt = (out0_A_4 c (grid0.coords t) (ms0_0 t) (hs0_0 t) (ms0_1 t) (hs0_1 t) (ms0_2 t) (hs0_2 t) (ms0_3 t) (hs0_3 t) (ms0_4 t) (hs0_4 t) scM0 (Memref.isWhole_whole _) ((hcond0_0 t).mpr h0) (iblk V c 0 t) (iblk V c 1 t) (iblk V c 2 t) (iblk V c 3 t), sout0_A c (grid0.coords t) (ms0_0 t) (hs0_0 t) (ms0_1 t) (hs0_1 t) (ms0_2 t) (hs0_2 t) (ms0_3 t) (hs0_3 t) (ms0_4 t) (hs0_4 t) scM0 (Memref.isWhole_whole _) ((hcond0_0 t).mpr h0) (iblk V c 0 t) (iblk V c 1 t) (iblk V c 2 t) (iblk V c 3 t)) := by
  obtain ⟨n, hn⟩ := t
  cases n with
  | zero => exact rfl
  | succ n => exact (dif_pos h0).trans rfl

/-- `outsAt0` at a point of the accumulating case: that case's contents, over what the point before left. -/
theorem outsAt0_B (c : Dev nD) (t : Fin cfg0.N) (h0 : ¬t.val % 8 = 0) :
    outsAt0 V c t.val t.isLt = (out0_B_4 c (grid0.coords t) (ms0_0 t) (hs0_0 t) (ms0_1 t) (hs0_1 t) (ms0_2 t) (hs0_2 t) (ms0_3 t) (hs0_3 t) (ms0_4 t) (hs0_4 t) scM0 (Memref.isWhole_whole _) (fun h => h0 ((hcond0_0 t).mp h)) (iblk V c 0 t) (iblk V c 1 t) (iblk V c 2 t) (iblk V c 3 t) (outsAt0 V c (t.val - 1) (Nat.lt_of_le_of_lt (Nat.sub_le _ _) t.isLt)).2, sout0_B c (grid0.coords t) (ms0_0 t) (hs0_0 t) (ms0_1 t) (hs0_1 t) (ms0_2 t) (hs0_2 t) (ms0_3 t) (hs0_3 t) (ms0_4 t) (hs0_4 t) scM0 (Memref.isWhole_whole _) (fun h => h0 ((hcond0_0 t).mp h)) (iblk V c 0 t) (iblk V c 1 t) (iblk V c 2 t) (iblk V c 3 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- The region invariant before position `n`: before the first point the scoped rest at anything and the generator
    register at some state; afterwards the scratch at what the point before left in it, the other scoped buffers at
    anything, and the generator register at some state. -/
def PhiS (c : Dev nD) : (n : ℕ) → n ≤ cfg0.N → sProp 𝕄
  | 0, _ => iprop(Pipeline.scopedRest (Ix := Unit) (Name := ℕ) (U := UR sig nD τ) (Lvl := ℕ) (Val := Elt F) spec0 c ∗ ∃ r, prngReg c r)
  | n + 1, hn => iprop(iprop(owns (c : Thread nD τ) scM0 fullShare ((outsAt0 V c n hn).2) ∗ restBut (F := F) c) ∗ (∃ r, prngReg c r))

theorem PhiS_zero (c : Dev nD) (n : ℕ) (h : n ≤ cfg0.N) (hz : n = 0) :
    PhiS V c n h = iprop(Pipeline.scopedRest (Ix := Unit) (Name := ℕ) (U := UR sig nD τ) (Lvl := ℕ) (Val := Elt F) spec0 c ∗ ∃ r, prngReg c r) := by
  subst hz; rfl

theorem PhiS_succ (c : Dev nD) (n : ℕ) (hn : n < cfg0.N) :
    PhiS V c (n + 1) hn = iprop(iprop(owns (c : Thread nD τ) scM0 fullShare ((outsAt0 V c n hn).2) ∗ restBut (F := F) c) ∗ (∃ r, prngReg c r)) := rfl

theorem PhiS_pos (c : Dev nD) (n : ℕ) (h : n ≤ cfg0.N) (hz : n ≠ 0) :
    PhiS V c n h = iprop(iprop(owns (c : Thread nD τ) scM0 fullShare ((outsAt0 V c (n - 1) (by omega)).2) ∗ restBut (F := F) c) ∗ (∃ r, prngReg c r)) := by
  cases n with
  | zero => exact absurd rfl hz
  | succ n => rfl

/-! ## The pipeline's proof data -/

/-- The proof data of the call on core `c`: the arrays as the region finds them (`V`); after the body at point `t` each
    input's buffer at its block and the output's at `outsAt0`; the invariant `PhiS`; nothing owed; the two windows that
    stand on one array hold a half of it each, the others their arrays outright. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => (outsAt0 V c t.val t.isLt).1
  Φ t := PhiS V c t.val (Nat.le_of_lt_succ t.isLt)
  q w := if w.val = 0 then fullShare.left else if w.val = 1 then fullShare.right else fullShare
  owed _ := 0

theorem A_eq (c : Dev nD) (w : Fin cfg0.W) : (dat V c).A w = V c (Pipeline.arrRef spec0 w) := by
  dsimp only [dat]

theorem q_0 (c : Dev nD) : (dat V c).q 0 = fullShare.left := rfl
theorem q_1 (c : Dev nD) : (dat V c).q 1 = fullShare.right := rfl
theorem q_of (c : Dev nD) (w : Fin cfg0.W) (h : 2 ≤ w.val) : (dat V c).q w = fullShare := by
  dsimp only [dat]; rw [if_neg (by omega), if_neg (by omega)]

theorem owed_zero (c : Dev nD) (t) : (dat V c).owed t = 0 := rfl

/-- The invariant at a point's start, restated at `t.val`. -/
theorem PhiS_castSucc (c : Dev nD) (t : Fin cfg0.N) :
    (dat V c).Φ t.castSucc = PhiS V c t.val (Nat.le_of_lt t.isLt) := by
  dsimp only [dat]; simp only [Fin.coe_castSucc]

theorem after0_0 (c : Dev nD) (t : Fin cfg0.N) : (dat V c).after 0 t = iblk V c 0 t := by dsimp only [dat]
theorem after0_1 (c : Dev nD) (t : Fin cfg0.N) : (dat V c).after 1 t = iblk V c 1 t := by dsimp only [dat]
theorem after0_2 (c : Dev nD) (t : Fin cfg0.N) : (dat V c).after 2 t = iblk V c 2 t := by dsimp only [dat]
theorem after0_3 (c : Dev nD) (t : Fin cfg0.N) : (dat V c).after 3 t = iblk V c 3 t := by dsimp only [dat]
theorem after0_4 (c : Dev nD) (t : Fin cfg0.N) : (dat V c).after 4 t = (outsAt0 V c t.val t.isLt).1 := by dsimp only [dat]

theorem before0_0 (c : Dev nD) (t : Fin cfg0.N) (d) : (dat V c).before 0 t d = iblk V c 0 t :=
  before0_of V (dat V c) (A_eq V c 0) (after0_0 V c) t d
theorem before0_1 (c : Dev nD) (t : Fin cfg0.N) (d) : (dat V c).before 1 t d = iblk V c 1 t :=
  before1_of V (dat V c) (A_eq V c 1) (after0_1 V c) t d
theorem before0_2 (c : Dev nD) (t : Fin cfg0.N) (d) : (dat V c).before 2 t d = iblk V c 2 t :=
  before2_of V (dat V c) (A_eq V c 2) (after0_2 V c) t d
theorem before0_3 (c : Dev nD) (t : Fin cfg0.N) (d) : (dat V c).before 3 t d = iblk V c 3 t :=
  before3_of V (dat V c) (A_eq V c 3) (after0_3 V c) t d

/-! ## The body obligation, at a generic point -/

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t))

set_option maxHeartbeats 4800000 in
/-- The body at any point: the inputs' memrefs hold their blocks; the inner coordinate says which case the point is in; the
    invariant hands the body the scratch at what the point before left (at anything at the first point) and takes it back
    at this point's contents; the core owes nothing throughout. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1, before0_2, before0_3]
  rw [show (dat V c).owesAt () t.succ = (dat V c).owesAt () t.castSucc from rfl]
  rw [show (dat V c).Φ t.succ = PhiS V c (t.val + 1) t.isLt from rfl, PhiS_succ]
  rw [after0_0, after0_1, after0_2, after0_3, after0_4]
  have hN : t.val < 64 := lt_of_lt_of_eq t.isLt (show cfg0.N = 64 from N_0)
  by_cases h0 : t.val % 8 = 0
  · rw [outsAt0_A V c t h0]
    unfold out0_A_4 sout0_A; (try dsimp only)
    by_cases hz : t.val = 0
    · rw [PhiS_castSucc V c t, PhiS_zero V c _ _ hz, PhiA0_eq]
      iintro ⟨⟨⟨HS0, HR⟩, Hg⟩, Ho, ⟨%d0, H0⟩, ⟨%d1, H1⟩, ⟨%d2, H2⟩, ⟨%d3, H3⟩, ⟨%d4, H4⟩⟩
      iapply ((kernelRun0_A c (grid0.coords t) _ _ _ _ _ _ _ _ _ _ _ _ ((hcond0_0 t).mpr h0) (iblk V c 0 t) (iblk V c 1 t) (iblk V c 2 t) (iblk V c 3 t)).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_A c _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover0_A_4 c _ _ _ _ _ _ _ _ _ _ _ _ _ _ _ _ _ _)
    · rw [PhiS_castSucc V c t, PhiS_pos V c _ _ hz]
      iintro ⟨⟨⟨HS0, HR⟩, Hg⟩, Ho, ⟨%d0, H0⟩, ⟨%d1, H1⟩, ⟨%d2, H2⟩, ⟨%d3, H3⟩, ⟨%d4, H4⟩⟩
      iapply ((kernelRun0_A c (grid0.coords t) _ _ _ _ _ _ _ _ _ _ _ _ ((hcond0_0 t).mpr h0) (iblk V c 0 t) (iblk V c 1 t) (iblk V c 2 t) (iblk V c 3 t)).2.2 Set.univ _)
      isplitl [H0]; · iexact H0
      isplitl [H1]; · iexact H1
      isplitl [H2]; · iexact H2
      isplitl [H3]; · iexact H3
      isplitl [H4]; · iexists _; iexact H4
      isplitl [HS0]; · iexists _; iexact HS0
      iintro ⟨H0, H1, H2, H3, ⟨%e4, H4⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_A c _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover0_A_4 c _ _ _ _ _ _ _ _ _ _ _ _ _ _ _ _ _ _)
  · rw [outsAt0_B V c t h0]
    unfold out0_B_4 sout0_B; (try dsimp only)
    by_cases hz : t.val = 0
    · exfalso; rw [hz] at h0; exact h0 (Nat.zero_mod _)
    · rw [PhiS_castSucc V c t, PhiS_pos V c _ _ hz]
      iintro ⟨⟨⟨HS0, HR⟩, Hg⟩, Ho, ⟨%d0, H0⟩, ⟨%d1, H1⟩, ⟨%d2, H2⟩, ⟨%d3, H3⟩, ⟨%d4, H4⟩⟩
      iapply ((kernelRun0_B c (grid0.coords t) _ _ _ _ _ _ _ _ _ _ _ _ (fun h => h0 ((hcond0_0 t).mp h)) (iblk V c 0 t) (iblk V c 1 t) (iblk V c 2 t) (iblk V c 3 t) _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_B c _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover0_B_4 c _ _ _ _ _ _ _ _ _ _ _ _ _ _ _ _ _ _ _)

/-- The library's body obligation, at every point. -/
theorem body_obligation (c : Dev nD) : BodyObligation (dat (F := F) V c) (defs₀ (F := F)) Variants.none () Set.univ := fun t => by
  rw [bigSep_W0, bigSep_W0]
  exact sound_body V c t

/-- What the launch hands the region is the invariant before the first point. -/
theorem Φ_first (c : Dev nD) : iprop(Pipeline.scopedRest (Ix := Unit) (Name := ℕ) (U := UR sig nD τ) (Lvl := ℕ) (Val := Elt F) spec0 c ∗ ∃ r, prngReg c r) ⊢ (dat V c).Φ 0 := by
  rw [show (dat V c).Φ 0 = PhiS V c 0 (Nat.zero_le _) from rfl, PhiS_zero V c 0 _ rfl]
  try exact Idealize.SL.BI.Entails.refl _

/-- After the last point the invariant gives it back: the scratch's named contents are forgotten. -/
theorem Φ_last (c : Dev nD) : (dat V c).Φ (Fin.last cfg0.N) ⊢ iprop(Pipeline.scopedRest (Ix := Unit) (Name := ℕ) (U := UR sig nD τ) (Lvl := ℕ) (Val := Elt F) spec0 c ∗ ∃ r, prngReg c r) := by
  have hne : (Fin.last cfg0.N).val ≠ 0 := by rw [Fin.val_last]; have : cfg0.N = 64 := N_0; omega
  rw [show (dat V c).Φ (Fin.last cfg0.N) = PhiS V c (Fin.last cfg0.N).val (Nat.le_of_lt_succ (Fin.last cfg0.N).isLt) from rfl, PhiS_pos V c _ _ hne, PhiA0_eq]
  iintro ⟨⟨HS0, HR⟩, Hg⟩
  isplitl [HS0 HR]
  · isplitl [HS0]
    · iexists _; iexact HS0
    iexact HR
  iexact Hg

end Region

end Cert.Kernel.Denom

end
-- ==== Proof.WordLossDefs.lean ====
import proofs.«114457_j13606456394199_2_alg».proof.Proof.Gen.Kernel.Launch
import proofs.«114457_j13606456394199_2_alg».proof.Proof.Gen.Kernel.Skeleton
import proofs.«114457_j13606456394199_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384
set_option synthInstance.maxSize 4096

noncomputable section

namespace Cert.Kernel.Loss

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditionals -/

/-- The reset's condition: the inner grid coordinate is 0. -/
abbrev cond1 (i : grid1.Coords) : Prop := (Scalar.cmpi .ne (Scalar.extui (Scalar.cmpi .eq (BitVec.ofNat 32 (i 1).val) 0#32)) 0#32) = 1#1
/-- The output store's condition: the inner grid coordinate is 7. -/
abbrev cond2 (i : grid1.Coords) : Prop := k1_cond2 i = 1#1

theorem hz : (![0, 0] : Fin 2 → Nat) = fun _ => 0 := funext fun a => by fin_cases a <;> rfl

/-! ## The accumulator's update -/

/-- The accumulator a reset leaves: zero. -/
def acc0 : Vec F S1x1 .f32 := k1_pay3 (F := F)

/-- One point's update of the accumulator `a`: `a` plus minus the tile's total, from the five input blocks. -/
def step (i : grid1.Coords) (x0 x1 : Vec F S512x1024 .bf16) (x2 : Vec F S512x1 .i32) (x3 : Vec F S1x512 .i32)
    (x4 : Vec F S1x512 .f32) (a : Vec F S1x1 .f32) : Vec F S1x1 .f32 :=
  k1_pay1 (k1_pay4 x0 x1) (k1_pay5 i x2 x3) (k1_pay6 x4) (Scalar.ofBits .f32 0x2EDBE6FF#32) a

/-- The output block the last inner point stores: the accumulator at every entry. -/
def out5 (a : Vec F S1x1 .f32) : Vec F S8x128 .f32 := k1_pay2 a

end Cert.Kernel.Loss

end
-- ==== Proof.WordLossRunMid.lean ====
import proofs.«114457_j13606456394199_2_alg».proof.Proof.WordLossDefs
import proofs.«114457_j13606456394199_2_alg».proof.Proof.Gen.Kernel.Launch
import proofs.«114457_j13606456394199_2_alg».proof.Proof.Gen.Kernel.Skeleton
import proofs.«114457_j13606456394199_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384
set_option synthInstance.maxSize 4096

noncomputable section

namespace Cert.Kernel.Loss

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- A middle point (no reset, no output store): the inputs and the output buffer are left as found, the accumulator updated. -/
theorem run_mid (c : Dev nD) (E : Set ℕ) (i : grid1.Coords)
    (arg2 : Memref sig .tc .vmem S512x1024 .bf16) (harg2 : arg2.IsWhole) (arg3 : Memref sig .tc .vmem S512x1024 .bf16) (harg3 : arg3.IsWhole)
    (arg4 : Memref sig .tc .vmem S512x1 .i32) (harg4 : arg4.IsWhole) (arg5 : Memref sig .tc .vmem S1x512 .i32) (harg5 : arg5.IsWhole)
    (arg6 : Memref sig .tc .vmem S1x512 .f32) (harg6 : arg6.IsWhole) (arg7 : Memref sig .tc .vmem S8x128 .f32) (harg7 : arg7.IsWhole)
    (arg8 : Memref sig .tc .vmem S1x1 .f32) (harg8 : arg8.IsWhole)
    (hc1 : ¬cond1 i) (hc2 : ¬cond2 i)
    (x0 x1 : Vec F S512x1024 .bf16) (x2 : Vec F S512x1 .i32) (x3 : Vec F S1x512 .i32) (x4 : Vec F S1x512 .f32) (y : Vec F S8x128 .f32) (a : Vec F S1x1 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare y
        ∗ owns (c : Thread nD τ) arg8 fullShare a
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare y
        ∗ owns (c : Thread nD τ) arg8 fullShare (step i x0 x1 x2 x3 x4 a)) -∗ K ⟨⟩))
      ⊢ wp frame (wpE (defs₀ (F := F)) Variants.none c none) E (cc1_loss_kernel i arg2 harg2 arg3 harg3 arg4 harg4 arg5 harg5 arg6 harg6 arg7 harg7 arg8 harg8) K := by
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f8, %hf8, H8⟩, Hk⟩
  subst hf0; subst hf1; subst hf2; subst hf3; subst hf4; subst hf5; subst hf8
  sl_unfold [cc1_loss_kernel, k1_part1]
  sl_exec (disch := first | exact hc1 | exact hc2)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  iexists _; isplitr
  swap; · iexact H8
  ipureintro
  rw [View.read_writes_eq_canon _ _ _ (fun y => ⟨_, List.mem_singleton_self _, View.mem_set_unit_zero (S := S1x1) hz inb_S1x1_S1x1_0_0 y⟩)]
  rw [View.canon_unit_zero hz]
  unfold step
  try sl_unfold_words
  unfold k1_pay4 k1_pay5 k1_pay6
  simp only [View.readAt_eq_ld, View.ld_unit_zero (S := S512x1024) hz, View.ld_unit_zero (S := S512x1) hz, View.ld_unit_zero (S := S1x512) hz, View.ld_unit_zero (S := S1x1) hz]
  try rfl

end Cert.Kernel.Loss

end
-- ==== Proof.WordLossRunFirst.lean ====
import proofs.«114457_j13606456394199_2_alg».proof.Proof.WordLossDefs
import proofs.«114457_j13606456394199_2_alg».proof.Proof.Gen.Kernel.Launch
import proofs.«114457_j13606456394199_2_alg».proof.Proof.Gen.Kernel.Skeleton
import proofs.«114457_j13606456394199_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384
set_option synthInstance.maxSize 4096

noncomputable section

namespace Cert.Kernel.Loss

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- A first inner point (reset, no output store): the accumulator, whatever it held, is left at the update of zero. -/
theorem run_first (c : Dev nD) (E : Set ℕ) (i : grid1.Coords)
    (arg2 : Memref sig .tc .vmem S512x1024 .bf16) (harg2 : arg2.IsWhole) (arg3 : Memref sig .tc .vmem S512x1024 .bf16) (harg3 : arg3.IsWhole)
    (arg4 : Memref sig .tc .vmem S512x1 .i32) (harg4 : arg4.IsWhole) (arg5 : Memref sig .tc .vmem S1x512 .i32) (harg5 : arg5.IsWhole)
    (arg6 : Memref sig .tc .vmem S1x512 .f32) (harg6 : arg6.IsWhole) (arg7 : Memref sig .tc .vmem S8x128 .f32) (harg7 : arg7.IsWhole)
    (arg8 : Memref sig .tc .vmem S1x1 .f32) (harg8 : arg8.IsWhole)
    (hc1 : cond1 i) (hc2 : ¬cond2 i)
    (x0 x1 : Vec F S512x1024 .bf16) (x2 : Vec F S512x1 .i32) (x3 : Vec F S1x512 .i32) (x4 : Vec F S1x512 .f32) (y : Vec F S8x128 .f32) (a : Vec F S1x1 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare y
        ∗ owns (c : Thread nD τ) arg8 fullShare a
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare y
        ∗ owns (c : Thread nD τ) arg8 fullShare (step i x0 x1 x2 x3 x4 acc0)) -∗ K ⟨⟩))
      ⊢ wp frame (wpE (defs₀ (F := F)) Variants.none c none) E (cc1_loss_kernel i arg2 harg2 arg3 harg3 arg4 harg4 arg5 harg5 arg6 harg6 arg7 harg7 arg8 harg8) K := by
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f8, %hf8, H8⟩, Hk⟩
  subst hf0; subst hf1; subst hf2; subst hf3; subst hf4; subst hf5; subst hf8
  sl_unfold [cc1_loss_kernel, k1_part1]
  sl_exec (disch := first | exact hc1 | exact hc2)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  iexists _; isplitr
  swap; · iexact H8
  ipureintro
  rw [View.read_writes_eq_canon _ _ _ (fun y => ⟨_, List.mem_cons_self, View.mem_set_unit_zero (S := S1x1) hz inb_S1x1_S1x1_0_0 y⟩)]
  rw [View.canon_cons_unit_zero hz]
  unfold step acc0
  try sl_unfold_words
  rw [View.readCov_unit_zero (S := S1x1) _ hz]
  unfold k1_pay3 k1_pay4 k1_pay5 k1_pay6
  simp only [View.readAt_eq_ld, View.ld_unit_zero (S := S512x1024) hz, View.ld_unit_zero (S := S512x1) hz, View.ld_unit_zero (S := S1x512) hz, View.ld_unit_zero (S := S1x1) hz]
  try rfl

end Cert.Kernel.Loss

end
-- ==== Proof.WordLossRunLast.lean ====
import proofs.«114457_j13606456394199_2_alg».proof.Proof.WordLossDefs
import proofs.«114457_j13606456394199_2_alg».proof.Proof.Gen.Kernel.Launch
import proofs.«114457_j13606456394199_2_alg».proof.Proof.Gen.Kernel.Skeleton
import proofs.«114457_j13606456394199_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384
set_option synthInstance.maxSize 4096

noncomputable section

namespace Cert.Kernel.Loss

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- A last inner point (no reset, output store): the accumulator is updated and the output buffer left at its broadcast. -/
theorem run_last (c : Dev nD) (E : Set ℕ) (i : grid1.Coords)
    (arg2 : Memref sig .tc .vmem S512x1024 .bf16) (harg2 : arg2.IsWhole) (arg3 : Memref sig .tc .vmem S512x1024 .bf16) (harg3 : arg3.IsWhole)
    (arg4 : Memref sig .tc .vmem S512x1 .i32) (harg4 : arg4.IsWhole) (arg5 : Memref sig .tc .vmem S1x512 .i32) (harg5 : arg5.IsWhole)
    (arg6 : Memref sig .tc .vmem S1x512 .f32) (harg6 : arg6.IsWhole) (arg7 : Memref sig .tc .vmem S8x128 .f32) (harg7 : arg7.IsWhole)
    (arg8 : Memref sig .tc .vmem S1x1 .f32) (harg8 : arg8.IsWhole)
    (hc1 : ¬cond1 i) (hc2 : cond2 i)
    (x0 x1 : Vec F S512x1024 .bf16) (x2 : Vec F S512x1 .i32) (x3 : Vec F S1x512 .i32) (x4 : Vec F S1x512 .f32) (a : Vec F S1x1 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ (∃ d, owns (c : Thread nD τ) arg7 fullShare d)
        ∗ owns (c : Thread nD τ) arg8 fullShare a
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare (out5 (step i x0 x1 x2 x3 x4 a))
        ∗ owns (c : Thread nD τ) arg8 fullShare (step i x0 x1 x2 x3 x4 a)) -∗ K ⟨⟩))
      ⊢ wp frame (wpE (defs₀ (F := F)) Variants.none c none) E (cc1_loss_kernel i arg2 harg2 arg3 harg3 arg4 harg4 arg5 harg5 arg6 harg6 arg7 harg7 arg8 harg8) K := by
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f8, %hf8, H8⟩, Hk⟩
  subst hf0; subst hf1; subst hf2; subst hf3; subst hf4; subst hf8
  sl_unfold [cc1_loss_kernel, k1_part1]
  sl_exec (disch := first | exact hc1 | exact hc2)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]
  · iexists _; isplitr
    swap; · iexact H5
    ipureintro
    rw [View.read_writes_eq_canon _ _ _ (fun y => ⟨_, List.mem_singleton_self _, View.mem_set_unit_zero (S := S8x128) hz inb_S8x128_S8x128_0_0 y⟩)]
    rw [View.canon_unit_zero hz]
    unfold out5 step
    try sl_unfold_words
    rw [View.readCov_unit_zero (S := S1x1) _ hz]
    unfold k1_pay4 k1_pay5 k1_pay6
    simp only [View.readAt_eq_ld, View.ld_unit_zero (S := S512x1024) hz, View.ld_unit_zero (S := S512x1) hz, View.ld_unit_zero (S := S1x512) hz, View.ld_unit_zero (S := S1x1) hz]
    try rfl
  iexists _; isplitr
  swap; · iexact H8
  ipureintro
  try sl_unfold_words
  rw [View.read_writes_eq_canon _ _ _ (fun y => ⟨_, List.mem_singleton_self _, View.mem_set_unit_zero (S := S1x1) hz inb_S1x1_S1x1_0_0 y⟩)]
  rw [View.canon_unit_zero hz]
  unfold step
  unfold k1_pay4 k1_pay5 k1_pay6
  simp only [View.readAt_eq_ld, View.ld_unit_zero (S := S512x1024) hz, View.ld_unit_zero (S := S512x1) hz, View.ld_unit_zero (S := S1x512) hz, View.ld_unit_zero (S := S1x1) hz]
  try rfl

end Cert.Kernel.Loss

end
-- ==== Proof.WordLoss.lean ====
import proofs.«114457_j13606456394199_2_alg».proof.Proof.WordLossRunMid
import proofs.«114457_j13606456394199_2_alg».proof.Proof.WordLossRunFirst
import proofs.«114457_j13606456394199_2_alg».proof.Proof.WordLossRunLast
import proofs.«114457_j13606456394199_2_alg».proof.Proof.Gen.Kernel.Launch
import proofs.«114457_j13606456394199_2_alg».proof.Proof.Gen.Kernel.Skeleton
import proofs.«114457_j13606456394199_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384
set_option synthInstance.maxSize 4096

noncomputable section

namespace Cert.Kernel.Loss

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
-- the contents of the core's buffers when the second pallas_call is entered
variable (V : (c : Dev nD) → (b : Ref sig .tc) → Buf (Elt F) ((c : Thread nD τ).loc b))

/-! ## The windows' blocks -/

/-- Window `w`'s block at grid point `t`, read off its array as the call finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The accumulator, point by point -/

/-- The update at position `n` of the grid's order (the identity past the grid). -/
def stepAt (c : Dev nD) (n : ℕ) (a : Vec F S1x1 .f32) : Vec F S1x1 .f32 :=
  if h : n < cfg1.N then
    step (grid1.coords ⟨n, h⟩) (iblk V c 0 ⟨n, h⟩) (iblk V c 1 ⟨n, h⟩) (iblk V c 2 ⟨n, h⟩) (iblk V c 3 ⟨n, h⟩) (iblk V c 4 ⟨n, h⟩) a
  else a

/-- What the accumulator holds after the body at position `n`: reset where the inner coordinate is 0
    (every eighth position), else carried from the position before. -/
def acc (c : Dev nD) : ℕ → Vec F S1x1 .f32
  | 0 => stepAt V c 0 acc0
  | n + 1 => stepAt V c (n + 1) (if (n + 1) % 8 = 0 then acc0 else acc c n)

theorem stepAt_eq (c : Dev nD) (t : Fin cfg1.N) (a : Vec F S1x1 .f32) :
    stepAt V c t.val a = step (grid1.coords t) (iblk V c 0 t) (iblk V c 1 t) (iblk V c 2 t) (iblk V c 3 t) (iblk V c 4 t) a := by
  unfold stepAt; rw [dif_pos t.isLt]

/-- At a first inner point the accumulator is the update of zero; -/
theorem acc_first (c : Dev nD) (t : Fin cfg1.N) (h : t.val % 8 = 0) :
    acc V c t.val = step (grid1.coords t) (iblk V c 0 t) (iblk V c 1 t) (iblk V c 2 t) (iblk V c 3 t) (iblk V c 4 t) acc0 := by
  rw [← stepAt_eq]
  obtain ⟨n, hn⟩ := t
  cases n with
  | zero => rfl
  | succ n => show stepAt V c (n + 1) (if (n + 1) % 8 = 0 then acc0 else acc V c n) = _; rw [if_pos h]

/-- elsewhere the update of what the point before left. -/
theorem acc_next (c : Dev nD) (t : Fin cfg1.N) (h : ¬t.val % 8 = 0) :
    acc V c t.val = step (grid1.coords t) (iblk V c 0 t) (iblk V c 1 t) (iblk V c 2 t) (iblk V c 3 t) (iblk V c 4 t) (acc V c (t.val - 1)) := by
  rw [← stepAt_eq]
  obtain ⟨n, hn⟩ := t
  cases n with
  | zero => exact absurd (Nat.zero_mod _) h
  | succ n => show stepAt V c (n + 1) (if (n + 1) % 8 = 0 then acc0 else acc V c n) = _; rw [if_neg h]; rfl

/-! ## The invariant between points -/

/-- The scratch accumulator as a memref. -/
abbrev scM : Memref sig .tc .vmem S1x1 .f32 := Memref.whole cc1_scratch0

/-- The core's scoped buffers that are neither a staging buffer of this call nor its accumulator. -/
abbrev Rest (c : Dev nD) : sProp 𝕄 :=
  Pipeline.scopedRestBut (Ix := Unit) (Name := ℕ) (U := UR sig nD τ) (Lvl := ℕ) (Val := Elt F) spec1 c [cc1_scratch0]

/-- Before position `n`: at the start every scoped buffer at some contents; afterwards the accumulator at what the
    point before left. -/
def PhiS (c : Dev nD) : ℕ → sProp 𝕄
  | 0 => Pipeline.ΦA spec1 c
  | n + 1 => iprop(Rest c ∗ owns (c : Thread nD τ) scM fullShare (acc V c n) ∗ (∃ r, prngReg c r))

theorem PhiS_pos (c : Dev nD) (n : ℕ) (hz : n ≠ 0) :
    PhiS V c n = iprop(Rest c ∗ owns (c : Thread nD τ) scM fullShare (acc V c (n - 1)) ∗ (∃ r, prngReg c r)) := by
  cases n with
  | zero => exact absurd rfl hz
  | succ n => rfl

/-- The scoped rest with the accumulator split off. -/
theorem scopedRest_split (c : Dev nD) :
    (Pipeline.scopedRest (Ix := Unit) (Name := ℕ) (U := UR sig nD τ) (Lvl := ℕ) (Val := Elt F) spec1 c : sProp 𝕄)
      = iprop((∃ d, owns (c : Thread nD τ) scM fullShare d) ∗ Rest c) := by
  rw [Pipeline.scopedRest_split_of_list spec1 c [cc1_scratch0] (by decide) (by decide)]
  simp only [scM, owns_whole]
  rfl

/-! ## The proof data -/

def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => out5 (acc V c t.val)
  Φ t := PhiS V c t.val
  q w := if w.val = 0 then fullShare.left else if w.val = 1 then fullShare.right else fullShare
  owed _ := 0

theorem A_eq (c : Dev nD) (w : Fin cfg1.W) : (dat V c).A w = V c (Pipeline.arrRef spec1 w) := by
  dsimp only [dat]

theorem q_0 (c : Dev nD) : (dat V c).q 0 = fullShare.left := rfl
theorem q_1 (c : Dev nD) : (dat V c).q 1 = fullShare.right := rfl
theorem q_of (c : Dev nD) (w : Fin cfg1.W) (h : 2 ≤ w.val) : (dat V c).q w = fullShare := by
  dsimp only [dat]
  rw [if_neg (by omega), if_neg (by omega)]

theorem owed_zero (c : Dev nD) (t) : (dat V c).owed t = 0 := rfl

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = iblk V c 3 t := by dsimp only [dat]
theorem after_4 (c : Dev nD) (t : Fin cfg1.N) : (dat V c).after 4 t = iblk V c 4 t := by dsimp only [dat]
theorem after_5 (c : Dev nD) (t : Fin cfg1.N) : (dat V c).after 5 t = out5 (acc V c t.val) := by dsimp only [dat]

/-! ## What the body finds in the inputs' staging buffers: the block, fetched at the point or not -/

theorem before_0 (c : Dev nD) (t : Fin cfg1.N) (d) : (dat V c).before 0 t d = iblk V c 0 t :=
  ((dat V c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg1.N) (d) : (dat V c).before 1 t d = iblk V c 1 t :=
  ((dat V c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg1.N) (d) : (dat V c).before 2 t d = iblk V c 2 t :=
  ((dat V c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg1.N) (d) : (dat V c).before 3 t d = iblk V c 3 t :=
  ((dat V c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin cfg1.N) (d) : (dat V c).before 4 t d = iblk V c 4 t :=
  ((dat V c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)

/-! ## Where the conditions hold, and where the output window is idle -/

theorem hcond1 : ∀ t : Fin cfg1.N, cond1 (grid1.coords t) ↔ t.val % 8 = 0 :=
  (by decide +kernel : ∀ t : Fin grid1.N, cond1 (grid1.coords t) ↔ t.val % 8 = 0)
theorem hcond2 : ∀ t : Fin cfg1.N, cond2 (grid1.coords t) ↔ t.val % 8 = 7 :=
  (by decide +kernel : ∀ t : Fin grid1.N, cond2 (grid1.coords t) ↔ t.val % 8 = 7)
theorem idleAt5 : ∀ t : Fin cfg1.N, ¬cond2 (grid1.coords t) → cfg1.idle 5 (grid1.coords t) = true := by decide +kernel
theorem noFlush5 : ∀ t : Fin cfg1.N, ¬cond2 (grid1.coords t) → (cfg1.win 5).flush t = false := by decide +kernel
theorem liveAt5 : ∀ t : Fin cfg1.N, cond2 (grid1.coords t) → cfg1.idle 5 (grid1.coords t) = false := by decide +kernel
theorem liveAt0 : ∀ t : Fin cfg1.N, cfg1.idle 0 (grid1.coords t) = false := fun _ => rfl
theorem liveAt1 : ∀ t : Fin cfg1.N, cfg1.idle 1 (grid1.coords t) = false := fun _ => rfl
theorem liveAt2 : ∀ t : Fin cfg1.N, cfg1.idle 2 (grid1.coords t) = false := fun _ => rfl
theorem liveAt3 : ∀ t : Fin cfg1.N, cfg1.idle 3 (grid1.coords t) = false := fun _ => rfl
theorem liveAt4 : ∀ t : Fin cfg1.N, cfg1.idle 4 (grid1.coords t) = false := fun _ => rfl
theorem leaves_0 (c : Dev nD) (t : Fin cfg1.N) :
    (dat V c).leavesExact 0 t = owns (c : Thread nD τ) (st1_0 t) fullShare (iblk V c 0 t) := by
  unfold Dat.leavesExact; rw [liveAt0 t, after_0]
theorem leaves_1 (c : Dev nD) (t : Fin cfg1.N) :
    (dat V c).leavesExact 1 t = owns (c : Thread nD τ) (st1_1 t) fullShare (iblk V c 1 t) := by
  unfold Dat.leavesExact; rw [liveAt1 t, after_1]
theorem leaves_2 (c : Dev nD) (t : Fin cfg1.N) :
    (dat V c).leavesExact 2 t = owns (c : Thread nD τ) (st1_2 t) fullShare (iblk V c 2 t) := by
  unfold Dat.leavesExact; rw [liveAt2 t, after_2]
theorem leaves_3 (c : Dev nD) (t : Fin cfg1.N) :
    (dat V c).leavesExact 3 t = owns (c : Thread nD τ) (st1_3 t) fullShare (iblk V c 3 t) := by
  unfold Dat.leavesExact; rw [liveAt3 t, after_3]
theorem leaves_4 (c : Dev nD) (t : Fin cfg1.N) :
    (dat V c).leavesExact 4 t = owns (c : Thread nD τ) (st1_4 t) fullShare (iblk V c 4 t) := by
  unfold Dat.leavesExact; rw [liveAt4 t, after_4]
theorem leaves_5_live (c : Dev nD) (t : Fin cfg1.N) (h : cond2 (grid1.coords t)) :
    (dat V c).leavesExact 5 t = owns (c : Thread nD τ) (st1_5 t) fullShare (out5 (acc V c t.val)) := by
  unfold Dat.leavesExact; rw [liveAt5 t h, after_5]

/-! ## The body obligation, at a generic point -/

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d)))

/-- and what it returns. -/
def bodyPost (c : Dev nD) (t : Fin cfg1.N) : sProp 𝕄 :=
  iprop((dat V c).Φ t.succ ∗ (dat V c).owesAt () t.succ
    ∗ (dat V c).leavesExact 0 t ∗ (dat V c).leavesExact 1 t ∗ (dat V c).leavesExact 2 t
    ∗ (dat V c).leavesExact 3 t ∗ (dat V c).leavesExact 4 t ∗ (dat V c).leavesExact 5 t)

theorem Phi_castSucc (c : Dev nD) (t : Fin cfg1.N) : (dat V c).Φ t.castSucc = PhiS V c t.val := by
  dsimp only [dat]; simp only [Fin.coe_castSucc]

theorem Phi_succ (c : Dev nD) (t : Fin cfg1.N) :
    (dat V c).Φ t.succ = iprop(Rest c ∗ owns (c : Thread nD τ) scM fullShare (acc V c t.val) ∗ (∃ r, prngReg c r)) := rfl

set_option maxHeartbeats 4000000 in
/-- The body at any point: the inputs' buffers hold their blocks; the position in the row of eight says which of the
    three runs applies; the invariant hands the accumulator over and takes it back at the point's contents. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3, before_4]
  rw [show (dat V c).owesAt () t.succ = (dat V c).owesAt () t.castSucc from rfl]
  rw [leaves_0, leaves_1, leaves_2, leaves_3, leaves_4, Phi_succ, Phi_castSucc]
  by_cases h0 : t.val % 8 = 0
  · have hc1 : cond1 (grid1.coords t) := (hcond1 t).mpr h0
    have hc2 : ¬cond2 (grid1.coords t) := fun h => by have := (hcond2 t).mp h; omega
    rw [Dat.leavesExact_idle (dat V c) 5 t (idleAt5 t hc2) (noFlush5 t hc2), acc_first V c t h0]
    by_cases hz : t.val = 0
    · rw [show PhiS V c t.val = Pipeline.ΦA spec1 c from by rw [hz]; rfl]
      unfold Pipeline.ΦA; rw [scopedRest_split]
      iintro ⟨⟨⟨⟨%a, HS⟩, HR⟩, Hg⟩, Ho, ⟨%d0, H0⟩, ⟨%d1, H1⟩, ⟨%d2, H2⟩, ⟨%d3, H3⟩, ⟨%d4, H4⟩, ⟨%d5, H5⟩⟩
      iapply (run_first c Set.univ (grid1.coords t) _ _ _ _ _ _ _ _ _ _ _ _ _ _ hc1 hc2
        (iblk V c 0 t) (iblk V c 1 t) (iblk V c 2 t) (iblk V c 3 t) (iblk V c 4 t) _ a _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      isplitl [HR HS Hg]
      · isplitl [HR]; · iexact HR
        isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · rw [PhiS_pos V c t.val hz]
      iintro ⟨⟨HR, HS, Hg⟩, Ho, ⟨%d0, H0⟩, ⟨%d1, H1⟩, ⟨%d2, H2⟩, ⟨%d3, H3⟩, ⟨%d4, H4⟩, ⟨%d5, H5⟩⟩
      iapply (run_first c Set.univ (grid1.coords t) _ _ _ _ _ _ _ _ _ _ _ _ _ _ hc1 hc2
        (iblk V c 0 t) (iblk V c 1 t) (iblk V c 2 t) (iblk V c 3 t) (iblk V c 4 t) _ (acc V c (t.val - 1)) _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      isplitl [HR HS Hg]
      · isplitl [HR]; · iexact HR
        isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · have hc1 : ¬cond1 (grid1.coords t) := fun h => h0 ((hcond1 t).mp h)
    have hz : t.val ≠ 0 := fun h => h0 (by rw [h])
    rw [PhiS_pos V c t.val hz, acc_next V c t h0]
    by_cases h7 : t.val % 8 = 7
    · have hc2 : cond2 (grid1.coords t) := (hcond2 t).mpr h7
      rw [leaves_5_live V c t hc2, acc_next V c t h0]
      iintro ⟨⟨HR, HS, Hg⟩, Ho, ⟨%d0, H0⟩, ⟨%d1, H1⟩, ⟨%d2, H2⟩, ⟨%d3, H3⟩, ⟨%d4, H4⟩, ⟨%d5, H5⟩⟩
      iapply (run_last c Set.univ (grid1.coords t) _ _ _ _ _ _ _ _ _ _ _ _ _ _ hc1 hc2
        (iblk V c 0 t) (iblk V c 1 t) (iblk V c 2 t) (iblk V c 3 t) (iblk V c 4 t) (acc V c (t.val - 1)) _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, H5, HS⟩
      isplitl [HR HS Hg]
      · isplitl [HR]; · iexact HR
        isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      iexact H5
    · have hc2 : ¬cond2 (grid1.coords t) := fun h => h7 ((hcond2 t).mp h)
      rw [Dat.leavesExact_idle (dat V c) 5 t (idleAt5 t hc2) (noFlush5 t hc2)]
      iintro ⟨⟨HR, HS, Hg⟩, Ho, ⟨%d0, H0⟩, ⟨%d1, H1⟩, ⟨%d2, H2⟩, ⟨%d3, H3⟩, ⟨%d4, H4⟩, ⟨%d5, H5⟩⟩
      iapply (run_mid c Set.univ (grid1.coords t) _ _ _ _ _ _ _ _ _ _ _ _ _ _ hc1 hc2
        (iblk V c 0 t) (iblk V c 1 t) (iblk V c 2 t) (iblk V c 3 t) (iblk V c 4 t) _ (acc V c (t.val - 1)) _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      isplitl [HR HS Hg]
      · isplitl [HR]; · iexact HR
        isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation (c : Dev nD) : BodyObligation (dat (F := F) V c) (defs₀ (F := F)) Variants.none () Set.univ := fun t => by
  rw [bigSep_W1, bigSep_W1]
  exact sound_body V c t

/-- What the launch hands the call is the invariant before the first point. -/
theorem Φ_first (c : Dev nD) : iprop(Pipeline.scopedRest (Ix := Unit) (Name := ℕ) (U := UR sig nD τ) (Lvl := ℕ) (Val := Elt F) spec1 c ∗ ∃ r, prngReg c r) ⊢ (dat V c).Φ 0 := by
  show _ ⊢ Pipeline.ΦA spec1 c
  unfold Pipeline.ΦA
  exact .rfl

/-- After the last point the invariant gives the scoped rest back: the accumulator's contents are forgotten. -/
theorem Φ_last (c : Dev nD) : (dat V c).Φ (Fin.last cfg1.N) ⊢ iprop(Pipeline.scopedRest (Ix := Unit) (Name := ℕ) (U := UR sig nD τ) (Lvl := ℕ) (Val := Elt F) spec1 c ∗ ∃ r, prngReg c r) := by
  rw [show (dat V c).Φ (Fin.last cfg1.N) = PhiS V c cfg1.N from rfl, PhiS_pos V c cfg1.N (by rw [show cfg1.N = 64 from N_1]; omega)]
  rw [scopedRest_split]
  iintro ⟨HR, HS, Hg⟩
  isplitl [HR HS]
  · isplitl [HS]; · iexists _; iexact HS
    iexact HR
  iexact Hg

end Region

end Cert.Kernel.Loss

end
-- ==== Proof.WordKernelWhole.lean ====
/-
  The whole run of the kernel program as printed, word by word. The program is five segments: the host operations that divide the
  rows by their norms and lay the labels out as a column and a row, the first kernel region (the column
  denominators), the second kernel region (one partial loss per block row), and the host operations that add the
  partial losses and divide by 4096.

  A region may change only its output array, so the contents of the buffers that outlive the regions are a fold from
  the launch memory: the host operations applied, then region 0's output array replaced by what region 0 leaves, then
  region 1's likewise, then the last host operations applied. Each region is entered by taking its arrays out of
  those buffers — the one array two of its windows read dealt to them in halves — and left by putting them back.
  The run ends with every such buffer at the fold's last value.
-/
import proofs.«114457_j13606456394199_2_alg».proof.Proof.WordRunCond
import proofs.«114457_j13606456394199_2_alg».proof.Proof.WordShareSplit
import proofs.«114457_j13606456394199_2_alg».proof.Proof.WordDenom
import proofs.«114457_j13606456394199_2_alg».proof.Proof.WordLoss
import Idealize.ShloMosaic.Lib.Pipeline.FrameBody
import Idealize.ShloMosaic.Lib.Pipeline.RegionsLoop
import Idealize.ShloMosaic.Lib.Tactic

noncomputable section

namespace Cert.Kernel.Whole

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The contents at the regions' ends -/

/-- The contents region 0 is entered from, read at the TensorCore's references. -/
abbrev E0 : (c : Dev nD) → (b : Ref sig .tc) → Buf (Elt F) ((c : Thread nD τ).loc b) := fun c b => V2 m c b

/-- What region 0 leaves in its output array: the column denominators. -/
def out8 (c : Dev nD) : Buf (Elt F) ((c : Thread nD τ).loc main_v8) := (Denom.dat (E0 m) c).arrAt 4 cfg0.N

/-- The contents between the regions: region 0's output array replaced. -/
def Wmid (c : Dev nD) : Valuation τ sig (Elt F) := Function.update (V2 m c) main_v8 (out8 m c)

/-- The same read at the TensorCore's references: what region 1 is entered from. -/
abbrev E1 : (c : Dev nD) → (b : Ref sig .tc) → Buf (Elt F) ((c : Thread nD τ).loc b) := fun c b => Wmid m c b

/-- What region 1 leaves in its output array: one partial loss per block row, spread over an (8,128) tile. -/
def out9 (c : Dev nD) : Buf (Elt F) ((c : Thread nD τ).loc main_v9) := (Loss.dat (E1 m) c).arrAt 5 cfg1.N

/-- What the regions leave, as the family the fold of contents is written over: region 0's output after segment 2,
    region 1's after segment 3 (no other entry is ever read). -/
def outs : Outs (F := F) := fun n r c =>
  if n = 3 then (if h : r = main_v8 then h ▸ out8 m c else fun _ => Classical.arbitrary _)
  else (if h : r = main_v9 then h ▸ out9 m c else fun _ => Classical.arbitrary _)

theorem outs_3 (c : Dev nD) : outs m 3 main_v8 c = out8 m c := by
  unfold outs; rw [if_pos rfl, dif_pos rfl]
theorem outs_4 (c : Dev nD) : outs m 4 main_v9 c = out9 m c := by
  unfold outs; rw [if_neg (by decide), dif_pos rfl]

/-- The contents after region 0 are region 1's entry contents. -/
theorem V3_eq (c : Dev nD) : V3 m (outs m) c = Wmid m c := by
  unfold Wmid; rw [← outs_3]

/-- After region 0 its output array holds what the region leaves. -/
theorem V3_out (c : Dev nD) : V3 m (outs m) c main_v8 = out8 m c :=
  (Function.update_self _ _ _).trans (outs_3 m c)

/-- Region 0's arrays at its exit: the output array at what the region leaves, the inputs as entered. -/
theorem exit0 (c : Dev nD) : ∀ w : Fin cfg0.W, (Denom.dat (E0 m) c).arrAt w cfg0.N = (fun b : Ref sig .tc => V3 m (outs m) c b) (Pipeline.arrRef spec0 w)
  | ⟨0, _⟩ => ((Denom.dat (E0 m) c).arrAt_in 0 rfl _).trans ((Denom.A_eq (E0 m) c 0).trans (V3_of m (outs m) c main_v5 (by decide)).symm)
  | ⟨1, _⟩ => ((Denom.dat (E0 m) c).arrAt_in 1 rfl _).trans ((Denom.A_eq (E0 m) c 1).trans (V3_of m (outs m) c main_v5 (by decide)).symm)
  | ⟨2, _⟩ => ((Denom.dat (E0 m) c).arrAt_in 2 rfl _).trans ((Denom.A_eq (E0 m) c 2).trans (V3_of m (outs m) c main_v6 (by decide)).symm)
  | ⟨3, _⟩ => ((Denom.dat (E0 m) c).arrAt_in 3 rfl _).trans ((Denom.A_eq (E0 m) c 3).trans (V3_of m (outs m) c main_v7 (by decide)).symm)
  | ⟨4, _⟩ => (V3_out m c).symm

/-- Off region 0's output array nothing changed. -/
theorem rest0 (c : Dev nD) (b : Ref sig .tc) (hb : b ∉ ([main_v8] : List (Ref sig .tc))) : V3 m (outs m) c b = V2 m c b :=
  V3_of m (outs m) c b hb

/-- After region 1 its output array holds what the region leaves. -/
theorem V4_out (c : Dev nD) : V4 m (outs m) c main_v9 = out9 m c :=
  (Function.update_self _ _ _).trans (outs_4 m c)

/-- Off region 1's output array nothing changed, and region 1 starts from what region 0 left. -/
theorem rest1 (c : Dev nD) (b : Ref sig .tc) (hb : b ∉ ([main_v9] : List (Ref sig .tc))) : V4 m (outs m) c b = E1 m c b :=
  (V4_of m (outs m) c b hb).trans (congrFun (V3_eq m c) b)

/-- Region 1's arrays at its exit. -/
theorem exit1 (c : Dev nD) : ∀ w : Fin cfg1.W, (Loss.dat (E1 m) c).arrAt w cfg1.N = (fun b : Ref sig .tc => V4 m (outs m) c b) (Pipeline.arrRef spec1 w)
  | ⟨0, _⟩ => ((Loss.dat (E1 m) c).arrAt_in 0 rfl _).trans ((Loss.A_eq (E1 m) c 0).trans (rest1 m c main_v5 (by decide)).symm)
  | ⟨1, _⟩ => ((Loss.dat (E1 m) c).arrAt_in 1 rfl _).trans ((Loss.A_eq (E1 m) c 1).trans (rest1 m c main_v5 (by decide)).symm)
  | ⟨2, _⟩ => ((Loss.dat (E1 m) c).arrAt_in 2 rfl _).trans ((Loss.A_eq (E1 m) c 2).trans (rest1 m c main_v6 (by decide)).symm)
  | ⟨3, _⟩ => ((Loss.dat (E1 m) c).arrAt_in 3 rfl _).trans ((Loss.A_eq (E1 m) c 3).trans (rest1 m c main_v7 (by decide)).symm)
  | ⟨4, _⟩ => ((Loss.dat (E1 m) c).arrAt_in 4 rfl _).trans ((Loss.A_eq (E1 m) c 4).trans (rest1 m c main_v8 (by decide)).symm)
  | ⟨5, _⟩ => (V4_out m c).symm

/-! ## The proof data family and the thread state -/

/-- Every pipeline's proof data, each at its region's entry contents. -/
def pdats : (p : Fin 2) → (c : Dev nD) → Dat τ (Elt F) Unit ℕ (UR sig nD τ) ℕ (cfgs p) c
  | ⟨0, _⟩ => fun c => Denom.dat (E0 m) c
  | ⟨1, _⟩ => fun c => Loss.dat (E1 m) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, none. -/
abbrev R (c : Dev nD) : sProp 𝕄 := iprop((∃ r, prngReg c r) ∗ ∃ W, owes (c : Thread nD τ) (0 : CellTallies nD τ sig Unit) W)

/-! ## The regions as segments -/

-- a library lemma stated over the pinned configuration unifies with the printed one only when unification may unfold
-- plain definitions in a metavariable's type
set_option backward.isDefEq.respectTransparency.types false in
/-- Region 0 over the thread state: entered from every buffer that outlives the regions at the contents before it, left
    at the contents after it. Its arrays are taken out of those buffers, the array two windows read dealt in halves,
    and put back at the exit contents; the generator register and the scoped buffers go into the body's invariant and
    come back; nothing is owed; the kernel has no semaphore of its own. -/
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (Denom.body_obligation (E0 m) c).loose
  hwaits := Pipeline.hwaits_of_owed_zero _ _ _ _ L lv 0 fun c t => Denom.owed_zero (E0 m) c t
  pre c := iprop(StableHlo.held (c : Thread nD τ) (Pipeline.ucRefs τ sig) (V2 m c) ∗ R c)
  post c := iprop(StableHlo.held (c : Thread nD τ) (Pipeline.ucRefs τ sig) (V3 m (outs m) c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit : (StableHlo.held (c : Thread nD τ) (Pipeline.ucRefs τ sig) (V2 m c) : sProp 𝕄)
        ⊢ iprop((pdats m 0 c).arrays ((pdats m 0 c).arrAt · 0)
            ∗ Pipeline.unscopedRest (Ix := Unit) (Name := ℕ) (U := UR sig nD τ) (Lvl := ℕ) spec0 c (E0 m c)) := by
      rw [← Pipeline.unscopedBufs_held c _, Pipeline.unscopedBufs_split₀ cfgs 0 winFacts₀0.arr_unscoped c (E0 m c)]
      exact sep_mono (Share.split0 c (Denom.dat (E0 m) c) (Denom.q_0 (E0 m) c) (Denom.q_1 (E0 m) c) (Denom.q_of (E0 m) c)
        (E0 m c) _ (fun w => Denom.A_eq (E0 m) c w)) .rfl
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = (Denom.dat (E0 m) c).Φ 0 from rfl]
    iintro ⟨Hp, -, Hr⟩
    iapply (Denom.Φ_first (E0 m) c)
    isplitl [Hr]; · iexact Hr
    iexact Hp
  hout c := by
    rw [Pipeline.ownSems0_none, show (pdats m 0 c).Φ (Fin.last _) = (Denom.dat (E0 m) c).Φ (Fin.last cfg0.N) from rfl]
    iintro H
    ihave H' := (Denom.Φ_last (E0 m) c) $$ H
    icases H' with ⟨Hr, Hp⟩
    isplitl [Hp]; · iexact Hp
    isplitr; · iempintro
    iexact Hr
  hexit c := by
    have hjoin : (iprop((pdats m 0 c).arrays ((pdats m 0 c).arrAt · cfg0.N)
            ∗ Pipeline.unscopedRest (Ix := Unit) (Name := ℕ) (U := UR sig nD τ) (Lvl := ℕ) spec0 c (E0 m c)) : sProp 𝕄)
        ⊢ StableHlo.held (c : Thread nD τ) (Pipeline.ucRefs τ sig) (V3 m (outs m) c) := by
      rw [← Pipeline.unscopedBufs_held c _, Pipeline.unscopedBufs_split₀ cfgs 0 winFacts₀0.arr_unscoped c (fun b => (V3 m (outs m) c) b)]
      -- the buffers that are no array of this region hold what they held at entry
      have hrest : (Pipeline.unscopedRest (Ix := Unit) (Name := ℕ) (U := UR sig nD τ) (Lvl := ℕ) spec0 c (E0 m c) : sProp 𝕄)
          ⊢ Pipeline.unscopedRest (Ix := Unit) (Name := ℕ) (U := UR sig nD τ) (Lvl := ℕ) spec0 c (fun b => (V3 m (outs m) c) b) := by
        unfold Pipeline.unscopedRest
        exact Entails.of_eq (bigSep_congr fun b hb => by
          have hne : b ∉ ([main_v8] : List (Ref sig .tc)) := fun h =>
            (Finset.mem_sdiff.mp hb).2 (by rw [List.mem_singleton.mp h]; exact Finset.mem_image.mpr ⟨4, Finset.mem_univ _, rfl⟩)
          beta_reduce
          rw [rest0 m c b hne])
      exact BIClass.sep_mono (Share.join0 c (Denom.dat (E0 m) c) (Denom.q_0 (E0 m) c) (Denom.q_1 (E0 m) c) (Denom.q_of (E0 m) c)
        (fun b => (V3 m (outs m) c) b) _ (exit0 m c)) hrest
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 1 over the thread state: entered from every buffer that outlives the regions at the contents before it, left
    at the contents after it. Its arrays are taken out of those buffers, the array two windows read dealt in halves,
    and put back at the exit contents; the generator register and the scoped buffers go into the body's invariant and
    come back; nothing is owed; the kernel has no semaphore of its own. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (Loss.body_obligation (E1 m) c).loose
  hwaits := Pipeline.hwaits_of_owed_zero _ _ _ _ L lv 1 fun c t => Loss.owed_zero (E1 m) c t
  pre c := iprop(StableHlo.held (c : Thread nD τ) (Pipeline.ucRefs τ sig) (V3 m (outs m) c) ∗ R c)
  post c := iprop(StableHlo.held (c : Thread nD τ) (Pipeline.ucRefs τ sig) (V4 m (outs m) c) ∗ R c)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit : (StableHlo.held (c : Thread nD τ) (Pipeline.ucRefs τ sig) (V3 m (outs m) c) : sProp 𝕄)
        ⊢ iprop((pdats m 1 c).arrays ((pdats m 1 c).arrAt · 0)
            ∗ Pipeline.unscopedRest (Ix := Unit) (Name := ℕ) (U := UR sig nD τ) (Lvl := ℕ) spec1 c (E1 m c)) := by
      rw [V3_eq m c]
      rw [← Pipeline.unscopedBufs_held c _, Pipeline.unscopedBufs_split₀ cfgs 1 winFacts₀1.arr_unscoped c (E1 m c)]
      exact sep_mono (Share.split1 c (Loss.dat (E1 m) c) (Loss.q_0 (E1 m) c) (Loss.q_1 (E1 m) c) (Loss.q_of (E1 m) c)
        (E1 m c) _ (fun w => Loss.A_eq (E1 m) c w)) .rfl
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (Loss.dat (E1 m) c).Φ 0 from rfl]
    iintro ⟨Hp, -, Hr⟩
    iapply (Loss.Φ_first (E1 m) c)
    isplitl [Hr]; · iexact Hr
    iexact Hp
  hout c := by
    rw [Pipeline.ownSems0_none, show (pdats m 1 c).Φ (Fin.last _) = (Loss.dat (E1 m) c).Φ (Fin.last cfg1.N) from rfl]
    iintro H
    ihave H' := (Loss.Φ_last (E1 m) c) $$ H
    icases H' with ⟨Hr, Hp⟩
    isplitl [Hp]; · iexact Hp
    isplitr; · iempintro
    iexact Hr
  hexit c := by
    have hjoin : (iprop((pdats m 1 c).arrays ((pdats m 1 c).arrAt · cfg1.N)
            ∗ Pipeline.unscopedRest (Ix := Unit) (Name := ℕ) (U := UR sig nD τ) (Lvl := ℕ) spec1 c (E1 m c)) : sProp 𝕄)
        ⊢ StableHlo.held (c : Thread nD τ) (Pipeline.ucRefs τ sig) (V4 m (outs m) c) := by
      rw [← Pipeline.unscopedBufs_held c _, Pipeline.unscopedBufs_split₀ cfgs 1 winFacts₀1.arr_unscoped c (fun b => (V4 m (outs m) c) b)]
      -- the buffers that are no array of this region hold what they held at entry
      have hrest : (Pipeline.unscopedRest (Ix := Unit) (Name := ℕ) (U := UR sig nD τ) (Lvl := ℕ) spec1 c (E1 m c) : sProp 𝕄)
          ⊢ Pipeline.unscopedRest (Ix := Unit) (Name := ℕ) (U := UR sig nD τ) (Lvl := ℕ) spec1 c (fun b => (V4 m (outs m) c) b) := by
        unfold Pipeline.unscopedRest
        exact Entails.of_eq (bigSep_congr fun b hb => by
          have hne : b ∉ ([main_v9] : List (Ref sig .tc)) := fun h =>
            (Finset.mem_sdiff.mp hb).2 (by rw [List.mem_singleton.mp h]; exact Finset.mem_image.mpr ⟨5, Finset.mem_univ _, rfl⟩)
          beta_reduce
          rw [rest1 m c b hne])
      exact BIClass.sep_mono (Share.join1 c (Loss.dat (E1 m) c) (Loss.q_0 (E1 m) c) (Loss.q_1 (E1 m) c) (Loss.q_of (E1 m) c)
        (fun b => (V4 m (outs m) c) b) _ (exit1 m c)) hrest
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

-- the launch theorem's implicit arguments are found by unifying its conclusion with this one
set_option backward.isDefEq.respectTransparency.types false in
/-- From any memory with zero counters every weakly fair execution of the program terminates, nothing faulting, and in
    every final memory every buffer that outlives the regions holds the fold's last value. -/
theorem run (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = V5 m (outs m) c b) :=
  run_cond m emb₁ () 𝒱₀ L lv (fun _ _ => rfl) ρ (outs m) (pdats m) (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => R c)
    (hE0 := Pipeline.initEach L lv fun c => by
      iintro ⟨⟨-, HO, -, Hp, -⟩, -⟩
      imodintro
      isplitl [Hp]; · iexists _; iexact Hp
      iexists ∅; iexact HO)
    (hE2 := fun c => by iintro ⟨-, HO⟩; iexact HO)
    (reg0 m) (fun c => .rfl) (fun c => .rfl) (reg1 m) (fun c => .rfl) (fun c => .rfl)

end Cert.Kernel.Whole

end
-- ==== Proof.DenomPieces.lean ====
import proofs.«114457_j13606456394199_2_alg».proof.Proof.Denom
import Idealize.ShloMosaic.Lib.Pipeline.Value

set_option maxRecDepth 16384

noncomputable section

namespace Cert.KernelIdeal.Denom

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

theorem hz : (![0, 0] : Fin 2 → Nat) = fun _ => 0 := funext fun a => by fin_cases a <;> rfl

/-- The accumulating case leaves in the scratch the payload over the input blocks and what the scratch held. -/
theorem sout_B (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S512x1 .i32) (harg4 : arg4.IsWhole) (arg5 : Memref sig .tc .vmem S1x512 .i32) (harg5 : arg5.IsWhole) (arg6 : Memref sig .tc .vmem S1x512 .f32) (harg6 : arg6.IsWhole) (arg7 : Memref sig .tc .vmem S1x512 .f32) (harg7 : arg7.IsWhole) (hc0 : ¬cond0_0 i)
    (x0 : Vec F S512x1024 .bf16) (x1 : Vec F S512x1024 .bf16) (x2 : Vec F S512x1 .i32) (x3 : Vec F S1x512 .i32) (xs0 : Vec F S1x512 .f32) :
    sout0_B c i arg2 harg2 arg3 harg3 arg4 harg4 arg5 harg5 arg6 harg6 arg7 harg7 hc0 x0 x1 x2 x3 xs0 = k0_pay2 x0 x1 x2 x3 xs0 := by
  unfold sout0_B
  rw [View.read_writes_eq_canon _ _ _ (scover0_B c i arg2 harg2 arg3 harg3 arg4 harg4 arg5 harg5 arg6 harg6 arg7 harg7 hc0 x0 x1 x2 x3 xs0)]
  unfold kernelRun0_B
  dsimp only
  sl_unfold_words
  rw [View.canon_unit_zero hz]
  simp only [View.readAt_eq_ld, harg2.read_unread, harg3.read_unread, harg4.read_unread, harg5.read_unread, harg7.read_unread, View.ld_unit_zero (S := S512x1024) hz, View.ld_unit_zero (S := S512x1) hz, View.ld_unit_zero (S := S1x512) hz]

/-- and the same in the output's staging buffer: the scratch read back. -/
theorem out_B (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S512x1 .i32) (harg4 : arg4.IsWhole) (arg5 : Memref sig .tc .vmem S1x512 .i32) (harg5 : arg5.IsWhole) (arg6 : Memref sig .tc .vmem S1x512 .f32) (harg6 : arg6.IsWhole) (arg7 : Memref sig .tc .vmem S1x512 .f32) (harg7 : arg7.IsWhole) (hc0 : ¬cond0_0 i)
    (x0 : Vec F S512x1024 .bf16) (x1 : Vec F S512x1024 .bf16) (x2 : Vec F S512x1 .i32) (x3 : Vec F S1x512 .i32) (xs0 : Vec F S1x512 .f32) :
    out0_B_4 c i arg2 harg2 arg3 harg3 arg4 harg4 arg5 harg5 arg6 harg6 arg7 harg7 hc0 x0 x1 x2 x3 xs0 = k0_pay2 x0 x1 x2 x3 xs0 := by
  unfold out0_B_4
  rw [View.read_writes_eq_canon _ _ _ (cover0_B_4 c i arg2 harg2 arg3 harg3 arg4 harg4 arg5 harg5 arg6 harg6 arg7 harg7 hc0 x0 x1 x2 x3 xs0)]
  unfold kernelRun0_B
  dsimp only
  sl_unfold_words
  rw [View.canon_unit_zero hz, View.readCov_unit_zero (S := S1x512) _ hz]
  simp only [View.readAt_eq_ld, harg2.read_unread, harg3.read_unread, harg4.read_unread, harg5.read_unread, harg7.read_unread, View.ld_unit_zero (S := S512x1024) hz, View.ld_unit_zero (S := S512x1) hz, View.ld_unit_zero (S := S1x512) hz]

/-- The reset case leaves in the scratch the payload over the input blocks and the zero block. -/
theorem sout_A (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S512x1 .i32) (harg4 : arg4.IsWhole) (arg5 : Memref sig .tc .vmem S1x512 .i32) (harg5 : arg5.IsWhole) (arg6 : Memref sig .tc .vmem S1x512 .f32) (harg6 : arg6.IsWhole) (arg7 : Memref sig .tc .vmem S1x512 .f32) (harg7 : arg7.IsWhole) (hc0 : cond0_0 i)
    (x0 : Vec F S512x1024 .bf16) (x1 : Vec F S512x1024 .bf16) (x2 : Vec F S512x1 .i32) (x3 : Vec F S1x512 .i32) :
    sout0_A c i arg2 harg2 arg3 harg3 arg4 harg4 arg5 harg5 arg6 harg6 arg7 harg7 hc0 x0 x1 x2 x3 = k0_pay2 x0 x1 x2 x3 (k0_pay1 (F := F)) := by
  unfold sout0_A
  rw [View.read_writes_eq_canon _ _ _ (scover0_A c i arg2 harg2 arg3 harg3 arg4 harg4 arg5 harg5 arg6 harg6 arg7 harg7 hc0 x0 x1 x2 x3)]
  unfold kernelRun0_A
  dsimp only
  sl_unfold_words
  rw [View.canon_cons_unit_zero (S := S1x512) hz, View.readCov_unit_zero (S := S1x512) _ hz]
  simp only [View.readAt_eq_ld, harg2.read_unread, harg3.read_unread, harg4.read_unread, harg5.read_unread, View.ld_unit_zero (S := S512x1024) hz, View.ld_unit_zero (S := S512x1) hz, View.ld_unit_zero (S := S1x512) hz]

/-- and the same in the output's staging buffer. -/
theorem out_A (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S512x1 .i32) (harg4 : arg4.IsWhole) (arg5 : Memref sig .tc .vmem S1x512 .i32) (harg5 : arg5.IsWhole) (arg6 : Memref sig .tc .vmem S1x512 .f32) (harg6 : arg6.IsWhole) (arg7 : Memref sig .tc .vmem S1x512 .f32) (harg7 : arg7.IsWhole) (hc0 : cond0_0 i)
    (x0 : Vec F S512x1024 .bf16) (x1 : Vec F S512x1024 .bf16) (x2 : Vec F S512x1 .i32) (x3 : Vec F S1x512 .i32) :
    out0_A_4 c i arg2 harg2 arg3 harg3 arg4 harg4 arg5 harg5 arg6 harg6 arg7 harg7 hc0 x0 x1 x2 x3 = k0_pay2 x0 x1 x2 x3 (k0_pay1 (F := F)) := by
  unfold out0_A_4
  rw [View.read_writes_eq_canon _ _ _ (cover0_A_4 c i arg2 harg2 arg3 harg3 arg4 harg4 arg5 harg5 arg6 harg6 arg7 harg7 hc0 x0 x1 x2 x3)]
  unfold kernelRun0_A
  dsimp only
  sl_unfold_words
  rw [View.canon_unit_zero hz, View.readCov_unit_zero (S := S1x512) _ hz]
  rw [View.readCov_eq_canon_ld _ _ _ (fun y => ⟨_, List.mem_cons_self, View.mem_set_unit_zero hz inb_S1x512_S1x512_0_0 y⟩),
    View.canon_cons_unit_zero (S := S1x512) hz, View.ld_unit_zero (S := S1x512) hz]
  simp only [View.readAt_eq_ld, harg2.read_unread, harg3.read_unread, harg4.read_unread, harg5.read_unread, View.ld_unit_zero (S := S512x1024) hz, View.ld_unit_zero (S := S512x1) hz, View.ld_unit_zero (S := S1x512) hz]

section Region
variable (V : (c : Dev nD) → (b : Ref sig .tc) → Buf (Elt F) ((c : Thread nD τ).loc b))

/-- The accumulator after point `n`: the payload over the point's blocks and the zero block where the inner
    coordinate is zero, over what the point before left elsewhere. -/
def accAt (c : Dev nD) : (n : ℕ) → n < cfg0.N → Vec F S1x512 .f32
  | 0, hn => k0_pay2 (iblk V c 0 ⟨0, hn⟩) (iblk V c 1 ⟨0, hn⟩) (iblk V c 2 ⟨0, hn⟩) (iblk V c 3 ⟨0, hn⟩) (k0_pay1 (F := F))
  | n + 1, hn =>
    if (n + 1) % 8 = 0 then k0_pay2 (iblk V c 0 ⟨n + 1, hn⟩) (iblk V c 1 ⟨n + 1, hn⟩) (iblk V c 2 ⟨n + 1, hn⟩) (iblk V c 3 ⟨n + 1, hn⟩) (k0_pay1 (F := F))
    else k0_pay2 (iblk V c 0 ⟨n + 1, hn⟩) (iblk V c 1 ⟨n + 1, hn⟩) (iblk V c 2 ⟨n + 1, hn⟩) (iblk V c 3 ⟨n + 1, hn⟩) (accAt c n (Nat.lt_of_succ_lt hn))

theorem accAt_reset (c : Dev nD) (t : Fin cfg0.N) (h0 : t.val % 8 = 0) :
    accAt V c t.val t.isLt = k0_pay2 (iblk V c 0 t) (iblk V c 1 t) (iblk V c 2 t) (iblk V c 3 t) (k0_pay1 (F := F)) := by
  obtain ⟨n, hn⟩ := t
  cases n with
  | zero => rfl
  | succ n => exact (if_pos h0)

theorem accAt_succ (c : Dev nD) (n : ℕ) (hn : n + 1 < cfg0.N) (h0 : ¬(n + 1) % 8 = 0) :
    accAt V c (n + 1) hn = k0_pay2 (iblk V c 0 ⟨n + 1, hn⟩) (iblk V c 1 ⟨n + 1, hn⟩) (iblk V c 2 ⟨n + 1, hn⟩) (iblk V c 3 ⟨n + 1, hn⟩) (accAt V c n (Nat.lt_of_succ_lt hn)) :=
  if_neg h0

/-- What the output's staging buffer and the scratch hold after point `n` is the accumulator, both. -/
theorem outsAt_eq (c : Dev nD) : ∀ (n : ℕ) (h : n < cfg0.N), outsAt0 V c n h = (accAt V c n h, accAt V c n h)
  | 0, h => by
    rw [outsAt0_A V c ⟨0, h⟩ rfl, out_A, sout_A]; rfl
  | n + 1, h => by
    by_cases h0 : (n + 1) % 8 = 0
    · rw [outsAt0_A V c ⟨n + 1, h⟩ h0, out_A, sout_A, accAt_reset V c ⟨n + 1, h⟩ h0]
    · rw [outsAt0_B V c ⟨n + 1, h⟩ h0, out_B, sout_B, accAt_succ V c n h h0]
      show (k0_pay2 _ _ _ _ (outsAt0 V c n _).2, k0_pay2 _ _ _ _ (outsAt0 V c n _).2) = _
      rw [outsAt_eq c n]

/-- What the write-back of point `t` would write of the output window: the accumulator after `t`. -/
theorem after4_eq (c : Dev nD) (t : Fin cfg0.N) : (dat V c).after 4 t = accAt V c t.val t.isLt := by
  rw [after0_4, outsAt_eq]

end Region

end Cert.KernelIdeal.Denom

end
-- ==== Proof.Spec.lean ====
/-
  The loss both programs compute, as one function of a real 4096 x 1024 matrix x and 4096 labels t.

  Rows are divided by their Euclidean norm clamped below by d; P is the Gram matrix of the divided rows clamped below
  by e; a column's denominator D j sums exp (P i j / c) over the rows i whose label differs from j's, clamped below by
  e; a pair is positive when the labels agree and i differs from j; the loss is minus the sum over positive pairs of
  P i j / c - log (D j), divided by 4096. The constants are the exact binary values of the three words the programs
  carry: d = 11258999 / 2^50, e = 14411519 / 2^57, c = 13421773 / 2^27; and 1 / c = 134217728 / 13421773.
-/
import Mathlib

noncomputable section

namespace Cert.Spec

/-- The floor of a row's norm. -/
def d : ℝ := 11258999 / 1125899906842624
/-- The floor of the Gram matrix and of a column's denominator, and the reference's threshold. -/
def e : ℝ := 14411519 / 144115188075855872
/-- The temperature. -/
def c : ℝ := 13421773 / 134217728
/-- The reciprocal of the temperature, the scale of the kernel's second pass. -/
def k : ℝ := 134217728 / 13421773

theorem d_pos : 0 < d := by unfold d; norm_num
theorem e_pos : 0 < e := by unfold e; norm_num
theorem c_pos : 0 < c := by unfold c; norm_num
theorem k_eq : k = 1 / c := by unfold k c; norm_num

/-- A row's clamped Euclidean norm. -/
def nrm (x : Fin 4096 → Fin 1024 → ℝ) (i : Fin 4096) : ℝ := max (Real.sqrt (∑ a, x i a * x i a)) d
/-- The rows divided by their clamped norms. -/
def y (x : Fin 4096 → Fin 1024 → ℝ) (i : Fin 4096) (a : Fin 1024) : ℝ := x i a / nrm x i
/-- The clamped Gram matrix of the divided rows. -/
def P (x : Fin 4096 → Fin 1024 → ℝ) (i j : Fin 4096) : ℝ := max (∑ a, y x i a * y x j a) e
/-- 1 where the labels differ, 0 where they agree. -/
def neg (t : Fin 4096 → BitVec 32) (i j : Fin 4096) : ℝ := if t i = t j then 0 else 1
/-- 1 on a pair of distinct rows with one label, 0 elsewhere. -/
def pos (t : Fin 4096 → BitVec 32) (i j : Fin 4096) : ℝ := (if t i = t j then 1 else 0) - (if i = j then 1 else 0)
/-- A column's denominator before its clamp: the sum over the rows of another label. -/
def colSum (x : Fin 4096 → Fin 1024 → ℝ) (t : Fin 4096 → BitVec 32) (j : Fin 4096) : ℝ := ∑ i, Real.exp (P x i j / c) * neg t i j
/-- A column's denominator. -/
def D (x : Fin 4096 → Fin 1024 → ℝ) (t : Fin 4096 → BitVec 32) (j : Fin 4096) : ℝ := max (colSum x t j) e
/-- The loss. -/
def loss (x : Fin 4096 → Fin 1024 → ℝ) (t : Fin 4096 → BitVec 32) : ℝ :=
  -(∑ i, ∑ j, (P x i j * k - Real.log (D x t j)) * pos t i j) / 4096

end Cert.Spec

end
-- ==== Proof.RefConsts.lean ====
/-
  The float words the reference carries, as the extended reals they denote: the floor of a row's norm, the floor of the
  Gram matrix and of a column's denominator (which is also the threshold), the temperature, the number of rows, one, zero and
  the positive infinity.
-/
import Idealize.ShloMosaic.PureOps.Ideal
import proofs.«114457_j13606456394199_2_alg».proof.Proof.Spec

noncomputable section

namespace Cert.ReferenceIdeal.RefConsts

open Idealize.ShloMosaic

/-- The zero word denotes 0. -/
theorem ofBits_zero : Ideal.ofBits .f32 0x00000000#32 = 0 := by
  simp [Ideal.ofBits, Ideal.ieee]

/-- The word of one denotes 1. -/
theorem ofBits_one : Ideal.ofBits .f32 0x3F800000#32 = ((1 : ℝ) : EReal) := by
  simp [Ideal.ofBits, Ideal.ieee, -EReal.coe_mul]; norm_num

/-- The word of 4096 denotes 4096. -/
theorem ofBits_4096 : Ideal.ofBits .f32 0x45800000#32 = ((4096 : ℝ) : EReal) := by
  simp [Ideal.ofBits, Ideal.ieee, -EReal.coe_mul]; norm_num

/-- The word of the norm's floor denotes d. -/
theorem ofBits_d : Ideal.ofBits .f32 0x322BCC77#32 = ((Cert.Spec.d : ℝ) : EReal) := by
  simp [Ideal.ofBits, Ideal.ieee, -EReal.coe_mul, Cert.Spec.d]; norm_num

/-- The word of the Gram matrix's floor denotes e. -/
theorem ofBits_e : Ideal.ofBits .f32 0x2EDBE6FF#32 = ((Cert.Spec.e : ℝ) : EReal) := by
  simp [Ideal.ofBits, Ideal.ieee, -EReal.coe_mul, Cert.Spec.e]; norm_num

/-- The word of the temperature denotes c. -/
theorem ofBits_c : Ideal.ofBits .f32 0x3DCCCCCD#32 = ((Cert.Spec.c : ℝ) : EReal) := by
  simp [Ideal.ofBits, Ideal.ieee, -EReal.coe_mul, Cert.Spec.c]; norm_num

/-- The word of the positive infinity denotes the top element. -/
theorem ofBits_inf : Ideal.ofBits .f32 0x7F800000#32 = ⊤ := by
  simp [Ideal.ofBits, Ideal.ieee]

end Cert.ReferenceIdeal.RefConsts

end
-- ==== Proof.DenomPayload.lean ====
import proofs.«114457_j13606456394199_2_alg».proof.Proof.Gen.KernelIdeal.Skeleton
import proofs.«114457_j13606456394199_2_alg».proof.Proof.RefConsts
import Idealize.ShloMosaic.Lib.Pipeline.Value
import Idealize.ShloMosaic.Lib.ValueIdx
import Idealize.ShloMosaic.PureOps.Ideal.Laws

set_option maxRecDepth 16384

noncomputable section

namespace Cert.KernelIdeal.Denom

open Cert.KernelIdeal Cert.KernelIdeal.Gen
open Idealize.ShloMosaic Idealize.ShloMosaic.ValueIdx Idealize.SL.Sem
open Cert.ReferenceIdeal.RefConsts

/-! ## Real numbers inside the extended reals -/

theorem coe_sumR {ι : Type*} (s : Finset ι) (f : ι → ℝ) : ((∑ k ∈ s, f k : ℝ) : EReal) = ∑ k ∈ s, ((f k : ℝ) : EReal) := by
  classical
  induction s using Finset.induction_on with
  | empty => simp
  | insert a s ha ih => rw [Finset.sum_insert ha, Finset.sum_insert ha, EReal.coe_add, ih]

theorem coe_maxR (a b : ℝ) : ((max a b : ℝ) : EReal) = max (a : EReal) (b : EReal) :=
  EReal.coe_strictMono.monotone.map_max

theorem div_coeR (a : ℝ) {b : ℝ} (hb : b ≠ 0) : Ideal.div (a : EReal) (b : EReal) = ((a / b : ℝ) : EReal) := by
  rw [Ideal.div_coe hb, ← EReal.coe_mul, mul_one_div]

/-- The comparison of two words for equality is the bit of their equality. -/
theorem cmpi_eq_bit {n : Nat} (a b : BitVec n) : IntOp.cmpi .eq a b = if a = b then 1#1 else 0#1 := by
  show BitVec.ofBool (a == b) = _
  by_cases h : a = b
  · rw [if_pos h, beq_iff_eq.mpr h]; rfl
  · rw [if_neg h, beq_eq_false_iff_ne.mpr h]; rfl

/-! ## The payload's stages at an index -/

/-- The summand of a column's sum: the exponential of the clamped inner product over the temperature where the labels differ. -/
def term (u w : Fin 512 → Fin 1024 → ℝ) (ti tj : Fin 512 → BitVec 32) (r q : Fin 512) : ℝ :=
  Real.exp (max (∑ a : Fin 1024, u r a * w q a) Cert.Spec.e / Cert.Spec.c) * (if ti r = tj q then 0 else 1)

theorem lhs_0 (j : S512x512.Idx) (k : dot_S512x1024_S1024x512_S512x512_1_0_0_1_n_n.contr.Idx) : (dot_S512x1024_S1024x512_S512x512_1_0_0_1_n_n.lhsIdx j k 0).val = (j 0).val := by
  unfold DotDims.lhsIdx
  rw [dif_neg (show ¬(0 : Fin S512x1024.rank) ∈ dot_S512x1024_S1024x512_S512x512_1_0_0_1_n_n.lhsBatch by decide), dif_pos (show (0 : Fin S512x1024.rank) ∈ dot_S512x1024_S1024x512_S512x512_1_0_0_1_n_n.lhsNonContracting by decide)]
  rfl
theorem lhs_1 (j : S512x512.Idx) (k : dot_S512x1024_S1024x512_S512x512_1_0_0_1_n_n.contr.Idx) : (dot_S512x1024_S1024x512_S512x512_1_0_0_1_n_n.lhsIdx j k 1).val = (k ⟨0, by decide⟩).val :=
  dot_S512x1024_S1024x512_S512x512_1_0_0_1_n_n.lhsIdx_val_of_single rfl j k
theorem rhs_0 (j : S512x512.Idx) (k : dot_S512x1024_S1024x512_S512x512_1_0_0_1_n_n.contr.Idx) : (dot_S512x1024_S1024x512_S512x512_1_0_0_1_n_n.rhsIdx j k 0).val = (k ⟨0, by decide⟩).val :=
  dot_S512x1024_S1024x512_S512x512_1_0_0_1_n_n.rhsIdx_val_of_single rfl j k
theorem rhs_1 (j : S512x512.Idx) (k : dot_S512x1024_S1024x512_S512x512_1_0_0_1_n_n.contr.Idx) : (dot_S512x1024_S1024x512_S512x512_1_0_0_1_n_n.rhsIdx j k 1).val = (j 1).val := by
  unfold DotDims.rhsIdx
  rw [dif_neg (show ¬(1 : Fin S1024x512.rank) ∈ dot_S512x1024_S1024x512_S512x512_1_0_0_1_n_n.rhsBatch by decide), dif_pos (show (1 : Fin S1024x512.rank) ∈ dot_S512x1024_S1024x512_S512x512_1_0_0_1_n_n.rhsNonContracting by decide)]
  rfl

section Stages
variable (x0 x1 : Vec Ideal S512x1024 .bf16) (x2 : Vec Ideal S512x1 .i32) (x3 : Vec Ideal S1x512 .i32)
  (u w : Fin 512 → Fin 1024 → ℝ) (ti tj : Fin 512 → BitVec 32)
  (h0 : ∀ r a, x0 (ix2 r a) = ((u r a : ℝ) : EReal)) (h1 : ∀ q a, x1 (ix2 q a) = ((w q a : ℝ) : EReal))
  (h2 : ∀ r, x2 (ix2 r 0) = ti r) (h3 : ∀ q, x3 (ix2 0 q) = tj q)

omit x0 x1 h0 h1 in
/-- The matrix product of a row block and the transpose of a row block, at an entry: the inner product of the two rows. -/
theorem gram_apply (x0 x1 : FVec Ideal S512x1024 .bf16)
    (h0 : ∀ r a, x0 (ix2 r a) = ((u r a : ℝ) : EReal)) (h1 : ∀ q a, x1 (ix2 q a) = ((w q a : ℝ) : EReal)) (r q : Fin 512) :
    matmul (F := Ideal) (φ₁ := .bf16) (φ₂ := .bf16) dot_S512x1024_S1024x512_S512x512_1_0_0_1_n_n none x0 (transpose S1024x512 [1, 0] x1 transposes_S512x1024_p1_0_S1024x512) (constant (F := Ideal) S512x512 .f32 0x00000000#32) (ix2 r q)
      = ((∑ a : Fin 1024, u r a * w q a : ℝ) : EReal) := by
  simp only [matmul]
  rw [Ideal.matmul_constant_zero_apply, ← Equiv.sum_comp (contrEquiv1 dot_S512x1024_S1024x512_S512x512_1_0_0_1_n_n 1024 rfl rfl).symm, coe_sumR]
  refine Finset.sum_congr rfl fun k _ => ?_
  have hk := contrEquiv1_symm_val dot_S512x1024_S1024x512_S512x512_1_0_0_1_n_n 1024 rfl rfl k
  have el : dot_S512x1024_S1024x512_S512x512_1_0_0_1_n_n.lhsIdx (ix2 r q) ((contrEquiv1 dot_S512x1024_S1024x512_S512x512_1_0_0_1_n_n 1024 rfl rfl).symm k) = (ix2 r k : S512x1024.Idx) := funext fun a => Fin.ext (by
    match a with
    | ⟨0, _⟩ => exact lhs_0 _ _
    | ⟨1, _⟩ => exact (lhs_1 _ _).trans hk)
  have er : dot_S512x1024_S1024x512_S512x512_1_0_0_1_n_n.rhsIdx (ix2 r q) ((contrEquiv1 dot_S512x1024_S1024x512_S512x512_1_0_0_1_n_n 1024 rfl rfl).symm k) = (ix2 k q : S1024x512.Idx) := funext fun a => Fin.ext (by
    match a with
    | ⟨0, _⟩ => exact (rhs_0 _ _).trans hk
    | ⟨1, _⟩ => exact rhs_1 _ _)
  rw [el, er, transpose_apply [1, 0] x1 transposes_S512x1024_p1_0_S1024x512 (ix2 k q) (ix2 q k) (fun b => match b with | ⟨0, _⟩ => rfl | ⟨1, _⟩ => rfl), h0, h1, EReal.coe_mul]

include h2 h3 in
/-- The mask at an entry: zero where the labels agree, one where they differ. -/
theorem mask_apply (r q : Fin 512) :
    (select (cmpi .eq (broadcastTo S512x512 x2 broadcasts_S512x1_S512x512) (broadcastTo S512x512 x3 broadcasts_S1x512_S512x512))
      (broadcast S512x512 (FloatOps.ofBits (F := Ideal) .f32 0x00000000#32)) (broadcast S512x512 (FloatOps.ofBits (F := Ideal) .f32 0x3F800000#32)) : FVec Ideal S512x512 .f32) (ix2 r q)
      = (((if ti r = tj q then 0 else 1 : ℝ)) : EReal) := by
  rw [select_apply]
  show Scalar.select (IntOp.cmpi .eq (broadcastTo S512x512 x2 broadcasts_S512x1_S512x512 (ix2 r q)) (broadcastTo S512x512 x3 broadcasts_S1x512_S512x512 (ix2 r q)))
    (Ideal.ofBits .f32 0x00000000#32) (Ideal.ofBits .f32 0x3F800000#32) = _
  rw [broadcastTo_apply x2 broadcasts_S512x1_S512x512 (ix2 r q) (ix2 r 0) (fun a => match a with | ⟨0, _⟩ => rfl | ⟨1, _⟩ => rfl),
    broadcastTo_apply x3 broadcasts_S1x512_S512x512 (ix2 r q) (ix2 0 q) (fun a => match a with | ⟨0, _⟩ => rfl | ⟨1, _⟩ => rfl),
    h2, h3, cmpi_eq_bit, ofBits_zero, ofBits_one]
  by_cases h : ti r = tj q
  · rw [if_pos h, if_pos h, select_one]; rfl
  · rw [if_neg h, if_neg h, select_zero]

end Stages

theorem lift_ix (q r : Fin 512) : reduces_S512x512_S512.lift (ix1 q) r = (ix2 r q : S512x512.Idx) :=
  funext fun a => Fin.ext (by match a with | ⟨0, _⟩ => rfl | ⟨1, _⟩ => rfl)

/-- The zero block the reset stores. -/
theorem pay1_apply (q : Fin 512) : k0_pay1 (F := Ideal) (ix2 0 q) = ((0 : ℝ) : EReal) := by
  simp only [k0_pay1, shapeCast_self]
  show Ideal.ofBits .f32 0x00000000#32 = _
  rw [ofBits_zero]; rfl

/-- The accumulating store's payload at a lane: what the accumulator held there plus the column's sum, over the rows of
    the block, of the exponential of the clamped inner product over the temperature where the labels differ. -/
theorem pay2_apply (x0 x1 : Vec Ideal S512x1024 .bf16) (x2 : Vec Ideal S512x1 .i32) (x3 : Vec Ideal S1x512 .i32) (acc : Vec Ideal S1x512 .f32)
    (u w : Fin 512 → Fin 1024 → ℝ) (ti tj : Fin 512 → BitVec 32) (s : Fin 512 → ℝ)
    (h0 : ∀ r a, x0 (ix2 r a) = ((u r a : ℝ) : EReal)) (h1 : ∀ q a, x1 (ix2 q a) = ((w q a : ℝ) : EReal))
    (h2 : ∀ r, x2 (ix2 r 0) = ti r) (h3 : ∀ q, x3 (ix2 0 q) = tj q) (hs : ∀ q, acc (ix2 0 q) = ((s q : ℝ) : EReal)) (q : Fin 512) :
    k0_pay2 (F := Ideal) x0 x1 x2 x3 acc (ix2 0 q) = ((s q + ∑ r : Fin 512, term u w ti tj r q : ℝ) : EReal) := by
  simp only [k0_pay2, shapeCast_self]
  rw [addf_apply, hs, EReal.coe_add]
  refine congrArg (_ + ·) ?_
  rw [shapeCast_apply _ shapeCasts_S512_S1x512 (ix2 0 q) (ix1 q) (by rw [Shape.rowMajor_val_one, Shape.rowMajor_val_two]; simp)]
  refine (Ideal.multiReduction_add_single _ 0x00000000#32 reduces_S512x512_S512 _ _ (ix1 q)).trans ?_
  rw [coe_sumR]
  refine Finset.sum_congr rfl fun (r : Fin 512) _ => ?_
  rw [lift_ix, mulf_apply, mask_apply x2 x3 ti tj h2 h3]
  show Ideal.exp (Ideal.div (max (matmul (F := Ideal) (φ₁ := .bf16) (φ₂ := .bf16) dot_S512x1024_S1024x512_S512x512_1_0_0_1_n_n none x0 (transpose S1024x512 [1, 0] x1 transposes_S512x1024_p1_0_S1024x512) (constant (F := Ideal) S512x512 .f32 0x00000000#32) (ix2 r q)) (Ideal.ofBits .f32 0x2EDBE6FF#32)) (Ideal.ofBits .f32 0x3DCCCCCD#32)) * _ = _
  rw [gram_apply u w x0 x1 h0 h1, ofBits_e, ofBits_c, ← coe_maxR, div_coeR _ Cert.Spec.c_pos.ne', Ideal.exp_coe, ← EReal.coe_mul]
  rfl

end Cert.KernelIdeal.Denom
end
-- ==== Proof.DenomBlocks.lean ====
import proofs.«114457_j13606456394199_2_alg».proof.Proof.DenomBase
import Idealize.ShloMosaic.Lib.Pipeline.Value
import Idealize.ShloMosaic.Lib.ValueIdx

set_option maxRecDepth 16384

noncomputable section

namespace Cert.KernelIdeal.Denom

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

open Idealize.ShloMosaic.ValueIdx

/-- The windows' block indices in closed form, decided over the grid: the first and third windows follow the inner
    coordinate, the second, fourth and fifth the outer one. -/
theorem idx_facts : ∀ p : Fin cfg0.N,
    win0_0.index p 0 = p.val % 8 ∧ win0_0.index p 1 = 0 ∧ win0_1.index p 0 = p.val / 8 ∧ win0_1.index p 1 = 0
    ∧ win0_2.index p 0 = p.val % 8 ∧ win0_2.index p 1 = 0 ∧ win0_3.index p 0 = 0 ∧ win0_3.index p 1 = p.val / 8
    ∧ win0_4.index p 0 = 0 ∧ win0_4.index p 1 = p.val / 8 :=
  (by decide +kernel : ∀ p : Fin grid0.N,
    win0_0.index p 0 = p.val % 8 ∧ win0_0.index p 1 = 0 ∧ win0_1.index p 0 = p.val / 8 ∧ win0_1.index p 1 = 0
    ∧ win0_2.index p 0 = p.val % 8 ∧ win0_2.index p 1 = 0 ∧ win0_3.index p 0 = 0 ∧ win0_3.index p 1 = p.val / 8
    ∧ win0_4.index p 0 = 0 ∧ win0_4.index p 1 = p.val / 8)

theorem pN (p : Fin cfg0.N) : p.val < 64 := lt_of_lt_of_eq p.isLt (show cfg0.N = 64 from N_0)

/-- Row `r` of row block `I`. -/
def rowOf (I : ℕ) (hI : I < 8) (r : Fin 512) : Fin 4096 := ⟨512 * I + r.val, by have := r.isLt; omega⟩

theorem mod8 (p : Fin cfg0.N) : p.val % 8 < 8 := Nat.mod_lt _ (by decide)
theorem div8 (p : Fin cfg0.N) : p.val / 8 < 8 := by have := pN p; omega

section Blocks
variable (V : (c : Dev nD) → (b : Ref sig .tc) → Buf (Elt F) ((c : Thread nD τ).loc b))

/-- The first window's block at a point is the row block of the inner coordinate. -/
theorem iblk0_apply (c : Dev nD) (p : Fin cfg0.N) (r : Fin 512) (a : Fin 1024) :
    iblk V c 0 p (ix2 r a) = V c main_v5 (ix2 (rowOf (p.val % 8) (mod8 p) r) a) := by
  unfold iblk
  rw [View.read_apply]
  show V c main_v5 _ = V c main_v5 _
  congr 1
  funext b
  apply Fin.ext
  match b with
  | ⟨0, _⟩ => show win0_0.index p 0 * 512 + 1 * r.val = 512 * (p.val % 8) + r.val; rw [(idx_facts p).1]; omega
  | ⟨1, _⟩ => show win0_0.index p 1 * 1024 + 1 * a.val = a.val; rw [(idx_facts p).2.1]; omega

/-- The second window's block at a point is the row block of the outer coordinate. -/
theorem iblk1_apply (c : Dev nD) (p : Fin cfg0.N) (q : Fin 512) (a : Fin 1024) :
    iblk V c 1 p (ix2 q a) = V c main_v5 (ix2 (rowOf (p.val / 8) (div8 p) q) a) := by
  unfold iblk
  rw [View.read_apply]
  show V c main_v5 _ = V c main_v5 _
  congr 1
  funext b
  apply Fin.ext
  match b with
  | ⟨0, _⟩ => show win0_1.index p 0 * 512 + 1 * q.val = 512 * (p.val / 8) + q.val; rw [(idx_facts p).2.2.1]; omega
  | ⟨1, _⟩ => show win0_1.index p 1 * 1024 + 1 * a.val = a.val; rw [(idx_facts p).2.2.2.1]; omega

/-- The third window's block at a point is the labels of the row block of the inner coordinate, as a column. -/
theorem iblk2_apply (c : Dev nD) (p : Fin cfg0.N) (r : Fin 512) :
    iblk V c 2 p (ix2 r 0) = V c main_v6 (ix2 (rowOf (p.val % 8) (mod8 p) r) 0) := by
  unfold iblk
  rw [View.read_apply]
  show V c main_v6 _ = V c main_v6 _
  congr 1
  funext b
  apply Fin.ext
  match b with
  | ⟨0, _⟩ => show win0_2.index p 0 * 512 + 1 * r.val = 512 * (p.val % 8) + r.val; rw [(idx_facts p).2.2.2.2.1]; omega
  | ⟨1, _⟩ => show win0_2.index p 1 * 1 + 1 * 0 = 0; rw [(idx_facts p).2.2.2.2.2.1]

/-- The fourth window's block at a point is the labels of the row block of the outer coordinate, as a row. -/
theorem iblk3_apply (c : Dev nD) (p : Fin cfg0.N) (q : Fin 512) :
    iblk V c 3 p (ix2 0 q) = V c main_v7 (ix2 0 (rowOf (p.val / 8) (div8 p) q)) := by
  unfold iblk
  rw [View.read_apply]
  show V c main_v7 _ = V c main_v7 _
  congr 1
  funext b
  apply Fin.ext
  match b with
  | ⟨0, _⟩ => show win0_3.index p 0 * 1 + 1 * 0 = 0; rw [(idx_facts p).2.2.2.2.2.2.1]
  | ⟨1, _⟩ => show win0_3.index p 1 * 512 + 1 * q.val = 512 * (p.val / 8) + q.val; rw [(idx_facts p).2.2.2.2.2.2.2.1]; omega

end Blocks

end Cert.KernelIdeal.Denom

end
-- ==== Proof.DenomFold.lean ====
import proofs.«114457_j13606456394199_2_alg».proof.Proof.DenomPieces
import proofs.«114457_j13606456394199_2_alg».proof.Proof.DenomPayload
import proofs.«114457_j13606456394199_2_alg».proof.Proof.DenomBlocks
import proofs.«114457_j13606456394199_2_alg».proof.Proof.Spec

set_option maxRecDepth 16384

noncomputable section

namespace Cert.KernelIdeal.Denom

open Cert.KernelIdeal Cert.KernelIdeal.Gen
open Idealize.ShloMosaic Idealize.ShloMosaic.TcCoe Idealize.ShloMosaic.ValueIdx Idealize.SL.Sem
open Idealize.ShloMosaic.Pipeline (Dat)

/-! ## The column sums as partial sums over the row blocks -/

/-- The summand of column `j`'s sum at row `i`. -/
def g (yr : Fin 4096 → Fin 1024 → ℝ) (t : Fin 4096 → BitVec 32) (i j : Fin 4096) : ℝ :=
  Real.exp (max (∑ a : Fin 1024, yr i a * yr j a) Cert.Spec.e / Cert.Spec.c) * Cert.Spec.neg t i j

/-- The same over the natural numbers, zero past the last row. -/
def gN (yr : Fin 4096 → Fin 1024 → ℝ) (t : Fin 4096 → BitVec 32) (j : Fin 4096) (m : ℕ) : ℝ :=
  if h : m < 4096 then g yr t ⟨m, h⟩ j else 0

/-- The sum over the first `n` rows. -/
def psum (yr : Fin 4096 → Fin 1024 → ℝ) (t : Fin 4096 → BitVec 32) (j : Fin 4096) (n : ℕ) : ℝ :=
  ∑ m ∈ Finset.range n, gN yr t j m

theorem psum_zero (yr : Fin 4096 → Fin 1024 → ℝ) (t : Fin 4096 → BitVec 32) (j : Fin 4096) : psum yr t j 0 = 0 := by
  unfold psum; simp

theorem psum_full (yr : Fin 4096 → Fin 1024 → ℝ) (t : Fin 4096 → BitVec 32) (j : Fin 4096) :
    psum yr t j 4096 = ∑ i : Fin 4096, g yr t i j := by
  unfold psum
  rw [Finset.sum_range]
  refine Finset.sum_congr rfl fun i _ => ?_
  unfold gN; rw [dif_pos i.isLt]

/-- One more row block. -/
theorem psum_step (yr : Fin 4096 → Fin 1024 → ℝ) (t : Fin 4096 → BitVec 32) (j : Fin 4096) (I : ℕ) (hI : I < 8) :
    psum yr t j (512 * (I + 1)) = psum yr t j (512 * I) + ∑ r : Fin 512, g yr t (rowOf I hI r) j := by
  unfold psum
  rw [show 512 * (I + 1) = 512 * I + 512 by ring, Finset.sum_range_add]
  congr 1
  rw [Finset.sum_range]
  refine Finset.sum_congr rfl fun r _ => ?_
  unfold gN rowOf
  rw [dif_pos (by have := r.isLt; omega)]

theorem rowOf_congr {I I' : ℕ} (h : I = I') (hI : I < 8) (hI' : I' < 8) (r : Fin 512) : rowOf I hI r = rowOf I' hI' r := by
  subst h; rfl

section Region
variable (V : (c : Dev nD) → (b : Ref sig .tc) → Buf (Elt Ideal) ((c : Thread nD τ).loc b)) (c : Dev nD)
  (yr : Fin 4096 → Fin 1024 → ℝ) (t : Fin 4096 → BitVec 32)
  (hY : ∀ i a, V c main_v5 (ix2 i a) = ((yr i a : ℝ) : EReal))
  (hcol : ∀ i, V c main_v6 (ix2 i 0) = t i) (hrow : ∀ j, V c main_v7 (ix2 0 j) = t j)

include hY hcol hrow

/-- The accumulating store's payload at a point, over the point's blocks: what the accumulator held plus the sum over
    the rows of the inner coordinate's block, at the column of the outer coordinate's block. -/
theorem pay_at (p : Fin cfg0.N) (acc : Vec Ideal S1x512 .f32) (s : Fin 512 → ℝ)
    (hs : ∀ q, acc (ix2 0 q) = ((s q : ℝ) : EReal)) (q : Fin 512) :
    k0_pay2 (F := Ideal) (iblk V c 0 p) (iblk V c 1 p) (iblk V c 2 p) (iblk V c 3 p) acc (ix2 0 q)
      = ((s q + ∑ r : Fin 512, g yr t (rowOf (p.val % 8) (mod8 p) r) (rowOf (p.val / 8) (div8 p) q) : ℝ) : EReal) := by
  refine (pay2_apply (iblk V c 0 p) (iblk V c 1 p) (iblk V c 2 p) (iblk V c 3 p) acc
    (fun r a => yr (rowOf (p.val % 8) (mod8 p) r) a) (fun q a => yr (rowOf (p.val / 8) (div8 p) q) a)
    (fun r => t (rowOf (p.val % 8) (mod8 p) r)) (fun q => t (rowOf (p.val / 8) (div8 p) q)) s
    (fun r a => (iblk0_apply V c p r a).trans (hY _ _)) (fun q a => (iblk1_apply V c p q a).trans (hY _ _))
    (fun r => (iblk2_apply V c p r).trans (hcol _)) (fun q => (iblk3_apply V c p q).trans (hrow _)) hs q).trans ?_
  unfold term g Cert.Spec.neg
  rfl

/-- The accumulator after point `n`, at lane `q`: the sum over the row blocks up to the inner coordinate's, at the column
    of the outer coordinate's block. -/
theorem acc_eq : ∀ (n : ℕ) (hn : n < cfg0.N) (q : Fin 512),
    accAt V c n hn (ix2 0 q)
      = ((psum yr t (rowOf (n / 8) (div8 ⟨n, hn⟩) q) (512 * (n % 8 + 1)) : ℝ) : EReal)
  | 0, hn, q => by
    rw [accAt_reset V c ⟨0, hn⟩ rfl, pay_at V c yr t hY hcol hrow ⟨0, hn⟩ _ (fun _ => 0) (fun q => pay1_apply q) q]
    rw [psum_step yr t _ 0 (by decide), psum_zero]
    rfl
  | n + 1, hn, q => by
    have hN : n + 1 < 64 := lt_of_lt_of_eq hn (show cfg0.N = 64 from N_0)
    by_cases h0 : (n + 1) % 8 = 0
    · rw [accAt_reset V c ⟨n + 1, hn⟩ h0, pay_at V c yr t hY hcol hrow ⟨n + 1, hn⟩ _ (fun _ => 0) (fun q => pay1_apply q) q]
      have e : 512 * ((n + 1) % 8 + 1) = 512 * (0 + 1) := by rw [h0]
      rw [e, psum_step yr t _ 0 (by decide), psum_zero]
      refine congrArg (fun x : ℝ => (x : EReal)) (congrArg (0 + ·) (Finset.sum_congr rfl fun r _ => ?_))
      rw [rowOf_congr (show (⟨n + 1, hn⟩ : Fin cfg0.N).val % 8 = 0 from h0) (mod8 ⟨n + 1, hn⟩) (by decide) r]
    · have hd : n / 8 = (n + 1) / 8 := by omega
      have hm : n % 8 + 1 = (n + 1) % 8 := by omega
      have ih := acc_eq n (Nat.lt_of_succ_lt hn)
      rw [accAt_succ V c n hn h0,
        pay_at V c yr t hY hcol hrow ⟨n + 1, hn⟩ _ (fun q => psum yr t (rowOf ((n + 1) / 8) (div8 ⟨n + 1, hn⟩) q) (512 * ((n + 1) % 8)))
          (fun q => by rw [ih q, hm, rowOf_congr hd (div8 ⟨n, Nat.lt_of_succ_lt hn⟩) (div8 ⟨n + 1, hn⟩) q]) q]
      rw [psum_step yr t _ ((n + 1) % 8) (mod8 ⟨n + 1, hn⟩)]

end Region

end Cert.KernelIdeal.Denom

end
-- ==== Proof.DenomValue.lean ====
import proofs.«114457_j13606456394199_2_alg».proof.Proof.DenomFold
import Idealize.ShloMosaic.Lib.Pipeline.Value

set_option maxRecDepth 16384

noncomputable section

namespace Cert.KernelIdeal.Denom

open Cert.KernelIdeal Cert.KernelIdeal.Gen
open Idealize.ShloMosaic Idealize.ShloMosaic.TcCoe Idealize.ShloMosaic.ValueIdx Idealize.SL.Sem
open Idealize.ShloMosaic.Pipeline (Dat)

/-- The output array after the call, as one function of the column: the sum over all rows. -/
def G (yr : Fin 4096 → Fin 1024 → ℝ) (t : Fin 4096 → BitVec 32) : S1x4096.Idx → EReal :=
  fun i => ((∑ i' : Fin 4096, g yr t i' (i 1) : ℝ) : EReal)

/-- The output window's blocks are never cut: one row of 512 columns at every point. -/
theorem xsize4 : ∀ p : Fin cfg0.N, win0_4.xsize (grid0.coords p) 0 = 1 ∧ win0_4.xsize (grid0.coords p) 1 = 512 :=
  (by decide +kernel : ∀ p : Fin grid0.N, win0_4.xsize (grid0.coords p) 0 = 1 ∧ win0_4.xsize (grid0.coords p) 1 = 512)

section Region
variable (V : (c : Dev nD) → (b : Ref sig .tc) → Buf (Elt Ideal) ((c : Thread nD τ).loc b)) (c : Dev nD)
  (yr : Fin 4096 → Fin 1024 → ℝ) (t : Fin 4096 → BitVec 32)
  (hY : ∀ i a, V c main_v5 (ix2 i a) = ((yr i a : ℝ) : EReal))
  (hcol : ∀ i, V c main_v6 (ix2 i 0) = t i) (hrow : ∀ j, V c main_v7 (ix2 0 j) = t j)

include hY hcol hrow

/-- What a point that writes the output's block back writes, at a lane: the whole column sum, at the column the
    block's lane names. -/
theorem flushed_at (p : Fin cfg0.N) (hf : (cfg0.win 4).flush p = true) (q : Fin 512) :
    (dat V c).flushed 4 p (ix2 0 q) = G yr t (((cfg0.win 4).blk p).view.emb (ix2 0 q)) := by
  show (cfg0.win 4).cut (grid0.coords p) ((dat V c).after 4 p) (ix2 0 q) = _
  rw [after4_eq]
  show accAt V c p.val p.isLt (ix2 0 q) = _
  rw [acc_eq V c yr t hY hcol hrow p.val p.isLt q]
  have h7 : p.val % 8 = 7 := (flush0_4 p).mp hf
  have hemb : (((cfg0.win 4).blk p).view.emb (ix2 0 q)) 1 = rowOf (p.val / 8) (div8 p) q := Fin.ext (by
    show win0_4.index p 1 * 512 + 1 * q.val = 512 * (p.val / 8) + q.val
    rw [(idx_facts p).2.2.2.2.2.2.2.2.2]; omega)
  unfold G
  rw [hemb, h7, psum_full]

theorem flushed_eq (p : Fin cfg0.N) (hf : (cfg0.win 4).flush p = true) :
    (dat V c).flushed 4 p = ((cfg0.win 4).blk p).view.read (Elt Ideal) (G yr t) := by
  funext y
  obtain ⟨y0, q, rfl⟩ : ∃ (y0 : Fin 1) (q : Fin 512), y = ix2 y0 q := ⟨y 0, y 1, eq_ix2 y⟩
  obtain rfl : y0 = 0 := Subsingleton.elim _ _
  rw [View.read_apply]
  exact flushed_at V c yr t hY hcol hrow p hf q

/-- Column `j` of the output array after the call: the sum over all rows of another label of the exponential of the
    clamped inner product over the temperature. -/
theorem out_value' (j : Fin 4096) :
    (dat (F := Ideal) V c).arrAt 4 cfg0.N (ValueIdx.ix2 0 j)
      = ((∑ i : Fin 4096, Real.exp (max (∑ a : Fin 1024, yr i a * yr j a) Cert.Spec.e / Cert.Spec.c) * Cert.Spec.neg t i j : ℝ) : EReal) := by
  have hj : j.val < 4096 := j.isLt
  have hJ : j.val / 512 < 8 := by omega
  have hp : 8 * (j.val / 512) + 7 < cfg0.N := by rw [show cfg0.N = 64 from N_0]; omega
  have hf : (cfg0.win 4).flush ⟨8 * (j.val / 512) + 7, hp⟩ = true :=
    (flush0_4 ⟨8 * (j.val / 512) + 7, hp⟩).mpr (by show (8 * (j.val / 512) + 7) % 8 = 7; omega)
  have hmem : (ix2 0 j : S1x4096.Idx) ∈ ((cfg0.win 4).blk ⟨8 * (j.val / 512) + 7, hp⟩).view.set := by
    show _ ∈ ((View.whole main_v8).slice (win0_4.rect ⟨8 * (j.val / 512) + 7, hp⟩)).set
    rw [View.set_slice_whole, Rect.mem_set_unit]
    intro a
    match a with
    | ⟨0, _⟩ =>
      show win0_4.index ⟨8 * (j.val / 512) + 7, hp⟩ 0 * 1 ≤ 0 ∧ 0 < win0_4.index ⟨8 * (j.val / 512) + 7, hp⟩ 0 * 1 + win0_4.xsize (grid0.coords ⟨8 * (j.val / 512) + 7, hp⟩) 0
      rw [(idx_facts ⟨8 * (j.val / 512) + 7, hp⟩).2.2.2.2.2.2.2.2.1, (xsize4 ⟨8 * (j.val / 512) + 7, hp⟩).1]; omega
    | ⟨1, _⟩ =>
      show win0_4.index ⟨8 * (j.val / 512) + 7, hp⟩ 1 * 512 ≤ j.val ∧ j.val < win0_4.index ⟨8 * (j.val / 512) + 7, hp⟩ 1 * 512 + win0_4.xsize (grid0.coords ⟨8 * (j.val / 512) + 7, hp⟩) 1
      rw [(idx_facts ⟨8 * (j.val / 512) + 7, hp⟩).2.2.2.2.2.2.2.2.2, (xsize4 ⟨8 * (j.val / 512) + 7, hp⟩).2]
      show (8 * (j.val / 512) + 7) / 8 * 512 ≤ j.val ∧ j.val < (8 * (j.val / 512) + 7) / 8 * 512 + 512
      omega
  rw [(dat V c).arrAt_apply_of_mem 4 (G yr t) (fun p' hf' => flushed_eq V c yr t hY hcol hrow p' hf') cfg0.N ⟨8 * (j.val / 512) + 7, hp⟩ (ix2 0 j) hp hf hmem]
  rfl

end Region

theorem out_value (V : (c : Dev nD) → (b : Ref sig .tc) → Buf (Elt Ideal) ((c : Thread nD τ).loc b)) (c : Dev nD)
    (yr : Fin 4096 → Fin 1024 → ℝ) (t : Fin 4096 → BitVec 32)
    (hY : ∀ i a, V c main_v5 (ValueIdx.ix2 i a) = ((yr i a : ℝ) : EReal))
    (hcol : ∀ i, V c main_v6 (ValueIdx.ix2 i 0) = t i) (hrow : ∀ j, V c main_v7 (ValueIdx.ix2 0 j) = t j) (j : Fin 4096) :
    (dat (F := Ideal) V c).arrAt 4 cfg0.N (ValueIdx.ix2 0 j)
      = ((∑ i : Fin 4096, Real.exp (max (∑ a : Fin 1024, yr i a * yr j a) Cert.Spec.e / Cert.Spec.c) * Cert.Spec.neg t i j : ℝ) : EReal) :=
  out_value' V c yr t hY hcol hrow j

end Cert.KernelIdeal.Denom

end
-- ==== Proof.LossValueBlocks.lean ====
import proofs.«114457_j13606456394199_2_alg».proof.Proof.Loss
import Idealize.ShloMosaic.Lib.ValueIdx
import proofs.«114457_j13606456394199_2_alg».proof.Proof.Gen.KernelIdeal.Launch
import proofs.«114457_j13606456394199_2_alg».proof.Proof.Gen.KernelIdeal.Skeleton
import proofs.«114457_j13606456394199_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384
set_option synthInstance.maxSize 4096

noncomputable section

namespace Cert.KernelIdeal.Loss

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

open Idealize.ShloMosaic.ValueIdx

section Blocks
variable (V : (c : Dev nD) → (b : Ref sig .tc) → Buf (Elt F) ((c : Thread nD τ).loc b))

/-- The block indices of the six windows and the grid coordinates at position `t` of the grid's order: the outer
    coordinate is `t / 8`, the inner `t % 8`. -/
theorem idx_facts : ∀ t : Fin cfg1.N,
    win1_0.index t (0 : Fin 2) = t.val / 8 ∧ win1_0.index t (1 : Fin 2) = 0
    ∧ win1_1.index t (0 : Fin 2) = t.val % 8 ∧ win1_1.index t (1 : Fin 2) = 0
    ∧ win1_2.index t (0 : Fin 2) = t.val / 8 ∧ win1_2.index t (1 : Fin 2) = 0
    ∧ win1_3.index t (0 : Fin 2) = 0 ∧ win1_3.index t (1 : Fin 2) = t.val % 8
    ∧ win1_4.index t (0 : Fin 2) = 0 ∧ win1_4.index t (1 : Fin 2) = t.val % 8
    ∧ win1_5.index t (0 : Fin 2) = t.val / 8 ∧ win1_5.index t (1 : Fin 2) = 0
    ∧ (grid1.coords t 0).val = t.val / 8 ∧ (grid1.coords t 1).val = t.val % 8 :=
  (by decide +kernel : ∀ t : Fin grid1.N, _)

/-- The row block: rows `512 (t / 8) + r` of the normalized matrix. -/
theorem iblk0_apply (c : Dev nD) (t : Fin cfg1.N) (r : Fin 512) (a : Fin 1024) :
    iblk V c 0 t (ix2 r a) = V c main_v5 (ix2 ⟨512 * (t.val / 8) + r.val, by have := t.isLt; have : cfg1.N = 64 := N_1; omega⟩ a) := by
  obtain ⟨e0, e1, -⟩ := idx_facts t
  show V c main_v5 (((cfg1.win 0).blk t).view.emb (ix2 r a)) = _
  refine congrArg (V c main_v5) (funext fun b => Fin.ext ?_)
  match b with
  | ⟨0, _⟩ => show win1_0.index t (0 : Fin 2) * 512 + 1 * r.val = 512 * (t.val / 8) + r.val; omega
  | ⟨1, _⟩ => show win1_0.index t (1 : Fin 2) * 1024 + 1 * a.val = a.val; omega

/-- The column block: rows `512 (t % 8) + q` of the normalized matrix. -/
theorem iblk1_apply (c : Dev nD) (t : Fin cfg1.N) (q : Fin 512) (a : Fin 1024) :
    iblk V c 1 t (ix2 q a) = V c main_v5 (ix2 ⟨512 * (t.val % 8) + q.val, by omega⟩ a) := by
  obtain ⟨-, -, e0, e1, -⟩ := idx_facts t
  show V c main_v5 (((cfg1.win 1).blk t).view.emb (ix2 q a)) = _
  refine congrArg (V c main_v5) (funext fun b => Fin.ext ?_)
  match b with
  | ⟨0, _⟩ => show win1_1.index t (0 : Fin 2) * 512 + 1 * q.val = 512 * (t.val % 8) + q.val; omega
  | ⟨1, _⟩ => show win1_1.index t (1 : Fin 2) * 1024 + 1 * a.val = a.val; omega

/-- The rows' labels. -/
theorem iblk2_apply (c : Dev nD) (t : Fin cfg1.N) (r : Fin 512) :
    iblk V c 2 t (ix2 r 0) = V c main_v6 (ix2 ⟨512 * (t.val / 8) + r.val, by have := t.isLt; have : cfg1.N = 64 := N_1; omega⟩ 0) := by
  obtain ⟨-, -, -, -, e0, e1, -⟩ := idx_facts t
  show V c main_v6 (((cfg1.win 2).blk t).view.emb (ix2 r 0)) = _
  refine congrArg (V c main_v6) (funext fun b => Fin.ext ?_)
  match b with
  | ⟨0, _⟩ => show win1_2.index t (0 : Fin 2) * 512 + 1 * r.val = 512 * (t.val / 8) + r.val; omega
  | ⟨1, _⟩ => show win1_2.index t (1 : Fin 2) * 1 + 1 * 0 = 0; omega

/-- The columns' labels. -/
theorem iblk3_apply (c : Dev nD) (t : Fin cfg1.N) (q : Fin 512) :
    iblk V c 3 t (ix2 0 q) = V c main_v7 (ix2 0 ⟨512 * (t.val % 8) + q.val, by omega⟩) := by
  obtain ⟨-, -, -, -, -, -, e0, e1, -⟩ := idx_facts t
  show V c main_v7 (((cfg1.win 3).blk t).view.emb (ix2 0 q)) = _
  refine congrArg (V c main_v7) (funext fun b => Fin.ext ?_)
  match b with
  | ⟨0, _⟩ => show win1_3.index t (0 : Fin 2) * 1 + 1 * 0 = 0; omega
  | ⟨1, _⟩ => show win1_3.index t (1 : Fin 2) * 512 + 1 * q.val = 512 * (t.val % 8) + q.val; omega

/-- The columns' denominators. -/
theorem iblk4_apply (c : Dev nD) (t : Fin cfg1.N) (q : Fin 512) :
    iblk V c 4 t (ix2 0 q) = V c main_v8 (ix2 0 ⟨512 * (t.val % 8) + q.val, by omega⟩) := by
  obtain ⟨-, -, -, -, -, -, -, -, e0, e1, -⟩ := idx_facts t
  show V c main_v8 (((cfg1.win 4).blk t).view.emb (ix2 0 q)) = _
  refine congrArg (V c main_v8) (funext fun b => Fin.ext ?_)
  match b with
  | ⟨0, _⟩ => show win1_4.index t (0 : Fin 2) * 1 + 1 * 0 = 0; omega
  | ⟨1, _⟩ => show win1_4.index t (1 : Fin 2) * 512 + 1 * q.val = 512 * (t.val % 8) + q.val; omega

/-- The stored block is the accumulator at every entry. -/
theorem out5_apply (a : Vec F S1x1 .f32) (y : S8x128.Idx) : out5 a y = a (ix2 0 0) := by
  simp only [out5, k1_pay2, shapeCast_self]
  exact broadcastTo_apply a broadcasts_S1x1_S8x128 y (ix2 0 0) (fun b => match b with | ⟨0, _⟩ => rfl | ⟨1, _⟩ => rfl)

/-- What the output array ends holding: in block row `I`, the accumulator after that row's last inner point. -/
def Gout (c : Dev nD) : S64x128.Idx → Elt F .f32 := fun i => acc V c (8 * ((i 0).val / 8) + 7) (ix2 0 0)

/-- What a last inner point writes back is its block of that array. -/
theorem flushed5_eq (c : Dev nD) (t : Fin cfg1.N) (hf : (cfg1.win 5).flush t = true) :
    (dat V c).flushed 5 t = ((cfg1.win 5).blk t).view.read (Elt F) (Gout V c) := by
  have h7 : t.val % 8 = 7 := (flush1_5 t).mp hf
  obtain ⟨-, -, -, -, -, -, -, -, -, -, e0, e1, -⟩ := idx_facts t
  show (cfg1.win 5).cut (grid1.coords t) ((dat V c).after 5 t) = _
  rw [after_5]
  funext y
  have hy : (y 0).val < 8 := (y 0).isLt
  show out5 (acc V c t.val) y = acc V c (8 * ((win1_5.index t (0 : Fin 2) * 8 + 1 * (y 0).val) / 8) + 7) (ix2 0 0)
  rw [out5_apply, e0]
  have e : 8 * ((t.val / 8 * 8 + 1 * (y 0).val) / 8) + 7 = t.val := by omega
  rw [e]

/-- An index of the output array is in point `t`'s block iff each coordinate is in the block's range. -/
theorem mem_blk5 (t : Fin cfg1.N) (i : S64x128.Idx) :
    i ∈ ((cfg1.win 5).blk t).view.set ↔ ∀ a : Fin 2, win1_5.index t a * S8x128.size a ≤ (i a).val ∧ (i a).val < win1_5.index t a * S8x128.size a + S8x128.size a := by
  show i ∈ ((View.whole main_v9).slice (win1_5.rect t)).set ↔ _
  rw [View.set_slice_whole, Rect.mem_set_unit]
  exact Iff.rfl

/-- THE OUTPUT ARRAY at the entry the host reads of block row `I`: the accumulator after the row's last inner point. -/
theorem arr_eq_acc (c : Dev nD) (I : Fin 8) :
    (dat V c).arrAt 5 cfg1.N (ix2 ⟨8 * I.val, by omega⟩ 0) = acc V c (8 * I.val + 7) (ix2 0 0) := by
  have hN : cfg1.N = 64 := N_1
  have hI := I.isLt
  have ht : 8 * I.val + 7 < cfg1.N := by omega
  have hf : (cfg1.win 5).flush ⟨8 * I.val + 7, ht⟩ = true := (flush1_5 ⟨8 * I.val + 7, ht⟩).mpr (by show (8 * I.val + 7) % 8 = 7; omega)
  obtain ⟨-, -, -, -, -, -, -, -, -, -, e0, e1, -⟩ := idx_facts ⟨8 * I.val + 7, ht⟩
  rw [(dat V c).arrAt_apply_of_mem 5 (Gout V c) (fun t hf => flushed5_eq V c t hf) cfg1.N ⟨8 * I.val + 7, ht⟩ _ ht hf
    ((mem_blk5 _ _).mpr (fun a => by
      match a with
      | ⟨0, _⟩ => show win1_5.index ⟨8 * I.val + 7, ht⟩ (0 : Fin 2) * 8 ≤ 8 * I.val ∧ 8 * I.val < win1_5.index ⟨8 * I.val + 7, ht⟩ (0 : Fin 2) * 8 + 8; rw [e0]; show (8 * I.val + 7) / 8 * 8 ≤ 8 * I.val ∧ 8 * I.val < (8 * I.val + 7) / 8 * 8 + 8; omega
      | ⟨1, _⟩ => show win1_5.index ⟨8 * I.val + 7, ht⟩ (1 : Fin 2) * 128 ≤ 0 ∧ 0 < win1_5.index ⟨8 * I.val + 7, ht⟩ (1 : Fin 2) * 128 + 128; rw [e1]; omega))]
  show acc V c (8 * ((8 * I.val) / 8) + 7) (ix2 0 0) = _
  have e : 8 * ((8 * I.val) / 8) + 7 = 8 * I.val + 7 := by omega
  rw [e]

end Blocks

end Cert.KernelIdeal.Loss

end
-- ==== Proof.LossValuePayload.lean ====
import proofs.«114457_j13606456394199_2_alg».proof.Proof.LossDefs
import proofs.«114457_j13606456394199_2_alg».proof.Proof.DenomPayload
import proofs.«114457_j13606456394199_2_alg».proof.Proof.RefConsts
import proofs.«114457_j13606456394199_2_alg».proof.Proof.Spec
import Idealize.ShloMosaic.Lib.Pipeline.Value
import Idealize.ShloMosaic.Lib.ValueIdx
import Idealize.ShloMosaic.PureOps.Ideal.Laws
import Idealize.ShloMosaic.PureOps.IdealRules

set_option maxRecDepth 16384

noncomputable section

namespace Cert.KernelIdeal.Loss

open Cert.KernelIdeal Cert.KernelIdeal.Gen
open Idealize.ShloMosaic Idealize.ShloMosaic.ValueIdx Idealize.SL.Sem
open Cert.ReferenceIdeal.RefConsts
open Cert.KernelIdeal.Denom (coe_sumR coe_maxR cmpi_eq_bit gram_apply)

/-! ## One tile's summand -/

/-- The summand at row `r` of block row `I` and column `q` of block column `J`: the clamped inner product times the
    scale, minus the logarithm of the clamped denominator, on the positive pairs. -/
def term (u w : Fin 512 → Fin 1024 → ℝ) (ti tj : Fin 512 → BitVec 32) (dq : Fin 512 → ℝ) (I J : ℕ) (r q : Fin 512) : ℝ :=
  (max (∑ a : Fin 1024, u r a * w q a) Cert.Spec.e * Cert.Spec.k - Real.log (max (dq q) Cert.Spec.e))
    * ((if ti r = tj q then 1 else 0) - (if 512 * I + r.val = 512 * J + q.val then 1 else 0))

/-- The scale the kernel multiplies by is the reciprocal of the temperature. -/
theorem named_k : Named.named (F := Ideal) κ "inv_temperature" (φ := .f32) 0x41200000#32 = ((Cert.Spec.k : ℝ) : EReal) :=
  IdealRules.named_const.ideal_named_scalar _ _ _ _ rfl

/-- Two global indices below 4096, as 32-bit words, are equal exactly when they are equal. -/
theorem eye_word (I J : ℕ) (hI : I < 8) (hJ : J < 8) (r q : Fin 512) :
    (BitVec.ofNat 32 r.val + BitVec.ofNat 32 I * 512#32 = BitVec.ofNat 32 q.val + BitVec.ofNat 32 J * 512#32)
      ↔ 512 * I + r.val = 512 * J + q.val := by
  have hr := r.isLt; have hq := q.isLt
  rw [← BitVec.toNat_inj]
  simp only [BitVec.toNat_add, BitVec.toNat_mul, BitVec.toNat_ofNat, Nat.reducePow]
  omega

/-- The clamped Gram tile at an entry. -/
theorem pay4_apply (x0 x1 : Vec Ideal S512x1024 .bf16) (u w : Fin 512 → Fin 1024 → ℝ)
    (h0 : ∀ r a, x0 (ix2 r a) = ((u r a : ℝ) : EReal)) (h1 : ∀ q a, x1 (ix2 q a) = ((w q a : ℝ) : EReal)) (r q : Fin 512) :
    k1_pay4 (F := Ideal) x0 x1 (ix2 r q) = ((max (∑ a : Fin 1024, u r a * w q a) Cert.Spec.e : ℝ) : EReal) := by
  simp only [k1_pay4, shapeCast_self]
  show max (matmul (F := Ideal) (φ₁ := .bf16) (φ₂ := .bf16) dot_S512x1024_S1024x512_S512x512_1_0_0_1_n_n none x0 (transpose S1024x512 [1, 0] x1 transposes_S512x1024_p1_0_S1024x512) (constant (F := Ideal) S512x512 .f32 0x00000000#32) (ix2 r q)) (Ideal.ofBits .f32 0x2EDBE6FF#32) = _
  rw [gram_apply u w x0 x1 h0 h1, ofBits_e, ← coe_maxR]

/-- The positives mask at an entry: one where the labels agree, minus one on the diagonal of the whole matrix. -/
theorem pay5_apply (i : grid1.Coords) (I J : ℕ) (hI : I < 8) (hJ : J < 8) (hi0 : (i 0).val = I) (hi1 : (i 1).val = J)
    (x2 : Vec Ideal S512x1 .i32) (x3 : Vec Ideal S1x512 .i32) (ti tj : Fin 512 → BitVec 32)
    (h2 : ∀ r, x2 (ix2 r 0) = ti r) (h3 : ∀ q, x3 (ix2 0 q) = tj q) (r q : Fin 512) :
    k1_pay5 (F := Ideal) i x2 x3 (ix2 r q)
      = (((if ti r = tj q then 1 else 0) - (if 512 * I + r.val = 512 * J + q.val then 1 else 0) : ℝ) : EReal) := by
  simp only [k1_pay5, shapeCast_self]
  rw [subf_apply, select_apply, select_apply, EReal.coe_sub]
  show Scalar.select (IntOp.cmpi .eq (broadcastTo S512x512 x2 broadcasts_S512x1_S512x512 (ix2 r q)) (broadcastTo S512x512 x3 broadcasts_S1x512_S512x512 (ix2 r q)))
      (Ideal.ofBits .f32 0x3F800000#32) (Ideal.ofBits .f32 0x00000000#32)
    - Scalar.select (IntOp.cmpi .eq (IntOp.addi (iota .tc S512x512 32 [0] iota_S512x512_d0_w32 (ix2 r q)) (Scalar.muli (BitVec.ofNat 32 (i 0).val) 512#32))
        (IntOp.addi (iota .tc S512x512 32 [1] iota_S512x512_d1_w32 (ix2 r q)) (Scalar.muli (BitVec.ofNat 32 (i 1).val) 512#32)))
      (Ideal.ofBits .f32 0x3F800000#32) (Ideal.ofBits .f32 0x00000000#32) = _
  rw [broadcastTo_apply x2 broadcasts_S512x1_S512x512 (ix2 r q) (ix2 r 0) (fun a => match a with | ⟨0, _⟩ => rfl | ⟨1, _⟩ => rfl),
    broadcastTo_apply x3 broadcasts_S1x512_S512x512 (ix2 r q) (ix2 0 q) (fun a => match a with | ⟨0, _⟩ => rfl | ⟨1, _⟩ => rfl),
    h2, h3, iota_single_apply, iota_single_apply, hi0, hi1, cmpi_eq_bit, cmpi_eq_bit, ofBits_zero, ofBits_one]
  have hw : (IntOp.addi (BitVec.ofNat 32 ((ix2 r q : S512x512.Idx) 0).val) (Scalar.muli (BitVec.ofNat 32 I) 512#32)
      = IntOp.addi (BitVec.ofNat 32 ((ix2 r q : S512x512.Idx) 1).val) (Scalar.muli (BitVec.ofNat 32 J) 512#32))
      ↔ 512 * I + r.val = 512 * J + q.val := eye_word I J hI hJ r q
  congr 1
  · by_cases h : ti r = tj q
    · rw [if_pos h, if_pos h, select_one]
    · rw [if_neg h, if_neg h, select_zero]; rfl
  · by_cases h : 512 * I + r.val = 512 * J + q.val
    · rw [if_pos (hw.mpr h), if_pos h, select_one]
    · rw [if_neg (fun e => h (hw.mp e)), if_neg h, select_zero]; rfl

theorem lift_row (r k : Fin 512) : reduces_S512x512_S512_2.lift (ix1 r) k = (ix2 r k : S512x512.Idx) :=
  funext fun a => Fin.ext (by match a with | ⟨0, _⟩ => rfl | ⟨1, _⟩ => rfl)

theorem lift_col (k : Fin 512) : reduces_S512x1_S1.lift (ix1 (0 : Fin 1)) k = (ix2 k 0 : S512x1.Idx) :=
  funext fun a => Fin.ext (by match a with | ⟨0, _⟩ => rfl | ⟨1, _⟩ => rfl)

/-- The zero the reset stores. -/
theorem acc0_apply : acc0 (F := Ideal) (ix2 0 0) = ((0 : ℝ) : EReal) := by
  simp only [acc0, k1_pay3, shapeCast_self]
  show Ideal.ofBits .f32 0x00000000#32 = _
  rw [ofBits_zero]; rfl

/-- The accumulating store's payload: what the accumulator held, plus zero minus the tile's total. -/
theorem pay1_apply (v10 v33 : FVec Ideal S512x512 .f32) (v35 : FVec Ideal S1x512 .f32) (a : Vec Ideal S1x1 .f32)
    (P M : Fin 512 → Fin 512 → ℝ) (dq : Fin 512 → ℝ) (A : ℝ)
    (h10 : ∀ r q, v10 (ix2 r q) = ((P r q : ℝ) : EReal)) (h33 : ∀ r q, v33 (ix2 r q) = ((M r q : ℝ) : EReal))
    (h35 : ∀ q, v35 (ix2 0 q) = ((dq q : ℝ) : EReal)) (ha : a (ix2 0 0) = ((A : ℝ) : EReal)) :
    k1_pay1 (F := Ideal) v10 v33 v35 (Scalar.ofBits .f32 0x2EDBE6FF#32) a (ix2 0 0)
      = ((A + (0 - ∑ r : Fin 512, ∑ q : Fin 512, (P r q * Cert.Spec.k - Real.log (max (dq q) Cert.Spec.e)) * M r q) : ℝ) : EReal) := by
  simp only [k1_pay1, shapeCast_self]
  rw [addf_apply, ha, EReal.coe_add]
  refine congrArg (_ + ·) ?_
  rw [subf_apply, EReal.coe_sub]
  have hzero : (broadcast S1x1 (Scalar.ofBits (F := Ideal) .f32 0x00000000#32) : FVec Ideal S1x1 .f32) (ix2 0 0) = ((0 : ℝ) : EReal) := by
    show Ideal.ofBits .f32 0x00000000#32 = _
    rw [ofBits_zero]; rfl
  rw [hzero]
  refine congrArg (_ - ·) ?_
  rw [shapeCast_apply _ shapeCasts_S1_S1x1 (ix2 0 0) (ix1 0) (by rw [Shape.rowMajor_val_one, Shape.rowMajor_val_two]; simp)]
  refine (Ideal.multiReduction_add_single _ 0x00000000#32 reduces_S512x1_S1 _ _ (ix1 0)).trans ?_
  rw [coe_sumR]
  refine Finset.sum_congr rfl fun (r : Fin 512) _ => ?_
  rw [lift_col, shapeCast_apply _ shapeCasts_S512_S512x1 (ix2 r 0) (ix1 r) (by rw [Shape.rowMajor_val_one, Shape.rowMajor_val_two]; simp)]
  refine (Ideal.multiReduction_add_single _ 0x00000000#32 reduces_S512x512_S512_2 _ _ (ix1 r)).trans ?_
  rw [coe_sumR]
  refine Finset.sum_congr rfl fun (q : Fin 512) _ => ?_
  rw [lift_row, mulf_apply, subf_apply, mulf_apply, h10, h33,
    broadcastTo_apply _ broadcasts_S1x512_S512x512 (ix2 r q) (ix2 0 q) (fun b => match b with | ⟨0, _⟩ => rfl | ⟨1, _⟩ => rfl)]
  show (((P r q : ℝ) : EReal) * Named.named (F := Ideal) κ "inv_temperature" (φ := .f32) 0x41200000#32
      - Ideal.log (max (v35 (ix2 0 q)) (Ideal.ofBits .f32 0x2EDBE6FF#32))) * ((M r q : ℝ) : EReal) = _
  rw [named_k, h35, ofBits_e, ← coe_maxR, Ideal.log_coe, if_neg (not_le.mpr (lt_of_lt_of_le Cert.Spec.e_pos (le_max_right _ _))),
    ← EReal.coe_mul, ← EReal.coe_sub, ← EReal.coe_mul]

/-- ONE POINT'S UPDATE at the ideal values: the accumulator plus zero minus the tile's total. -/
theorem step_apply (i : grid1.Coords) (I J : ℕ) (hI : I < 8) (hJ : J < 8) (hi0 : (i 0).val = I) (hi1 : (i 1).val = J)
    (x0 x1 : Vec Ideal S512x1024 .bf16) (x2 : Vec Ideal S512x1 .i32) (x3 : Vec Ideal S1x512 .i32) (x4 : Vec Ideal S1x512 .f32)
    (a : Vec Ideal S1x1 .f32)
    (u w : Fin 512 → Fin 1024 → ℝ) (ti tj : Fin 512 → BitVec 32) (dq : Fin 512 → ℝ) (A : ℝ)
    (h0 : ∀ r a, x0 (ix2 r a) = ((u r a : ℝ) : EReal)) (h1 : ∀ q a, x1 (ix2 q a) = ((w q a : ℝ) : EReal))
    (h2 : ∀ r, x2 (ix2 r 0) = ti r) (h3 : ∀ q, x3 (ix2 0 q) = tj q) (h4 : ∀ q, x4 (ix2 0 q) = ((dq q : ℝ) : EReal))
    (ha : a (ix2 0 0) = ((A : ℝ) : EReal)) :
    step (F := Ideal) i x0 x1 x2 x3 x4 a (ix2 0 0)
      = ((A + (0 - ∑ r : Fin 512, ∑ q : Fin 512, term u w ti tj dq I J r q) : ℝ) : EReal) := by
  unfold step
  exact pay1_apply (k1_pay4 x0 x1) (k1_pay5 i x2 x3) (k1_pay6 x4) a _ _ dq A
    (pay4_apply x0 x1 u w h0 h1) (pay5_apply i I J hI hJ hi0 hi1 x2 x3 ti tj h2 h3)
    (fun q => by simp only [k1_pay6, shapeCast_self]; exact h4 q) ha

end Cert.KernelIdeal.Loss

end
-- ==== Proof.LossValue.lean ====
import proofs.«114457_j13606456394199_2_alg».proof.Proof.LossValueBlocks
import proofs.«114457_j13606456394199_2_alg».proof.Proof.LossValuePayload
import proofs.«114457_j13606456394199_2_alg».proof.Proof.Spec
import proofs.«114457_j13606456394199_2_alg».proof.Proof.RefConsts
import Idealize.ShloMosaic.Lib.ValueIdx
import proofs.«114457_j13606456394199_2_alg».proof.Proof.Gen.KernelIdeal.Launch
import proofs.«114457_j13606456394199_2_alg».proof.Proof.Gen.KernelIdeal.Skeleton
import proofs.«114457_j13606456394199_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384
set_option synthInstance.maxSize 4096

noncomputable section

namespace Cert.KernelIdeal.Loss

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
open scoped BigOperators

/-! ## Rows and columns of the whole matrix from a block and an offset -/

/-- The row (or column) of the whole matrix at a position below 4096. -/
def rowOf (n : ℕ) : Fin 4096 := ⟨n % 4096, Nat.mod_lt _ (by norm_num)⟩

theorem rowOf_eq (n : ℕ) (h : n < 4096) : rowOf n = ⟨n, h⟩ := Fin.ext (Nat.mod_eq_of_lt h)

/-- A sum over the 4096 columns is the sum over the eight column blocks of the sums over a block's 512 columns. -/
theorem sum_cols (f : Fin 4096 → ℝ) :
    ∑ j : Fin 4096, f j = ∑ J ∈ Finset.range 8, ∑ q : Fin 512, f (rowOf (512 * J + q.val)) := by
  rw [← Fin.sum_univ_eq_sum_range (fun J => ∑ q : Fin 512, f (rowOf (512 * J + q.val))) 8]
  show ∑ j : Fin (8 * 512), f j = _
  rw [← (finProdFinEquiv (m := 8) (n := 512)).sum_comp f, Fintype.sum_prod_type]
  refine Finset.sum_congr rfl fun J _ => Finset.sum_congr rfl fun q _ => congrArg f (Fin.ext ?_)
  have hJ := J.isLt; have hq := q.isLt
  show q.val + 512 * J.val = (512 * J.val + q.val) % 4096
  omega

/-- One tile's total: block row `I`, block column `J`. -/
def tileSum (yr : Fin 4096 → Fin 1024 → ℝ) (t : Fin 4096 → BitVec 32) (dr : Fin 4096 → ℝ) (I J : ℕ) : ℝ :=
  ∑ r : Fin 512, ∑ q : Fin 512,
    term (fun r a => yr (rowOf (512 * I + r.val)) a) (fun q a => yr (rowOf (512 * J + q.val)) a)
      (fun r => t (rowOf (512 * I + r.val))) (fun q => t (rowOf (512 * J + q.val))) (fun q => dr (rowOf (512 * J + q.val))) I J r q

/-- The summand of a tile is the summand of the whole matrix at the tile's row and column. -/
theorem term_eq (yr : Fin 4096 → Fin 1024 → ℝ) (t : Fin 4096 → BitVec 32) (dr : Fin 4096 → ℝ) (I J : ℕ) (hI : I < 8) (hJ : J < 8) (r q : Fin 512) :
    term (fun r a => yr (rowOf (512 * I + r.val)) a) (fun q a => yr (rowOf (512 * J + q.val)) a)
      (fun r => t (rowOf (512 * I + r.val))) (fun q => t (rowOf (512 * J + q.val))) (fun q => dr (rowOf (512 * J + q.val))) I J r q
      = (max (∑ a : Fin 1024, yr ⟨512 * I + r.val, by omega⟩ a * yr (rowOf (512 * J + q.val)) a) Cert.Spec.e * Cert.Spec.k
          - Real.log (max (dr (rowOf (512 * J + q.val))) Cert.Spec.e)) * Cert.Spec.pos t ⟨512 * I + r.val, by omega⟩ (rowOf (512 * J + q.val)) := by
  have hr := r.isLt; have hq := q.isLt
  have e1 : rowOf (512 * I + r.val) = ⟨512 * I + r.val, by omega⟩ := rowOf_eq _ (by omega)
  have e2 : (512 * I + r.val = 512 * J + q.val) ↔ ((⟨512 * I + r.val, by omega⟩ : Fin 4096) = rowOf (512 * J + q.val)) := by
    rw [rowOf_eq _ (by omega : 512 * J + q.val < 4096), Fin.ext_iff]
  unfold term Cert.Spec.pos
  simp only [e1, e2]

/-- The eight tiles of block row `I` together: the sum over the block's rows and all columns. -/
theorem sum_tiles (yr : Fin 4096 → Fin 1024 → ℝ) (t : Fin 4096 → BitVec 32) (dr : Fin 4096 → ℝ) (I : ℕ) (hI : I < 8) :
    ∑ J ∈ Finset.range 8, tileSum yr t dr I J
      = ∑ i : Fin 512, ∑ j : Fin 4096, (max (∑ a : Fin 1024, yr ⟨512 * I + i.val, by omega⟩ a * yr j a) Cert.Spec.e * Cert.Spec.k
          - Real.log (max (dr j) Cert.Spec.e)) * Cert.Spec.pos t ⟨512 * I + i.val, by omega⟩ j := by
  unfold tileSum
  rw [Finset.sum_comm]
  refine Finset.sum_congr rfl fun r _ => ?_
  rw [sum_cols]
  refine Finset.sum_congr rfl fun J hJ => Finset.sum_congr rfl fun q _ => ?_
  exact term_eq yr t dr I J hI (Finset.mem_range.mp hJ) r q

section Value
variable (V : (c : Dev nD) → (b : Ref sig .tc) → Buf (Elt Ideal) ((c : Thread nD τ).loc b)) (c : Dev nD)
  (yr : Fin 4096 → Fin 1024 → ℝ) (t : Fin 4096 → BitVec 32) (dr : Fin 4096 → ℝ)
  (hY : ∀ i a, V c main_v5 (ValueIdx.ix2 i a) = ((yr i a : ℝ) : EReal))
  (hcol : ∀ i, V c main_v6 (ValueIdx.ix2 i 0) = t i) (hrow : ∀ j, V c main_v7 (ValueIdx.ix2 0 j) = t j)
  (hD : ∀ j, V c main_v8 (ValueIdx.ix2 0 j) = ((dr j : ℝ) : EReal))

include hY hcol hrow hD in
/-- ONE POINT: at the point of block row `I` and block column `J`, the update of an accumulator holding `A` holds `A`
    plus zero minus the tile's total. -/
theorem step_point (I J : ℕ) (hI : I < 8) (hJ : J < 8) (hp : 8 * I + J < cfg1.N) (a : Vec Ideal S1x1 .f32) (A : ℝ)
    (ha : a (ix2 0 0) = ((A : ℝ) : EReal)) :
    step (F := Ideal) (grid1.coords ⟨8 * I + J, hp⟩) (iblk V c 0 ⟨8 * I + J, hp⟩) (iblk V c 1 ⟨8 * I + J, hp⟩) (iblk V c 2 ⟨8 * I + J, hp⟩)
      (iblk V c 3 ⟨8 * I + J, hp⟩) (iblk V c 4 ⟨8 * I + J, hp⟩) a (ix2 0 0)
      = ((A + (0 - tileSum yr t dr I J) : ℝ) : EReal) := by
  obtain ⟨-, -, -, -, -, -, -, -, -, -, -, -, g0, g1⟩ := idx_facts ⟨8 * I + J, hp⟩
  have d8 : (8 * I + J) / 8 = I := by omega
  have m8 : (8 * I + J) % 8 = J := by omega
  unfold tileSum
  exact step_apply (grid1.coords ⟨8 * I + J, hp⟩) I J hI hJ (g0.trans d8) (g1.trans m8)
    (iblk V c 0 ⟨8 * I + J, hp⟩) (iblk V c 1 ⟨8 * I + J, hp⟩) (iblk V c 2 ⟨8 * I + J, hp⟩) (iblk V c 3 ⟨8 * I + J, hp⟩) (iblk V c 4 ⟨8 * I + J, hp⟩) a
    (fun r a => yr (rowOf (512 * I + r.val)) a) (fun q a => yr (rowOf (512 * J + q.val)) a)
    (fun r => t (rowOf (512 * I + r.val))) (fun q => t (rowOf (512 * J + q.val))) (fun q => dr (rowOf (512 * J + q.val))) A
    (fun r a => by
      rw [iblk0_apply, hY]
      have hr := r.isLt
      exact congrArg (fun i => ((yr i a : ℝ) : EReal)) (Fin.ext (by show 512 * ((8 * I + J) / 8) + r.val = (512 * I + r.val) % 4096; omega)))
    (fun q a => by
      rw [iblk1_apply, hY]
      have hq := q.isLt
      exact congrArg (fun i => ((yr i a : ℝ) : EReal)) (Fin.ext (by show 512 * ((8 * I + J) % 8) + q.val = (512 * J + q.val) % 4096; omega)))
    (fun r => by
      rw [iblk2_apply, hcol]
      have hr := r.isLt
      exact congrArg t (Fin.ext (by show 512 * ((8 * I + J) / 8) + r.val = (512 * I + r.val) % 4096; omega)))
    (fun q => by
      rw [iblk3_apply, hrow]
      have hq := q.isLt
      exact congrArg t (Fin.ext (by show 512 * ((8 * I + J) % 8) + q.val = (512 * J + q.val) % 4096; omega)))
    (fun q => by
      rw [iblk4_apply, hD]
      have hq := q.isLt
      exact congrArg (fun i => ((dr i : ℝ) : EReal)) (Fin.ext (by show 512 * ((8 * I + J) % 8) + q.val = (512 * J + q.val) % 4096; omega)))
    ha

include hY hcol hrow hD in
/-- THE RECURSION over the inner points of block row `I`: after inner point `J` the accumulator holds minus the totals of
    the tiles up to `J`. -/
theorem acc_apply (I : ℕ) (hI : I < 8) : ∀ (J : ℕ), J < 8 →
    acc V c (8 * I + J) (ix2 0 0) = ((-(∑ j ∈ Finset.range (J + 1), tileSum yr t dr I j) : ℝ) : EReal) := by
  have hN : cfg1.N = 64 := N_1
  intro J
  induction J with
  | zero =>
    intro hJ
    have hp : 8 * I + 0 < cfg1.N := by omega
    rw [acc_first V c ⟨8 * I + 0, hp⟩ (by show (8 * I + 0) % 8 = 0; omega)]
    rw [step_point V c yr t dr hY hcol hrow hD I 0 hI hJ hp acc0 0 acc0_apply]
    rw [Finset.sum_range_one]
    congr 1; ring
  | succ J ih =>
    intro hJ
    have hp : 8 * I + (J + 1) < cfg1.N := by omega
    rw [acc_next V c ⟨8 * I + (J + 1), hp⟩ (by show ¬(8 * I + (J + 1)) % 8 = 0; omega)]
    rw [step_point V c yr t dr hY hcol hrow hD I (J + 1) hI hJ hp (acc V c (8 * I + (J + 1) - 1)) _
      (by rw [show 8 * I + (J + 1) - 1 = 8 * I + J from by omega]; exact ih (by omega))]
    rw [Finset.sum_range_succ _ (J + 1)]
    congr 1; ring

end Value

/-- The entry (8 I, 0) of the output array after the call: minus the sum, over the 512 rows of block row `I` and all
    4096 columns, of (P k - log (max D e)) on the positive pairs. -/
theorem out_value (V : (c : Dev nD) → (b : Ref sig .tc) → Buf (Elt Ideal) ((c : Thread nD τ).loc b)) (c : Dev nD)
    (yr : Fin 4096 → Fin 1024 → ℝ) (t : Fin 4096 → BitVec 32) (dr : Fin 4096 → ℝ)
    (hY : ∀ i a, V c main_v5 (ValueIdx.ix2 i a) = ((yr i a : ℝ) : EReal))
    (hcol : ∀ i, V c main_v6 (ValueIdx.ix2 i 0) = t i) (hrow : ∀ j, V c main_v7 (ValueIdx.ix2 0 j) = t j)
    (hD : ∀ j, V c main_v8 (ValueIdx.ix2 0 j) = ((dr j : ℝ) : EReal)) (hDpos : ∀ j, 0 ≤ dr j) (I : Fin 8) :
    (dat (F := Ideal) V c).arrAt 5 cfg1.N (ValueIdx.ix2 ⟨8 * I.val, by omega⟩ 0)
      = ((-(∑ i : Fin 512, ∑ j : Fin 4096, (max (∑ a : Fin 1024, yr ⟨512 * I.val + i.val, by omega⟩ a * yr j a) Cert.Spec.e * Cert.Spec.k - Real.log (max (dr j) Cert.Spec.e)) * Cert.Spec.pos t ⟨512 * I.val + i.val, by omega⟩ j) : ℝ) : EReal) := by
  rw [arr_eq_acc V c I, acc_apply V c yr t dr hY hcol hrow hD I.val I.isLt 7 (by norm_num)]
  rw [sum_tiles yr t dr I.val I.isLt]

end Cert.KernelIdeal.Loss

end
-- ==== Proof.RefStages1.lean ====
/-
  The first stages of the reference on a real matrix: a row's sum of squares, its clamped norm, the divided rows and the
  clamped Gram matrix are the coercions of the specification's real quantities.
-/
import proofs.«114457_j13606456394199_2_alg».proof.Proof.Gen.ReferenceIdeal.Read
import proofs.«114457_j13606456394199_2_alg».proof.Proof.RefConsts

noncomputable section

namespace Cert.ReferenceIdeal.RefValue

open Cert.ReferenceIdeal Cert.ReferenceIdeal.Gen Idealize.ShloMosaic Idealize.ShloMosaic.TcCoe Idealize.SL.Sem Idealize.ShloMosaic.StableHlo
open Cert.ReferenceIdeal.Read Cert.ReferenceIdeal.RefConsts

/-- The coercion of a finite sum of reals is the sum of the coercions. -/
theorem coe_sum {ι : Type*} (s : Finset ι) (f : ι → ℝ) : ((∑ k ∈ s, f k : ℝ) : EReal) = ∑ k ∈ s, ((f k : ℝ) : EReal) := by
  classical
  induction s using Finset.induction_on with
  | empty => simp
  | insert a s ha ih => rw [Finset.sum_insert ha, Finset.sum_insert ha, EReal.coe_add, ih]

/-- The coercion of the larger of two reals is the larger of the coercions. -/
theorem coe_max (a b : ℝ) : ((max a b : ℝ) : EReal) = max (a : EReal) (b : EReal) :=
  EReal.coe_strictMono.monotone.map_max

/-- The quotient of a real by a non-zero real, on the extended reals, is the coercion of the real quotient. -/
theorem div_coe_coe (a : ℝ) {b : ℝ} (hb : b ≠ 0) : Ideal.div (a : EReal) (b : EReal) = ((a / b : ℝ) : EReal) := by
  rw [Ideal.div_coe hb, ← EReal.coe_mul, mul_one_div]

/-! ### Index equations -/

theorem idx_call0_v1_ix (i : Fin 4096) (k : Fin 1024) : idx_main_call0_v1 (ValueIdx.ix1 i) k = ValueIdx.ix2 i k :=
  funext fun a => Fin.ext (by match a with | ⟨0, _⟩ => rfl | ⟨1, _⟩ => rfl)

theorem idx_call0_v2_ix (i : Fin 4096) (z : Fin 1) : idx_main_call0_v2 (ValueIdx.ix2 i z) = ValueIdx.ix1 i :=
  funext fun a => Fin.ext (by match a with | ⟨0, _⟩ => rfl)

theorem idx_v3_ix (i : Fin 4096) (a : Fin 1024) : idx_main_v3 (ValueIdx.ix2 i a) = ValueIdx.ix2 i (0 : Fin 1) :=
  funext fun b => Fin.ext (by match b with | ⟨0, _⟩ => rfl | ⟨1, _⟩ => rfl)

theorem lidx_v6_ix (i j : Fin 4096) (k : Fin 1024) : lidx_main_v6 (ValueIdx.ix2 i j) k = ValueIdx.ix2 i k :=
  funext fun b => Fin.ext (by match b with | ⟨0, _⟩ => rfl | ⟨1, _⟩ => rfl)

theorem ridx_v6_ix (i j : Fin 4096) (k : Fin 1024) : idx_main_v5 (ridx_main_v6 (ValueIdx.ix2 i j) k) = ValueIdx.ix2 j k :=
  funext fun b => Fin.ext (by match b with | ⟨0, _⟩ => rfl | ⟨1, _⟩ => rfl)

/-! ### The stages -/

section Stages

variable (x0 : (⟨S4096x1024, .f32⟩ : BufTy).Contents (Elt Ideal)) (xr : Fin 4096 → Fin 1024 → ℝ)
  (hx : ∀ i a, x0 (ValueIdx.ix2 i a) = ((xr i a : ℝ) : EReal))

include hx

/-- A row's sum of squares. -/
theorem sumsq_apply (i : Fin 4096) :
    val_main_call0_v1 (F := Ideal) x0 (ValueIdx.ix1 i) = ((∑ a, xr i a * xr i a : ℝ) : EReal) := by
  rw [val_main_call0_v1_apply, val_main_call0_cst_apply, Ideal.ofBits_def, ofBits_zero, zero_add, coe_sum]
  refine Finset.sum_congr rfl fun k _ => ?_
  rw [val_main_call0_v0_apply, idx_call0_v1_ix, hx, Ideal.mulf_def, EReal.coe_mul]

/-- A row's clamped norm. -/
theorem nrm_apply (i : Fin 4096) (z : Fin 1) :
    val_main_v2 (F := Ideal) x0 (ValueIdx.ix2 i z) = ((Cert.Spec.nrm xr i : ℝ) : EReal) := by
  rw [val_main_v2_apply, val_main_v0_apply, val_main_call0_v2_apply, idx_call0_v2_ix, sumsq_apply x0 xr hx,
    val_main_v1_apply, val_main_cst_apply, Ideal.ofBits_def, ofBits_d, Ideal.hostUnary_sqrt_def, Ideal.sqrt_coe,
    if_neg (not_lt.mpr (Finset.sum_nonneg fun a _ => mul_self_nonneg (xr i a))), Ideal.maximumf_def, ← coe_max]
  rfl

/-- The divided rows. -/
theorem y_apply (i : Fin 4096) (a : Fin 1024) :
    val_main_v4 (F := Ideal) x0 (ValueIdx.ix2 i a) = ((Cert.Spec.y xr i a : ℝ) : EReal) := by
  have hn : Cert.Spec.nrm xr i ≠ 0 := (lt_of_lt_of_le Cert.Spec.d_pos (le_max_right _ _)).ne'
  rw [val_main_v4_apply, val_main_v3_apply, idx_v3_ix, nrm_apply x0 xr hx, hx, Ideal.hostDivf_def, div_coe_coe _ hn]
  rfl

/-- The clamped Gram matrix. -/
theorem P_apply (i j : Fin 4096) :
    val_main_v8 (F := Ideal) x0 (ValueIdx.ix2 i j) = ((Cert.Spec.P xr i j : ℝ) : EReal) := by
  rw [val_main_v8_apply, val_main_v6_apply, val_main_v7_apply, val_main_cst_0_apply, Ideal.ofBits_def, ofBits_e,
    Ideal.maximumf_def]
  have hs : (∑ k : Fin 1024, val_main_v4 (F := Ideal) x0 (lidx_main_v6 (ValueIdx.ix2 i j) k)
      * val_main_v5 (F := Ideal) x0 (ridx_main_v6 (ValueIdx.ix2 i j) k))
      = ((∑ k, Cert.Spec.y xr i k * Cert.Spec.y xr j k : ℝ) : EReal) := by
    rw [coe_sum]
    refine Finset.sum_congr rfl fun k _ => ?_
    rw [val_main_v5_apply, lidx_v6_ix, ridx_v6_ix, y_apply x0 xr hx, y_apply x0 xr hx, EReal.coe_mul]
  rw [hs, ← coe_max]
  rfl

end Stages

end Cert.ReferenceIdeal.RefValue

end
-- ==== Proof.KerHost.lean ====
/-
  The host side of the kernel program on the extended reals: the stretches of host operations before the two kernel regions
  leave the rows divided by their clamped norms (the same operations as the reference's first stages, so the same values) and
  the labels as a column and as a row; the stretch after them adds the eight partial sums the second region leaves, one at
  the head of each block of eight rows of its output, and divides by 4096.
-/
import proofs.«114457_j13606456394199_2_alg».proof.Proof.Gen.KernelIdeal.Regions
import proofs.«114457_j13606456394199_2_alg».proof.Proof.Spec
import proofs.«114457_j13606456394199_2_alg».proof.Proof.RefStages1
import Idealize.ShloMosaic.Lib.ValueIdx

noncomputable section

namespace Cert.KernelIdeal.HostValue

open Cert.KernelIdeal Cert.KernelIdeal.Gen Idealize.ShloMosaic Idealize.ShloMosaic.TcCoe Idealize.SL.Sem

/-- What the outlined norm leaves: the square root of each row's sum of squares, as a column. -/
theorem V1_v0 (m : (ℓ : Loc nD τ sig) → Buf (Elt Ideal) ℓ) (c : Dev nD) :
    (V1 m c main_v0 : S4096x1.Idx → EReal)
      = Cert.ReferenceIdeal.Read.val_main_v0 (F := Ideal) (m ((c.tc : Thread nD τ).loc main_arg0)) := by
  show StableHlo.after hostOps0 (V0 m c) (Proc.devRef .tc main_v0) = _
  after_results
  rfl

/-- What the second stretch leaves for the regions: the rows divided by their clamped norms. -/
theorem V2_v5 (m : (ℓ : Loc nD τ sig) → Buf (Elt Ideal) ℓ) (c : Dev nD) :
    (V2 m c main_v5 : S4096x1024.Idx → EReal)
      = Cert.ReferenceIdeal.Read.val_main_v4 (F := Ideal) (m ((c.tc : Thread nD τ).loc main_arg0)) := by
  show StableHlo.after hostOps0_1 (V1 m c) (Proc.devRef .tc main_v5) = _
  after_results
  rfl

/-- The divided rows the first host stretches leave for the kernel regions are the specification's. -/
theorem rows (m : (ℓ : Loc nD τ sig) → Buf (Elt Ideal) ℓ) (c : Dev nD) (xr : Fin 4096 → Fin 1024 → ℝ)
    (hx : ∀ i a, m ((c.tc : Thread nD τ).loc main_arg0) (ValueIdx.ix2 i a) = ((xr i a : ℝ) : EReal))
    (i : Fin 4096) (a : Fin 1024) :
    V2 m c main_v5 (ValueIdx.ix2 i a) = ((Cert.Spec.y xr i a : ℝ) : EReal) :=
  (congrFun (V2_v5 m c) (ValueIdx.ix2 i a)).trans (Cert.ReferenceIdeal.RefValue.y_apply _ xr hx i a)

/-- What the second stretch leaves for the regions: the labels as a column. -/
theorem V2_v6 (m : (ℓ : Loc nD τ sig) → Buf (Elt Ideal) ℓ) (c : Dev nD) (h : S4096.ShapeCasts S4096x1) :
    (V2 m c main_v6 : S4096x1.Idx → BitVec 32) = shapeCast S4096x1 (m ((c.tc : Thread nD τ).loc main_arg1)) h := by
  show StableHlo.after hostOps0_1 (V1 m c) (Proc.devRef .tc main_v6) = _
  after_results
  rfl

/-- What the second stretch leaves for the regions: the labels as a row. -/
theorem V2_v7 (m : (ℓ : Loc nD τ sig) → Buf (Elt Ideal) ℓ) (c : Dev nD) (h : S4096.ShapeCasts S1x4096) :
    (V2 m c main_v7 : S1x4096.Idx → BitVec 32) = shapeCast S1x4096 (m ((c.tc : Thread nD τ).loc main_arg1)) h := by
  show StableHlo.after hostOps0_1 (V1 m c) (Proc.devRef .tc main_v7) = _
  after_results
  rfl

/-- The column of labels holds row i's label at (i, 0). -/
theorem labels_col (m : (ℓ : Loc nD τ sig) → Buf (Elt Ideal) ℓ) (c : Dev nD) (i : Fin 4096) :
    V2 m c main_v6 (ValueIdx.ix2 i (0 : Fin 1)) = m ((c.tc : Thread nD τ).loc main_arg1) (ValueIdx.ix1 i) := by
  refine (congrFun (V2_v6 m c (by decide)) _).trans (shapeCast_apply _ _ _ (ValueIdx.ix1 i) ?_)
  rw [Shape.rowMajor_val_one, Shape.rowMajor_val_two]
  simp

/-- The row of labels holds row j's label at (0, j). -/
theorem labels_row (m : (ℓ : Loc nD τ sig) → Buf (Elt Ideal) ℓ) (c : Dev nD) (j : Fin 4096) :
    V2 m c main_v7 (ValueIdx.ix2 (0 : Fin 1) j) = m ((c.tc : Thread nD τ).loc main_arg1) (ValueIdx.ix1 j) := by
  refine (congrFun (V2_v7 m c (by decide)) _).trans (shapeCast_apply _ _ _ (ValueIdx.ix1 j) ?_)
  rw [Shape.rowMajor_val_one, Shape.rowMajor_val_two]
  simp

/-- A sum over the indices of a one-axis array is the sum over its axis. -/
theorem sum_idx1 {M : Type*} [AddCommMonoid M] {n : Nat} (f : (⟨1, ![n]⟩ : Shape).Idx → M) :
    ∑ j, f j = ∑ I : Fin n, f (ValueIdx.ix1 I) := by
  let e : (⟨1, ![n]⟩ : Shape).Idx ≃ Fin n :=
    ⟨fun j => j 0, ValueIdx.ix1, fun j => (ValueIdx.eq_ix1 j).symm, fun _ => rfl⟩
  rw [← Equiv.sum_comp e.symm f]
  rfl

/-- What the last stretch leaves in the result, as a term of the second region's output. -/
theorem V5_v14 (m : (ℓ : Loc nD τ sig) → Buf (Elt Ideal) ℓ) (c : Dev nD) (outs : Outs (F := Ideal))
    (h1 : S64x128.ShapeCasts S8x8x128) (h2 : S8x8x128.Slices ![0, 0, 0] S8x1x1) (h3 : S8x1x1.ShapeCasts S8)
    (h4 : S8.ReducesTo [0] S_) (h5 : 0 < S_.numel) :
    (V5 m outs c main_v14 : S_.Idx → EReal)
      = Host.divf (Host.reduceAdd (shapeCast S8 (extractStridedSlice S8x1x1 ![0, 0, 0]
            (shapeCast S8x8x128 (V4 m outs c main_v9 : S64x128.Idx → EReal) h1) h2) h3)
          (constant (F := Ideal) S_ .f32 0x00000000#32) h4 h5) (constant (F := Ideal) S_ .f32 0x45800000#32) := by
  show StableHlo.after hostOps2 (V4 m outs c) (Proc.devRef .tc main_v14) = _
  after_results
  rfl

/-- The last stretch on an array whose entries at the head of each block of eight rows are real: the sum of the eight,
    divided by 4096. -/
theorem tail_apply (v9 : S64x128.Idx → EReal)
    (h1 : S64x128.ShapeCasts S8x8x128) (h2 : S8x8x128.Slices ![0, 0, 0] S8x1x1) (h3 : S8x1x1.ShapeCasts S8)
    (h4 : S8.ReducesTo [0] S_) (h5 : 0 < S_.numel) (p : Fin 8 → ℝ)
    (h9 : ∀ I : Fin 8, v9 (ValueIdx.ix2 (⟨8 * I.val, by omega⟩ : Fin 64) (0 : Fin 128)) = ((p I : ℝ) : EReal))
    (i : S_.Idx) :
    Host.divf (Host.reduceAdd (shapeCast S8 (extractStridedSlice S8x1x1 ![0, 0, 0] (shapeCast S8x8x128 v9 h1) h2) h3)
        (constant (F := Ideal) S_ .f32 0x00000000#32) h4 h5) (constant (F := Ideal) S_ .f32 0x45800000#32) i
      = (((∑ I, p I) / 4096 : ℝ) : EReal) := by
  have hel : ∀ I : Fin 8, shapeCast S8 (extractStridedSlice S8x1x1 ![0, 0, 0] (shapeCast S8x8x128 v9 h1) h2) h3
      (ValueIdx.ix1 I) = ((p I : ℝ) : EReal) := by
    intro I
    rw [shapeCast_apply _ h3 (ValueIdx.ix1 I) (ValueIdx.ix3 I (0 : Fin 1) (0 : Fin 1))
        (by rw [Shape.rowMajor_val_three, Shape.rowMajor_val_one]; simp),
      extractStridedSlice_apply _ _ h2 _ (ValueIdx.ix3 I (0 : Fin 8) (0 : Fin 128))
        (by intro a; match a with | ⟨0, _⟩ => simp | ⟨1, _⟩ => simp | ⟨2, _⟩ => simp),
      shapeCast_apply _ h1 _ (ValueIdx.ix2 (⟨8 * I.val, by omega⟩ : Fin 64) (0 : Fin 128))
        (by rw [Shape.rowMajor_val_two, Shape.rowMajor_val_three]
            show 8 * I.val * 128 + 0 = (I.val * 8 + 0) * 128 + 0
            omega), h9]
  generalize shapeCast S8 (extractStridedSlice S8x1x1 ![0, 0, 0] (shapeCast S8x8x128 v9 h1) h2) h3 = y0 at hel
  have hsum : Host.reduceAdd y0 (constant (F := Ideal) S_ .f32 0x00000000#32) h4 h5 i = (((∑ I, p I : ℝ)) : EReal) := by
    simp only [Host.reduceAdd, Ideal.hostReduceAdd_def]
    rw [Ideal.hostReduceAdd_total h4 (fun b => b.elim0) y0 _ i, sum_idx1, Cert.ReferenceIdeal.RefValue.coe_sum]
    show Ideal.ofBits .f32 0x00000000#32 + _ = _
    rw [Cert.ReferenceIdeal.RefConsts.ofBits_zero, zero_add]
    exact Finset.sum_congr rfl fun I _ => hel I
  show Ideal.div (Host.reduceAdd y0 (constant (F := Ideal) S_ .f32 0x00000000#32) h4 h5 i) (Ideal.ofBits .f32 0x45800000#32) = _
  rw [hsum, Cert.ReferenceIdeal.RefConsts.ofBits_4096, Cert.ReferenceIdeal.RefValue.div_coe_coe _ (by norm_num : (4096 : ℝ) ≠ 0)]

/-- The last host stretch: the eight partial sums the second region leaves, one per block of eight rows of its output, are
    added and divided by 4096. -/
theorem result (m : (ℓ : Loc nD τ sig) → Buf (Elt Ideal) ℓ) (c : Dev nD) (outs : Outs (F := Ideal)) (p : Fin 8 → ℝ)
    (h9 : ∀ I : Fin 8, V4 m outs c main_v9 (ValueIdx.ix2 (⟨8 * I.val, by omega⟩ : Fin 64) (0 : Fin 128)) = ((p I : ℝ) : EReal)) :
    V5 m outs c main_v14 = fun _ => (((∑ I, p I) / 4096 : ℝ) : EReal) :=
  (V5_v14 m c outs (by decide) (by decide) (by decide) (by decide) (by decide)).trans
    (funext fun i => tail_apply _ _ _ _ _ _ p h9 i)

end Cert.KernelIdeal.HostValue

end
-- ==== Proof.BlockSums.lean ====
/-
  Eight block rows make the whole. The kernel's second pass leaves, per block row I of 512 rows, minus the sum over
  that block's rows and all columns of (P * k - log D) on the positive pairs; the host adds the eight and divides by
  4096. A sum over 4096 rows is the sum over the 8 blocks of the sums over each block's 512 rows, so this is the loss.
-/
import proofs.«114457_j13606456394199_2_alg».proof.Proof.Spec

noncomputable section

namespace Cert.Spec

/-- Row 512 * I + i of the 4096 rows: row i of block row I. -/
def blockRow (I : Fin 8) (i : Fin 512) : Fin 4096 := ⟨512 * I.val + i.val, by have := I.isLt; have := i.isLt; omega⟩

/-- A sum over the 4096 rows is the sum over the 8 block rows of the sums over each block's 512 rows. -/
theorem regroup (f : Fin 4096 → ℝ) : ∑ i : Fin 4096, f i = ∑ I : Fin 8, ∑ i : Fin 512, f (blockRow I i) := by
  let e : Fin 8 × Fin 512 ≃ Fin 4096 := finProdFinEquiv
  rw [← Equiv.sum_comp e f, Fintype.sum_prod_type]
  refine Finset.sum_congr rfl fun I _ => Finset.sum_congr rfl fun i _ => congrArg f (Fin.ext ?_)
  show (finProdFinEquiv (I, i)).val = 512 * I.val + i.val
  simp only [finProdFinEquiv_apply_val]
  omega

/-- What the second pass leaves for block row I: minus the block's share of the loss's double sum, with the column
    denominators written out. -/
def blockLoss (x : Fin 4096 → Fin 1024 → ℝ) (t : Fin 4096 → BitVec 32) (I : Fin 8) : ℝ :=
  -(∑ i : Fin 512, ∑ j : Fin 4096,
      (max (∑ a : Fin 1024, y x (blockRow I i) a * y x j a) e * k - Real.log (max (colSum x t j) e)) * pos t (blockRow I i) j)

/-- The eight block losses, added and divided by 4096, are the loss. -/
theorem loss_of_blocks (x : Fin 4096 → Fin 1024 → ℝ) (t : Fin 4096 → BitVec 32) :
    (∑ I : Fin 8, blockLoss x t I) / 4096 = loss x t := by
  unfold loss blockLoss
  rw [Finset.sum_neg_distrib, regroup (fun i => ∑ j, (P x i j * k - Real.log (D x t j)) * pos t i j)]
  rfl

end Cert.Spec

end
-- ==== Proof.KernelValue.lean ====
/-
  The idealized kernel program's result is the loss. The host operations before the regions leave the divided rows
  and the labels as a column and as a row; region 0 leaves, per column, the sum over the rows of another label of
  exp (P / c); region 1, reading those sums, leaves per block row minus the block's share of the loss's double sum;
  the host operations after the regions add the eight and divide by 4096.
-/
import proofs.«114457_j13606456394199_2_alg».proof.Proof.KernelWhole
import proofs.«114457_j13606456394199_2_alg».proof.Proof.DenomValue
import proofs.«114457_j13606456394199_2_alg».proof.Proof.LossValue
import proofs.«114457_j13606456394199_2_alg».proof.Proof.KerHost
import proofs.«114457_j13606456394199_2_alg».proof.Proof.BlockSums

noncomputable section

namespace Cert.KernelIdeal.Whole

open Cert.KernelIdeal Cert.KernelIdeal.Gen
open Idealize.ShloMosaic Idealize.ShloMosaic.TcCoe
open Idealize.SL.Sem

variable (m : (ℓ : Loc nD τ sig) → Buf (Elt Ideal) ℓ) (c : Dev nD) (xr : Fin 4096 → Fin 1024 → ℝ)
  (hx : ∀ i a, m ((c.tc : Thread nD τ).loc main_arg0) (ValueIdx.ix2 i a) = ((xr i a : ℝ) : EReal))

/-- The labels. -/
abbrev lab : Fin 4096 → BitVec 32 := fun i => m ((c.tc : Thread nD τ).loc main_arg1) (ValueIdx.ix1 i)

/-- Region 1 is entered from what the host operations left, but for region 0's output array. -/
theorem E1_of (b : Ref sig .tc) (hb : b ∉ ([main_v8] : List (Ref sig .tc))) : E1 m c b = V2 m c b :=
  (congrFun (V3_eq m c) b).symm.trans (V3_of m (outs m) c b hb)

/-- and that array holds what region 0 left. -/
theorem E1_out : E1 m c main_v8 = out8 m c :=
  (congrFun (V3_eq m c) main_v8).symm.trans (V3_out m c)

include hx in
/-- Region 0 leaves the column sums. -/
theorem denominators (j : Fin 4096) : out8 m c (ValueIdx.ix2 0 j) = ((Cert.Spec.colSum xr (lab m c) j : ℝ) : EReal) := by
  unfold out8
  exact Denom.out_value (E0 m) c (Cert.Spec.y xr) (lab m c) (HostValue.rows m c xr hx) (HostValue.labels_col m c) (HostValue.labels_row m c) j

/-- A column sum is not negative. -/
theorem colSum_nonneg (t : Fin 4096 → BitVec 32) (j : Fin 4096) : 0 ≤ Cert.Spec.colSum xr t j :=
  Finset.sum_nonneg fun i _ => mul_nonneg (Real.exp_pos _).le (by unfold Cert.Spec.neg; split <;> norm_num)

include hx in
/-- Region 1 leaves, in the entry the host reads for block row I, that block's loss. -/
theorem block_values (I : Fin 8) :
    out9 m c (ValueIdx.ix2 ⟨8 * I.val, by have := I.isLt; omega⟩ 0) = ((Cert.Spec.blockLoss xr (lab m c) I : ℝ) : EReal) := by
  unfold out9
  exact Loss.out_value (E1 m) c (Cert.Spec.y xr) (lab m c) (Cert.Spec.colSum xr (lab m c))
    (fun i a => by rw [E1_of m c main_v5 (by decide)]; exact HostValue.rows m c xr hx i a)
    (fun i => by rw [E1_of m c main_v6 (by decide)]; exact HostValue.labels_col m c i)
    (fun j => by rw [E1_of m c main_v7 (by decide)]; exact HostValue.labels_row m c j)
    (fun j => by rw [E1_out m c]; exact denominators m c xr hx j)
    (fun j => colSum_nonneg xr (lab m c) j) I

include hx in
/-- The program's result is the loss of the real matrix and the labels. -/
theorem result_value : V5 m (outs m) c main_v14 = fun _ => ((Cert.Spec.loss xr (lab m c) : ℝ) : EReal) := by
  rw [HostValue.result m c (outs m) (Cert.Spec.blockLoss xr (lab m c)) (fun I => by rw [V4_out m c]; exact block_values m c xr hx I),
    Cert.Spec.loss_of_blocks]

end Cert.KernelIdeal.Whole

end
-- ==== Proof.RefFinite.lean ====
/-
  Finiteness. The precondition says that the absolute value of every entry of the matrix argument is below the positive
  infinity; on the extended reals that leaves the real numbers, so every entry is the coercion of its real part.
-/
import Idealize.ShloMosaic.Lib.ReduceAll
import Idealize.ShloMosaic.Lib.ValueIdx
import proofs.«114457_j13606456394199_2_alg».proof.Pre_finite_inputs
import proofs.«114457_j13606456394199_2_alg».proof.Proof.RefConsts

noncomputable section

namespace Cert.ReferenceIdeal.RefValue

open Idealize.ShloMosaic

/-- An extended real whose absolute value is below the top element is the coercion of its real part. -/
theorem eq_coe_toReal_of_abs_lt_top (v : EReal) (h : Ideal.cmp .olt (max v (-v)) ⊤ = 1#1) : v = ((v.toReal : ℝ) : EReal) := by
  induction v using EReal.rec with
  | bot => simp [Ideal.cmp] at h
  | top => simp [Ideal.cmp] at h
  | coe r => simp

/-- If the finiteness predicate of the two arguments is all ones, every entry of the matrix is the coercion of its real part. -/
theorem real_of_fn [Cert.Pre_finite_inputs.Facts] (x0 : FVec Ideal Cert.Pre_finite_inputs.S4096x1024 .f32)
    (x1 : IVec Cert.Pre_finite_inputs.S4096 32) (h : Cert.Pre_finite_inputs.fn (F := Ideal) x0 x1 = fun _ => 1#1)
    (i : Fin 4096) (a : Fin 1024) :
    x0 (ValueIdx.ix2 i a) = (((x0 (ValueIdx.ix2 i a)).toReal : ℝ) : EReal) := by
  haveI : Subsingleton Cert.Pre_finite_inputs.S_.Idx := ⟨fun a b => funext fun d => d.elim0⟩
  have h0 := congrFun h ValueIdx.ix0
  dsimp only [Cert.Pre_finite_inputs.fn] at h0
  have hall := Host.reduce_andi_all _ _ _ _ _ h0 (ValueIdx.ix2 i a)
  have hlt : Ideal.cmp .olt (max (x0 (ValueIdx.ix2 i a)) (-(x0 (ValueIdx.ix2 i a)))) (Ideal.ofBits .f32 0x7F800000#32) = 1#1 := hall
  rw [Cert.ReferenceIdeal.RefConsts.ofBits_inf] at hlt
  exact eq_coe_toReal_of_abs_lt_top _ hlt

end Cert.ReferenceIdeal.RefValue

end
-- ==== Proof.RefStages2.lean ====
/-
  The middle stages of the reference on a real matrix and a label array: the exponential of the clamped Gram matrix over the
  temperature, the two masks, a column's sum over the rows of another label, and its clamp are the coercions of the
  specification's real quantities.
-/
import proofs.«114457_j13606456394199_2_alg».proof.Proof.RefStages1

noncomputable section

namespace Cert.ReferenceIdeal.RefValue

open Cert.ReferenceIdeal Cert.ReferenceIdeal.Gen Idealize.ShloMosaic Idealize.ShloMosaic.TcCoe Idealize.SL.Sem Idealize.ShloMosaic.StableHlo
open Cert.ReferenceIdeal.Read Cert.ReferenceIdeal.RefConsts

/-- An unsigned word read as a float is the coercion of its natural number. -/
theorem uitofp_eq {w : Nat} (b : BitVec w) : FloatOps.uitofp (F := Ideal) .f32 b = (((b.toNat : ℕ) : ℝ) : EReal) := rfl

/-- Two row numbers below 4096 are equal as 32-bit words exactly when they are equal. -/
theorem ofNat_eq_iff (i j : Fin 4096) : BitVec.ofNat 32 i.val = BitVec.ofNat 32 j.val ↔ i = j := by
  constructor
  · intro h
    have h2 := congrArg BitVec.toNat h
    simp only [BitVec.toNat_ofNat] at h2
    apply Fin.ext; omega
  · rintro rfl; rfl

/-- The comparison of two words for equality is the bit of their equality. -/
theorem cmpi_eq_bit {w : Nat} (a b : BitVec w) : IntOp.cmpi .eq a b = if a = b then 1#1 else 0#1 := by
  show BitVec.ofBool (a == b) = _
  by_cases h : a = b
  · rw [if_pos h, beq_iff_eq.mpr h]; rfl
  · rw [if_neg h, beq_eq_false_iff_ne.mpr h]; rfl

/-! ### Index equations -/

theorem idx_v14_ix (i j : Fin 4096) : idx_main_v12 (idx_main_v14 (ValueIdx.ix2 i j)) = ValueIdx.ix1 i :=
  funext fun b => Fin.ext (by match b with | ⟨0, _⟩ => rfl)

theorem idx_v15_ix (i j : Fin 4096) : idx_main_v13 (idx_main_v15 (ValueIdx.ix2 i j)) = ValueIdx.ix1 j :=
  funext fun b => Fin.ext (by match b with | ⟨0, _⟩ => rfl)

theorem idx_v28_ix (j k : Fin 4096) : idx_main_v28 (ValueIdx.ix1 j) k = ValueIdx.ix2 k j :=
  funext fun b => Fin.ext (by match b with | ⟨0, _⟩ => rfl | ⟨1, _⟩ => rfl)

/-! ### The masks -/

section Masks

variable (x1 : (⟨S4096, .i32⟩ : BufTy).Contents (Elt Ideal))

/-- The comparison of two rows' labels, as a bit. -/
theorem same_apply (i j : Fin 4096) :
    val_main_v16 (F := Ideal) x1 (ValueIdx.ix2 i j) = if x1 (ValueIdx.ix1 i) = x1 (ValueIdx.ix1 j) then 1#1 else 0#1 := by
  rw [val_main_v16_apply, val_main_v14_apply, val_main_v12_apply, idx_v14_ix, val_main_v15_apply, val_main_v13_apply, idx_v15_ix]
  exact cmpi_eq_bit _ _

/-- The identity matrix, as a bit. -/
theorem eye_apply (i j : Fin 4096) :
    val_main_v21 (F := Ideal) (ValueIdx.ix2 i j) = if i = j then 1#1 else 0#1 := by
  rw [val_main_v21_apply, val_main_v20_apply, val_main_v17_apply, val_main_v19_apply, val_main_c_apply, val_main_v18_apply]
  show IntOp.cmpi .eq (IntOp.addi (BitVec.ofNat 32 i.val) 0#32) (BitVec.ofNat 32 j.val) = _
  have h0 : IntOp.addi (BitVec.ofNat 32 i.val) 0#32 = BitVec.ofNat 32 i.val := by simp [IntOp.addi]
  rw [h0, cmpi_eq_bit]
  simp only [ofNat_eq_iff]

/-- The mask of the positive pairs. -/
theorem pos_apply (i j : Fin 4096) :
    val_main_v24 (F := Ideal) x1 (ValueIdx.ix2 i j) = ((Cert.Spec.pos (fun r => x1 (ValueIdx.ix1 r)) i j : ℝ) : EReal) := by
  rw [val_main_v24_apply, val_main_v23_apply, val_main_v22_apply, same_apply, eye_apply, uitofp_eq, uitofp_eq,
    Ideal.subf_def, ← EReal.coe_sub]
  unfold Cert.Spec.pos
  by_cases h1 : x1 (ValueIdx.ix1 i) = x1 (ValueIdx.ix1 j) <;> by_cases h2 : i = j <;> simp [h1, h2]

/-- The mask of the pairs of different labels. -/
theorem neg_apply (i j : Fin 4096) :
    val_main_v26 (F := Ideal) x1 (ValueIdx.ix2 i j) = ((Cert.Spec.neg (fun r => x1 (ValueIdx.ix1 r)) i j : ℝ) : EReal) := by
  rw [val_main_v26_apply, val_main_v25_apply, same_apply, uitofp_eq]
  unfold Cert.Spec.neg
  by_cases h1 : x1 (ValueIdx.ix1 i) = x1 (ValueIdx.ix1 j) <;> simp [h1]

end Masks

/-! ### The exponential, the column sums and their clamp -/

section Stages

variable (x0 : (⟨S4096x1024, .f32⟩ : BufTy).Contents (Elt Ideal)) (xr : Fin 4096 → Fin 1024 → ℝ)
  (hx : ∀ i a, x0 (ValueIdx.ix2 i a) = ((xr i a : ℝ) : EReal))
  (x1 : (⟨S4096, .i32⟩ : BufTy).Contents (Elt Ideal))

include hx

/-- The exponential of the clamped Gram matrix over the temperature. -/
theorem dist_apply (i j : Fin 4096) :
    val_main_v11 (F := Ideal) x0 (ValueIdx.ix2 i j) = ((Real.exp (Cert.Spec.P xr i j / Cert.Spec.c) : ℝ) : EReal) := by
  rw [val_main_v11_apply, val_main_v10_apply, P_apply x0 xr hx, val_main_v9_apply, val_main_cst_1_apply, Ideal.ofBits_def,
    ofBits_c, Ideal.hostDivf_def, div_coe_coe _ Cert.Spec.c_pos.ne', Ideal.hostUnary_exp_def, Ideal.exp_coe]

/-- A column's sum over the rows of another label. -/
theorem colSum_apply (j : Fin 4096) :
    val_main_v28 (F := Ideal) x0 x1 (ValueIdx.ix1 j)
      = ((Cert.Spec.colSum xr (fun r => x1 (ValueIdx.ix1 r)) j : ℝ) : EReal) := by
  rw [val_main_v28_apply, val_main_cst_2_apply, Ideal.ofBits_def, ofBits_zero, zero_add]
  unfold Cert.Spec.colSum
  rw [coe_sum]
  refine Finset.sum_congr rfl fun k _ => ?_
  rw [idx_v28_ix, val_main_v27_apply, dist_apply x0 xr hx, neg_apply, Ideal.mulf_def, EReal.coe_mul]

/-- A column's denominator. -/
theorem D_apply (j : Fin 4096) :
    val_main_v30 (F := Ideal) x0 x1 (ValueIdx.ix1 j)
      = ((Cert.Spec.D xr (fun r => x1 (ValueIdx.ix1 r)) j : ℝ) : EReal) := by
  rw [val_main_v30_apply, colSum_apply x0 xr hx, val_main_v29_apply, val_main_cst_3_apply, Ideal.ofBits_def, ofBits_e,
    Ideal.maximumf_def, ← coe_max]
  rfl

end Stages

end Cert.ReferenceIdeal.RefValue

end
-- ==== Proof.RefReal.lean ====
/-
  Facts over the real numbers about the specification's quantities: the clamped Gram matrix lies in (0, 1], the masks take the
  values 0 and 1, a column's denominator is positive, every positive pair passes the reference's threshold, and on such a
  pair the logarithm of the quotient is the term the loss sums.
-/
import proofs.«114457_j13606456394199_2_alg».proof.Proof.Spec
import proofs.«114457_j13606456394199_2_alg».proof.Proof.ThresholdConstants

noncomputable section

namespace Cert.ReferenceIdeal.RefValue

open Cert.Spec

theorem e_le_one : e ≤ 1 := by unfold e; norm_num

/-- A row's clamped norm, with the squares written as powers. -/
theorem nrm_eq (x : Fin 4096 → Fin 1024 → ℝ) (i : Fin 4096) : nrm x i = max (Real.sqrt (∑ a, x i a ^ 2)) d := by
  unfold nrm; simp only [pow_two]

theorem nrm_pos (x : Fin 4096 → Fin 1024 → ℝ) (i : Fin 4096) : 0 < nrm x i :=
  lt_of_lt_of_le d_pos (le_max_right _ _)

/-- The inner product of two divided rows is at most 1. -/
theorem gram_le_one (x : Fin 4096 → Fin 1024 → ℝ) (i j : Fin 4096) : ∑ a, y x i a * y x j a ≤ 1 := by
  have h := Cert.Lib.LogQuotientThreshold.inner_div_clamped_norm_le_one (x i) (x j) d_pos
  simp only [y, nrm_eq]
  exact h

theorem P_le_one (x : Fin 4096 → Fin 1024 → ℝ) (i j : Fin 4096) : P x i j ≤ 1 :=
  max_le (gram_le_one x i j) e_le_one

theorem P_pos (x : Fin 4096 → Fin 1024 → ℝ) (i j : Fin 4096) : 0 < P x i j :=
  lt_of_lt_of_le e_pos (le_max_right _ _)

theorem neg_nonneg (t : Fin 4096 → BitVec 32) (i j : Fin 4096) : 0 ≤ neg t i j := by
  unfold neg; split_ifs <;> norm_num

theorem neg_le_one (t : Fin 4096 → BitVec 32) (i j : Fin 4096) : neg t i j ≤ 1 := by
  unfold neg; split_ifs <;> norm_num

/-- The mask of the positive pairs takes the values 1 and 0. -/
theorem pos_cases (t : Fin 4096 → BitVec 32) (i j : Fin 4096) : pos t i j = 1 ∨ pos t i j = 0 := by
  unfold pos
  by_cases h2 : i = j
  · subst h2; right; simp
  · by_cases h1 : t i = t j
    · left; simp [h1, h2]
    · right; simp [h1, h2]

theorem D_pos (x : Fin 4096 → Fin 1024 → ℝ) (t : Fin 4096 → BitVec 32) (j : Fin 4096) : 0 < D x t j :=
  lt_of_lt_of_le e_pos (le_max_right _ _)

/-- Every pair passes the threshold once its mask is set: the quotient is at least e. -/
theorem keeps (x : Fin 4096 → Fin 1024 → ℝ) (t : Fin 4096 → BitVec 32) (i j : Fin 4096) :
    e ≤ Real.exp (P x i j / c) / D x t j :=
  Cert.Proof.ThresholdConstants.threshold_keeps (P x i j) (P_pos x i j).le (fun r => P x r j) (fun r => neg t r j)
    (fun r => P_le_one x r j) (fun r => neg_nonneg t r j) (fun r => neg_le_one t r j)

/-- The logarithm of the quotient is the term the loss sums. -/
theorem log_eq (x : Fin 4096 → Fin 1024 → ℝ) (t : Fin 4096 → BitVec 32) (i j : Fin 4096) :
    Real.log (Real.exp (P x i j / c) / D x t j) = P x i j * k - Real.log (D x t j) :=
  Cert.Proof.ThresholdConstants.log_quotient_eq (P x i j) (D x t j) (D_pos x t j)

end Cert.ReferenceIdeal.RefValue

end
-- ==== Proof.RefStages3.lean ====
/-
  One entry of the reference's summand. The quotient of the exponential times the positive mask by the column's denominator
  is compared with the threshold; where it passes, its logarithm is taken, elsewhere 0. On a positive pair the quotient passes
  and its logarithm is the clamped Gram entry times the reciprocal of the temperature minus the logarithm of the denominator; on
  any other pair the quotient is 0, below the threshold. Either way the entry is that difference times the positive mask.
-/
import proofs.«114457_j13606456394199_2_alg».proof.Proof.RefStages2
import proofs.«114457_j13606456394199_2_alg».proof.Proof.RefReal

noncomputable section

namespace Cert.ReferenceIdeal.RefValue

open Cert.ReferenceIdeal Cert.ReferenceIdeal.Gen Idealize.ShloMosaic Idealize.ShloMosaic.TcCoe Idealize.SL.Sem Idealize.ShloMosaic.StableHlo
open Cert.ReferenceIdeal.Read Cert.ReferenceIdeal.RefConsts

/-- A float comparison on the extended reals is the comparison of the linear order. -/
theorem cmpf_eq (p : CmpFPredicate) (x y : EReal) : FloatOps.cmpf (F := Ideal) (φ := .f32) p x y = Ideal.cmp p x y := rfl

/-- A real at least another compares as such: the bit is 1. -/
theorem cmp_oge_of_le {a b : ℝ} (h : b ≤ a) : Ideal.cmp .oge (a : EReal) (b : EReal) = 1#1 := by
  show BitVec.ofBool (decide ((b : EReal) ≤ (a : EReal))) = 1#1
  rw [decide_eq_true (EReal.coe_le_coe_iff.mpr h)]; rfl

/-- A real below another does not: the bit is 0. -/
theorem cmp_oge_of_lt {a b : ℝ} (h : a < b) : Ideal.cmp .oge (a : EReal) (b : EReal) = 0#1 := by
  show BitVec.ofBool (decide ((b : EReal) ≤ (a : EReal))) = 0#1
  rw [decide_eq_false (fun hle => absurd (EReal.coe_le_coe_iff.mp hle) (not_le.mpr h))]; rfl

theorem idx_v33_ix (i j : Fin 4096) : idx_main_v32 (idx_main_v33 (ValueIdx.ix2 i j)) = ValueIdx.ix1 j :=
  funext fun b => Fin.ext (by match b with | ⟨0, _⟩ => rfl)

section Stages

variable (x0 : (⟨S4096x1024, .f32⟩ : BufTy).Contents (Elt Ideal)) (xr : Fin 4096 → Fin 1024 → ℝ)
  (hx : ∀ i a, x0 (ValueIdx.ix2 i a) = ((xr i a : ℝ) : EReal))
  (x1 : (⟨S4096, .i32⟩ : BufTy).Contents (Elt Ideal))

include hx

/-- The quotient the reference compares with its threshold. -/
theorem frac_apply (i j : Fin 4096) :
    val_main_v34 (F := Ideal) x0 x1 (ValueIdx.ix2 i j)
      = ((Real.exp (Cert.Spec.P xr i j / Cert.Spec.c) * Cert.Spec.pos (fun r => x1 (ValueIdx.ix1 r)) i j
          / Cert.Spec.D xr (fun r => x1 (ValueIdx.ix1 r)) j : ℝ) : EReal) := by
  rw [val_main_v34_apply, val_main_v31_apply, dist_apply x0 xr hx, pos_apply, val_main_v33_apply, val_main_v32_apply,
    idx_v33_ix, D_apply x0 xr hx, Ideal.mulf_def, ← EReal.coe_mul, Ideal.hostDivf_def,
    div_coe_coe _ (D_pos xr (fun r => x1 (ValueIdx.ix1 r)) j).ne']

/-- One entry of the summand. -/
theorem term_apply (i j : Fin 4096) :
    val_main_v39 (F := Ideal) x0 x1 (ValueIdx.ix2 i j)
      = (((Cert.Spec.P xr i j * Cert.Spec.k - Real.log (Cert.Spec.D xr (fun r => x1 (ValueIdx.ix1 r)) j))
          * Cert.Spec.pos (fun r => x1 (ValueIdx.ix1 r)) i j : ℝ) : EReal) := by
  rw [val_main_v39_apply, val_main_v38_apply, val_main_v37_apply, val_main_v36_apply, frac_apply x0 xr hx x1,
    val_main_v35_apply, val_main_cst_4_apply, val_main_call2_v1_apply, val_main_call2_v0_apply, val_main_cst_6_apply,
    val_main_call1_v1_apply, val_main_call1_v0_apply, val_main_cst_5_apply]
  simp only [Ideal.ofBits_def, ofBits_e, ofBits_zero, ofBits_one, Ideal.hostUnary_log_def, cmpf_eq]
  rcases pos_cases (fun r => x1 (ValueIdx.ix1 r)) i j with hp | hp
  · have hk := keeps xr (fun r => x1 (ValueIdx.ix1 r)) i j
    rw [hp, mul_one, mul_one, cmp_oge_of_le hk, ValueIdx.select_one, ValueIdx.select_one, Ideal.log_coe,
      if_neg (not_le.mpr (lt_of_lt_of_le Cert.Spec.e_pos hk)), log_eq]
  · rw [hp, mul_zero, mul_zero, zero_div, cmp_oge_of_lt Cert.Spec.e_pos, ValueIdx.select_zero, EReal.coe_zero]

end Stages

end Cert.ReferenceIdeal.RefValue

end
-- ==== Proof.RefValue.lean ====
/-
  The reference's result, read on the extended reals, is the loss of the specification: under the precondition every entry
  of the matrix argument is a real number, and then every stage of the reference is the coercion of the corresponding real
  quantity of the specification; the total of the summand's entries, negated and divided by 4096, is the loss.
-/
import proofs.«114457_j13606456394199_2_alg».proof.Defs
import proofs.«114457_j13606456394199_2_alg».proof.Proof.Gen.Pre_finite_inputs
import proofs.«114457_j13606456394199_2_alg».proof.Proof.Gen.ReferenceIdeal.Read
import proofs.«114457_j13606456394199_2_alg».proof.Proof.Spec
import proofs.«114457_j13606456394199_2_alg».proof.Proof.ThresholdConstants
import proofs.«114457_j13606456394199_2_alg».proof.Proof.RefFinite
import proofs.«114457_j13606456394199_2_alg».proof.Proof.RefStages3

noncomputable section

namespace Cert.ReferenceIdeal.RefValue

open Cert.ReferenceIdeal Cert.ReferenceIdeal.Gen Idealize.ShloMosaic Idealize.ShloMosaic.TcCoe Idealize.SL.Sem Idealize.ShloMosaic.StableHlo
open Cert.ReferenceIdeal.Read Cert.ReferenceIdeal.RefConsts

/-- The last stage: the total of the summand's entries, negated and divided by 4096, is the loss. -/
theorem loss_apply (x0 : (⟨S4096x1024, .f32⟩ : BufTy).Contents (Elt Ideal)) (xr : Fin 4096 → Fin 1024 → ℝ)
    (hx : ∀ i a, x0 (ValueIdx.ix2 i a) = ((xr i a : ℝ) : EReal))
    (x1 : (⟨S4096, .i32⟩ : BufTy).Contents (Elt Ideal)) (i : S_.Idx) :
    val_main_v42 (F := Ideal) x0 x1 i = ((Cert.Spec.loss xr (fun r => x1 (ValueIdx.ix1 r)) : ℝ) : EReal) := by
  rw [val_main_v42_apply, val_main_v41_apply, val_main_v40_apply, val_main_cst_7_apply, val_main_cst_8_apply,
    Ideal.ofBits_def, Ideal.ofBits_def, ofBits_zero, ofBits_4096, zero_add, ValueIdx.sum_idx2]
  have hs : (∑ a : Fin 4096, ∑ b : Fin 4096, val_main_v39 (F := Ideal) x0 x1 (ValueIdx.ix2 a b))
      = ((∑ a : Fin 4096, ∑ b : Fin 4096,
          (Cert.Spec.P xr a b * Cert.Spec.k - Real.log (Cert.Spec.D xr (fun r => x1 (ValueIdx.ix1 r)) b))
            * Cert.Spec.pos (fun r => x1 (ValueIdx.ix1 r)) a b : ℝ) : EReal) := by
    rw [coe_sum]
    refine Finset.sum_congr rfl fun a _ => ?_
    rw [coe_sum]
    refine Finset.sum_congr rfl fun b _ => ?_
    exact term_apply x0 xr hx x1 a b
  rw [hs, Ideal.hostNegf_def, Ideal.negf_def, ← EReal.coe_neg, Ideal.hostDivf_def, div_coe_coe _ (by norm_num : (4096 : ℝ) ≠ 0)]
  rfl

/-- Under the precondition every entry of the matrix argument is a real number. -/
theorem real_of_pre [Cert.ReferenceIdeal.Facts] [Cert.Pre_finite_inputs.Facts]
    (m : (ℓ : Loc Cert.ReferenceIdeal.nD Cert.ReferenceIdeal.τ Cert.ReferenceIdeal.sig) → Buf (Elt Ideal) ℓ)
    (h : Cert.Pre_ReferenceIdeal m) (c : Dev Cert.ReferenceIdeal.nD) :
    ∃ xr : Fin 4096 → Fin 1024 → ℝ, ∀ i a,
      m ((c.tc : Thread Cert.ReferenceIdeal.nD Cert.ReferenceIdeal.τ).loc Cert.ReferenceIdeal.main_arg0) (ValueIdx.ix2 i a) = ((xr i a : ℝ) : EReal) :=
  ⟨fun i a => (m ((c.tc : Thread Cert.ReferenceIdeal.nD Cert.ReferenceIdeal.τ).loc Cert.ReferenceIdeal.main_arg0) (ValueIdx.ix2 i a)).toReal,
    fun i a => real_of_fn _ _ (h c) i a⟩

/-- The reference's result is the loss of the real matrix and the labels. -/
theorem result_eq_loss
    (m : (ℓ : Loc Cert.ReferenceIdeal.nD Cert.ReferenceIdeal.τ Cert.ReferenceIdeal.sig) → Buf (Elt Ideal) ℓ)
    (c : Dev Cert.ReferenceIdeal.nD) (xr : Fin 4096 → Fin 1024 → ℝ)
    (hx : ∀ i a, m ((c.tc : Thread Cert.ReferenceIdeal.nD Cert.ReferenceIdeal.τ).loc Cert.ReferenceIdeal.main_arg0) (ValueIdx.ix2 i a) = ((xr i a : ℝ) : EReal)) :
    Cert.ReferenceIdeal.Value.res_main_v42 (F := Ideal) m c
      = fun _ => ((Cert.Spec.loss xr (fun i => m ((c.tc : Thread Cert.ReferenceIdeal.nD Cert.ReferenceIdeal.τ).loc Cert.ReferenceIdeal.main_arg1) (ValueIdx.ix1 i)) : ℝ) : EReal) :=
  (val_main_v42_eq m c).trans (funext fun i => loss_apply _ xr hx _ i)

end Cert.ReferenceIdeal.RefValue

end
-- ==== Proof.lean ====
/- The claim of this certificate is the conjunction of three frames, the idealization's one ledger entry, and the
   equality of the idealized kernel's and the idealized reference's scalar result on the extended reals.

   The mathematics. Write x for the 4096 x 1024 input, y_i = x_i / max(|x_i|, d) for its rows divided by their clamped
   Euclidean norms, P_ij = max(<y_i, y_j>, e) for the clamped Gram matrix, c for the exact binary value of the temperature
   word (13421773 / 2^27, not 1/10), and D_j = max(sum over rows i of another class than j of exp(P_ij / c), e).
   A pair (i, j) is positive when i and j carry the same label and i differs from j.
   The reference sums, over the pairs whose quotient exp(P_ij / c) / D_j is at least e, the logarithm of that quotient;
   the kernel sums, over the positive pairs, P_ij * k - log D_j, with k the constant its second pass multiplies by.
   Both negate the sum and divide by 4096. With k read as 1/c the two agree: log (exp a / D) = a - log D for a real a
   and a positive real D, and every positive pair passes the reference's threshold because P_ij <= 1 (Cauchy-Schwarz on
   rows of norm at most 1) bounds D_j by 4095 * exp (1/c), far below 1/e, while a pair that is not positive has quotient 0.
   The real-number steps of this paragraph are the lemmas of LibLogQuotientThreshold and ThresholdConstants.

   How the proof is laid out. Spec states the loss as one function of a real matrix and the labels. The reference's
   result is that loss (RefValue, over the generated read-at-an-index lemmas: the divided rows, the Gram matrix, the
   masks, the column denominators, then the summand by cases on whether the pair is positive). The kernel program is
   five segments — host operations, the two kernel regions, host operations — and KernelWhole runs them in order:
   each region is entered by taking its arrays out of the buffers that outlive it, the one array two of its windows
   read dealt to them in halves (ShareSplit), its body obligation is proved point by point with the accumulator
   carried in the invariant (Denom, Loss), and it is left with its output array replaced; so every such buffer ends
   at a fold from the launch memory, from which the arguments (the frames) and the result are read. The result is
   the loss again (KernelValue): the host operations before the regions leave the divided rows and the labels
   (KerHost), region 0 the column sums (DenomValue), region 1 one block loss per block row (LossValue), and eight
   block losses added and divided by 4096 are the loss (BlockSums). The word-level program is run the same way
   (the Word modules are the same text at the other instance). -/
import proofs.«114457_j13606456394199_2_alg».proof.Defs
import proofs.«114457_j13606456394199_2_alg».proof.Proof.Gen.Kernel
import proofs.«114457_j13606456394199_2_alg».proof.Proof.Gen.Kernel.Skeleton
import proofs.«114457_j13606456394199_2_alg».proof.Proof.Gen.Kernel.Launch
import proofs.«114457_j13606456394199_2_alg».proof.Proof.Gen.Kernel.Regions
import proofs.«114457_j13606456394199_2_alg».proof.Proof.Gen.Kernel.Points
import proofs.«114457_j13606456394199_2_alg».proof.Proof.Gen.KernelIdeal
import proofs.«114457_j13606456394199_2_alg».proof.Proof.Gen.KernelIdeal.Skeleton
import proofs.«114457_j13606456394199_2_alg».proof.Proof.Gen.KernelIdeal.Launch
import proofs.«114457_j13606456394199_2_alg».proof.Proof.Gen.KernelIdeal.Regions
import proofs.«114457_j13606456394199_2_alg».proof.Proof.Gen.KernelIdeal.Points
import proofs.«114457_j13606456394199_2_alg».proof.Proof.Gen.ReferenceIdeal
import proofs.«114457_j13606456394199_2_alg».proof.Proof.Gen.Pre_finite_inputs
import proofs.«114457_j13606456394199_2_alg».proof.Proof.Gen.ReferenceIdeal.Run
import proofs.«114457_j13606456394199_2_alg».proof.Proof.Gen.ReferenceIdeal.Read
import proofs.«114457_j13606456394199_2_alg».proof.Proof.ThresholdConstants
import proofs.«114457_j13606456394199_2_alg».proof.Proof.KernelWhole
import proofs.«114457_j13606456394199_2_alg».proof.Proof.WordKernelWhole
import proofs.«114457_j13606456394199_2_alg».proof.Proof.KernelValue
import proofs.«114457_j13606456394199_2_alg».proof.Proof.RefValue
import Idealize.ShloMosaic.Adequacy
import Idealize.ShloMosaic.Init

noncomputable section

namespace Cert.Proof

open Idealize.ShloMosaic Idealize.SL.Sem

/-- The one ledger entry: the table gives the second pass's scale the value 134217728 / 13421773, the exact reciprocal of
    the temperature word's binary value, and the printed constant is that value on the extended reals. -/
theorem preserves : Cert.preserves_Kernel_KernelIdeal :=
  IdealRules.named_const.statement Cert.KernelIdeal.κ "inv_temperature" .f32 0x41200000#32 ((134217728 / 13421773 : ℝ) : EReal) rfl

/-- The reference is a straight line of host operations: its run ends with the arguments unchanged. -/
theorem frame_reference [Cert.ReferenceIdeal.Facts] [Cert.Pre_finite_inputs.Facts] : Cert.frame_ReferenceIdeal := fun m ρ _ =>
  (θ_run Cert.ReferenceIdeal.defs _ _).mono (fun _ h c => (h c).2) (Cert.ReferenceIdeal.Value.run (F := Ideal) m ρ)

/-- The idealized kernel program runs to its end, and its two arguments end as launched: they are two of the buffers
    that outlive the kernel regions, no host operation writes them and no region may change them. -/
theorem frame_kernel_ideal [Cert.KernelIdeal.Facts] [Cert.Pre_finite_inputs.Facts] : Cert.frame_KernelIdeal := fun m ρ _ =>
  (θ_run Cert.KernelIdeal.defs _ _).mono (fun r h c =>
      ⟨(h c (Proc.devRef .tc Cert.KernelIdeal.main_arg0) (Finset.mem_filter.mpr ⟨StableHlo.devRef_mem_tcRefs Cert.KernelIdeal.main_arg0, by decide⟩)).trans
          (Cert.KernelIdeal.Gen.V5_main_arg0 m (Cert.KernelIdeal.Whole.outs m) c),
        (h c (Proc.devRef .tc Cert.KernelIdeal.main_arg1) (Finset.mem_filter.mpr ⟨StableHlo.devRef_mem_tcRefs Cert.KernelIdeal.main_arg1, by decide⟩)).trans
          (Cert.KernelIdeal.Gen.V5_main_arg1 m (Cert.KernelIdeal.Whole.outs m) c)⟩)
    (Cert.KernelIdeal.Whole.run (F := Ideal) m ρ)

/-- The same of the kernel program as printed, at the word level. -/
theorem frame_kernel [Cert.Kernel.Facts] [Cert.Pre_finite_inputs.Facts] : Cert.frame_Kernel := fun m ρ _ =>
  (θ_run Cert.Kernel.defs _ _).mono (fun r h c =>
      ⟨(h c (Proc.devRef .tc Cert.Kernel.main_arg0) (Finset.mem_filter.mpr ⟨StableHlo.devRef_mem_tcRefs Cert.Kernel.main_arg0, by decide⟩)).trans
          (Cert.Kernel.Gen.V5_main_arg0 m (Cert.Kernel.Whole.outs m) c),
        (h c (Proc.devRef .tc Cert.Kernel.main_arg1) (Finset.mem_filter.mpr ⟨StableHlo.devRef_mem_tcRefs Cert.Kernel.main_arg1, by decide⟩)).trans
          (Cert.Kernel.Gen.V5_main_arg1 m (Cert.Kernel.Whole.outs m) c)⟩)
    (Cert.Kernel.Whole.run (F := Bits) m ρ)

/-- Under the precondition the matrix argument is real; the idealized kernel program ends with its result at the loss of
    that matrix and the labels (the run of the program, its result read off the last valuation), and the reference with
    its result at the same loss; the arguments end as launched on both sides. -/
theorem results_equal [Cert.KernelIdeal.Facts] [Cert.ReferenceIdeal.Facts] [Cert.Pre_finite_inputs.Facts] :
    Cert.algebraic_KernelIdeal_ReferenceIdeal := by
  intro m ρ m' ρ' hpre hagree
  have hpre' : Cert.Pre_ReferenceIdeal m' := fun c => by rw [(hagree c).1, (hagree c).2]; exact hpre c
  choose xr hxr using fun c => Cert.ReferenceIdeal.RefValue.real_of_pre m' hpre' c
  refine ⟨fun c _ => ((Cert.Spec.loss (xr c) (fun i => m' ((c.tc : Thread Cert.ReferenceIdeal.nD Cert.ReferenceIdeal.τ).loc Cert.ReferenceIdeal.main_arg1) (ValueIdx.ix1 i)) : ℝ) : EReal), ?_, ?_⟩
  · refine (θ_run Cert.KernelIdeal.defs _ _).mono (fun r h c => ⟨?_, ?_, ?_⟩) (Cert.KernelIdeal.Whole.run (F := Ideal) m ρ)
    · refine (h c (Proc.devRef .tc Cert.KernelIdeal.main_v14) (Finset.mem_filter.mpr ⟨StableHlo.devRef_mem_tcRefs Cert.KernelIdeal.main_v14, by decide⟩)).trans ?_
      rw [Cert.KernelIdeal.Whole.result_value m c (xr c) (fun i a => by rw [← (hagree c).1]; exact hxr c i a)]
      funext _
      dsimp only [Cert.KernelIdeal.Whole.lab]
      rw [(hagree c).2]
    · exact (h c (Proc.devRef .tc Cert.KernelIdeal.main_arg0) (Finset.mem_filter.mpr ⟨StableHlo.devRef_mem_tcRefs Cert.KernelIdeal.main_arg0, by decide⟩)).trans
        (Cert.KernelIdeal.Gen.V5_main_arg0 m (Cert.KernelIdeal.Whole.outs m) c)
    · exact (h c (Proc.devRef .tc Cert.KernelIdeal.main_arg1) (Finset.mem_filter.mpr ⟨StableHlo.devRef_mem_tcRefs Cert.KernelIdeal.main_arg1, by decide⟩)).trans
        (Cert.KernelIdeal.Gen.V5_main_arg1 m (Cert.KernelIdeal.Whole.outs m) c)
  · exact (θ_run Cert.ReferenceIdeal.defs _ _).mono
      (fun r h c => ⟨(h c).1.trans (Cert.ReferenceIdeal.RefValue.result_eq_loss m' c (xr c) (hxr c)), (h c).2⟩)
      (Cert.ReferenceIdeal.Value.run (F := Ideal) m' ρ')

theorem claim : Cert.Claim := ⟨Cert.Kernel.Gen.facts, Cert.KernelIdeal.Gen.facts, Cert.ReferenceIdeal.Gen.facts, Cert.Pre_finite_inputs.Gen.facts, by
  exact ⟨frame_kernel, frame_kernel_ideal, frame_reference, preserves, results_equal⟩⟩

end Cert.Proof

end
